-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_
  bcast_S_S50000x100 : S_.BroadcastsInDim S50000x100 (![] : Fin 0 → Fin S50000x100.rank)
  reducesTo_S50000x100_S_d0_1 : S50000x100.ReducesTo [0, 1] S_
  bcast_S_S50000x1 : S_.BroadcastsInDim S50000x1 (![] : Fin 0 → Fin S50000x1.rank)
  reducesTo_S50000x1_S_d0_1 : S50000x1.ReducesTo [0, 1] S_

variable [Facts]

def fn_part2 {F : FTy → Type} [FloatOps F] (main_arg7 : FVec F S50000x100 .f32) (main_arg8 : FVec F S50000x1 .f32) (main_v33 : IVec S_ 1) : IVec S_ 1 :=
  let main_v34 : FVec F S50000x100 .f32 := Host.absf main_arg7
  let main_cst_12 : FVec F S_ .f32 := constant S_ .f32 0x7F800000#32
  let main_v35 : FVec F S50000x100 .f32 := broadcastInDim S50000x100 ![] bcast_S_S50000x100 main_cst_12
  let main_v36 : IVec S50000x100 1 := cmpf .olt main_v34 main_v35
  let main_c_13 : IVec S_ 1 := constantI S_ 1 1#1
  let main_v37 : IVec S_ 1 := (fun x v => Host.reduce IntOp.andi x v reducesTo_S50000x100_S_d0_1 h_S_) main_v36 main_c_13
  let main_v38 : IVec S_ 1 := andi main_v33 main_v37
  let main_v39 : FVec F S50000x1 .f32 := Host.absf main_arg8
  let main_cst_14 : FVec F S_ .f32 := constant S_ .f32 0x7F800000#32
  let main_v40 : FVec F S50000x1 .f32 := broadcastInDim S50000x1 ![] bcast_S_S50000x1 main_cst_14
  let main_v41 : IVec S50000x1 1 := cmpf .olt main_v39 main_v40
  let main_c_15 : IVec S_ 1 := constantI S_ 1 1#1
  let main_v42 : IVec S_ 1 := (fun x v => Host.reduce IntOp.andi x v reducesTo_S50000x1_S_d0_1 h_S_) main_v41 main_c_15
  let main_v43 : IVec S_ 1 := andi main_v38 main_v42
  main_v43

def fn_part1 {F : FTy → Type} [FloatOps F] (main_arg4 : FVec F S100 .f32) (main_arg5 : FVec F S50x1 .f32) (main_arg6 : FVec F S1 .f32) (main_arg7 : FVec F S50000x100 .f32) (main_arg8 : FVec F S50000x1 .f32) (main_v13 : IVec S_ 1) (main_v16 : IVec S50x100 1) : IVec S_ 1 :=
  let main_c_5 : IVec S_ 1 := constantI S_ 1 1#1
  let main_v17 : IVec S_ 1 := (fun x v => Host.reduce IntOp.andi x v reducesTo_S50x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S50x1 .f32 := Host.absf main_arg5
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S50000x50 .f32) (main_arg1 : FVec F S100x50 .f32) (main_arg2 : FVec F S50 .f32) (main_arg3 : FVec F S50x100 .f32) (main_arg4 : FVec F S100 .f32) (main_arg5 : FVec F S50x1 .f32) (main_arg6 : FVec F S1 .f32) (main_arg7 : FVec F S50000x100 .f32) (main_arg8 : FVec F S50000x1 .f32) (main_arg9 : IVec S65536 32) (main_arg10 : IVec S65536x10 32) (main_arg11 : IVec S65536x10 32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S100x50 .f32 := Host.absf main_arg1
  let main_cst_0 : FVec F S_ .f32 := constant S_ .f32 0x7F800000#32
  let main_v5 : FVec F S100x50 .f32 := broadcastInDim S100x50 ![] bcast_S_S100x50 main_cst_0
  let main_v6 : IVec S100x50 1 := cmpf .olt main_v4 main_v5
  let main_c_1 : IVec S_ 1 := constantI S_ 1 1#1
  let main_v7 : IVec S_ 1 := (fun x v => Host.reduce IntOp.andi x v reducesTo_S100x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x100 .f32 := Host.absf main_arg3
  let main_cst_4 : FVec F S_ .f32 := constant S_ .f32 0x7F800000#32
  let main_v15 : FVec F S50x100 .f32 := broadcastInDim S50x100 ![] bcast_S_S50x100 main_cst_4
  let main_v16 : IVec S50x100 1 := cmpf .olt main_v14 main_v15
  fn_part1 (F := F) main_arg4 main_arg5 main_arg6 main_arg7 main_arg8 main_v13 main_v16
-- ==== Kernel.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S50000x101 : Shape := ⟨2, ![50000, 101]⟩
abbrev S_ : Shape := ⟨0, ![]⟩
abbrev S65536x10x1 : Shape := ⟨3, ![65536, 10, 1]⟩
abbrev S65536x10x50 : Shape := ⟨3, ![65536, 10, 50]⟩
abbrev S65536x1 : Shape := ⟨2, ![65536, 1]⟩
abbrev S65536x50 : Shape := ⟨2, ![65536, 50]⟩
abbrev S65536x10x101 : Shape := ⟨3, ![65536, 10, 101]⟩
abbrev S65536x101 : Shape := ⟨2, ![65536, 101]⟩
abbrev S50x50 : Shape := ⟨2, ![50, 50]⟩
abbrev S1x50 : Shape := ⟨2, ![1, 50]⟩
abbrev S1x100 : Shape := ⟨2, ![1, 100]⟩
abbrev S1x1 : Shape := ⟨2, ![1, 1]⟩
abbrev S16x128 : Shape := ⟨2, ![16, 128]⟩
abbrev S256x10x50 : Shape := ⟨3, ![256, 10, 50]⟩
abbrev S256x50 : Shape := ⟨2, ![256, 50]⟩
abbrev S256x10x101 : Shape := ⟨3, ![256, 10, 101]⟩
abbrev S256x101 : Shape := ⟨2, ![256, 101]⟩
abbrev S8x128 : Shape := ⟨2, ![8, 128]⟩
abbrev S2560x50 : Shape := ⟨2, ![2560, 50]⟩
abbrev S256x1x50 : Shape := ⟨3, ![256, 1, 50]⟩
abbrev S1x1x50 : Shape := ⟨3, ![1, 1, 50]⟩
abbrev S256x100 : Shape := ⟨2, ![256, 100]⟩
abbrev S256x1 : Shape := ⟨2, ![256, 1]⟩
abbrev S256x10x100 : Shape := ⟨3, ![256, 10, 100]⟩
abbrev S256x10x1 : Shape := ⟨3, ![256, 10, 1]⟩
abbrev S256x10 : Shape := ⟨2, ![256, 10]⟩
abbrev S256x1x100 : Shape := ⟨3, ![256, 1, 100]⟩
abbrev S256 : Shape := ⟨1, ![256]⟩
abbrev S1x127 : Shape := ⟨2, ![1, 127]⟩
abbrev S1x128 : Shape := ⟨2, ![1, 128]⟩
abbrev S7x128 : Shape := ⟨2, ![7, 128]⟩

abbrev nBuf : Space → Nat
  | .hbm => 75
  | .vmem => 19
  | .smem => 0
  | _ => 0

abbrev bufTy : (tb : Table) → Fin (tcTables nBuf tb) → BufTy
  | .hbm, ⟨0, _⟩ => ⟨S50000x50, .f32⟩
  | .hbm, ⟨1, _⟩ => ⟨S100x50, .f32⟩
  | .hbm, ⟨2, _⟩ => ⟨S50, .f32⟩
  | .hbm, ⟨3, _⟩ => ⟨S50x100, .f32⟩
  | .hbm, ⟨4, _⟩ => ⟨S100, .f32⟩
  | .hbm, ⟨5, _⟩ => ⟨S50x1, .f32⟩
  | .hbm, ⟨6, _⟩ => ⟨S1, .f32⟩
  | .hbm, ⟨7, _⟩ => ⟨S50000x100, .f32⟩
  | .hbm, ⟨8, _⟩ => ⟨S50000x1, .f32⟩
  | .hbm, ⟨9, _⟩ => ⟨S65536, .i32⟩
  | .hbm, ⟨10, _⟩ => ⟨S65536x10, .i32⟩
  | .hbm, ⟨11, _⟩ => ⟨S65536x10, .i32⟩
  | .hbm, ⟨12, _⟩ => ⟨S50000x101, .f32⟩
  | .hbm, ⟨13, _⟩ => ⟨S_, .i32⟩
  | .hbm, ⟨14, _⟩ => ⟨S65536x10, .i32⟩
  | .hbm, ⟨15, _⟩ => ⟨S65536x10, .i1⟩
  | .hbm, ⟨16, _⟩ => ⟨S_, .i32⟩
  | .hbm, ⟨17, _⟩ => ⟨S65536x10, .i32⟩
  | .hbm, ⟨18, _⟩ => ⟨S65536x10, .i32⟩
  | .hbm, ⟨19, _⟩ => ⟨S65536x10, .i32⟩
  | .hbm, ⟨20, _⟩ => ⟨S65536x10x1, .i32⟩
  | .hbm, ⟨21, _⟩ => ⟨S65536x10x50, .f32⟩
  | .hbm, ⟨22, _⟩ => ⟨S65536x10x50, .bf16⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536x50, .f32⟩
  | .hbm, ⟨32, _⟩ => ⟨S65536x50, .bf16⟩
  | .hbm, ⟨33, _⟩ => ⟨S_, .i32⟩
  | .hbm, ⟨34, _⟩ => ⟨S65536x10, .i32⟩
  | .hbm, ⟨35, _⟩ => ⟨S65536x10, .i1⟩
  | .hbm, ⟨36, _⟩ => ⟨S_, .i32⟩
  | .hbm, ⟨37, _⟩ => ⟨S65536x10, .i32⟩
  | .hbm, ⟨38, _⟩ => ⟨S65536x10, .i32⟩
  | .hbm, ⟨39, _⟩ => ⟨S65536x10, .i32⟩
  | .hbm, ⟨40, _⟩ => ⟨S65536x10x1, .i32⟩
  | .hbm, ⟨41, _⟩ => ⟨S65536x10x101, .f32⟩
  | .hbm, ⟨42, _⟩ => ⟨S_, .i32⟩
  | .hbm, ⟨43, _⟩ => ⟨S65536x10, .i32⟩
  | .hbm, ⟨44, _⟩ => ⟨S65536x10, .i1⟩
  | .hbm, ⟨45, _⟩ => ⟨S_, .i32⟩
  | .hbm, ⟨46, _⟩ => ⟨S65536x10, .i32⟩
  | .hbm, ⟨47, _⟩ => ⟨S65536x10, .i32⟩
  | .hbm, ⟨48, _⟩ => ⟨S65536x10, .i32⟩
  | .hbm, ⟨49, _⟩ => ⟨S65536x10x1, .i32⟩
  | .hbm, ⟨50, _⟩ => ⟨S65536x10x101, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536x101, .f32⟩
  | .hbm, ⟨60, _⟩ => ⟨S50x50, .f32⟩
  | .hbm, ⟨61, _⟩ => ⟨S50x50, .bf16⟩
  | .hbm, ⟨62, _⟩ => ⟨S50x50, .f32⟩
  | .hbm, ⟨63, _⟩ => ⟨S50x50, .bf16⟩
  | .hbm, ⟨64, _⟩ => ⟨S1x50, .f32⟩
  | .hbm, ⟨65, _⟩ => ⟨S1x100, .f32⟩
  | .hbm, ⟨66, _⟩ => ⟨S1x1, .f32⟩
  | .hbm, ⟨67, _⟩ => ⟨S16x128, .f32⟩
  | .hbm, ⟨68, _⟩ => ⟨S1x1, .f32⟩
  | .hbm, ⟨69, _⟩ => ⟨S_, .f32⟩
  | .hbm, ⟨70, _⟩ => ⟨S1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S256x10x50, .bf16⟩
  | .local _ .vmem, ⟨1, _⟩ => ⟨S256x10x50, .bf16⟩
  | .local _ .vmem, ⟨2, _⟩ => ⟨S256x50, .bf16⟩
  | .local _ .vmem, ⟨3, _⟩ => ⟨S256x50, .bf16⟩
  | .local _ .vmem, ⟨4, _⟩ => ⟨S256x10x101, .f32⟩
  | .local _ .vmem, ⟨5, _⟩ => ⟨S256x10x101, .f32⟩
  | .local _ .vmem, ⟨6, _⟩ => ⟨S256x10x101, .f32⟩
  | .local _ .vmem, ⟨7, _⟩ => ⟨S256x10x101, .f32⟩
  | .local _ .vmem, ⟨8, _⟩ => ⟨S256x101, .f32⟩
  | .local _ .vmem, ⟨9, _⟩ => ⟨S256x101, .f32⟩
  | .local _ .vmem, ⟨10, _⟩ => ⟨S50x50, .bf16⟩
  | .local _ .vmem, ⟨11, _⟩ => ⟨S50x50, .bf16⟩
  | .local _ .vmem, ⟨12, _⟩ => ⟨S1x50, .f32⟩
  | .local _ .vmem, ⟨13, _⟩ => ⟨S50x100, .f32⟩
  | .local _ .vmem, ⟨14, _⟩ => ⟨S1x100, .f32⟩
  | .local _ .vmem, ⟨15, _⟩ => ⟨S50x1, .f32⟩
  | .local _ .vmem, ⟨16, _⟩ => ⟨S1x1, .f32⟩
  | .local _ .vmem, ⟨17, _⟩ => ⟨S8x128, .f32⟩
  | .local _ .vmem, ⟨18, _⟩ => ⟨S8x128, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x10x50 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x50 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x10x101 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x10x101 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x101 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S50x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S50x50 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S50x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S50x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  concatenates_S50000x100_S50000x1_S50000x101_d1 : Shape.Concatenates [S50000x100, S50000x1] S50000x101 1
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  slices_S100x50_S50x50_0_0 : S100x50.Slices ![0, 0] S50x50
  slices_S100x50_S50x50_50_0 : S100x50.Slices ![50, 0] S50x50
  shapeCasts_S50_S1x50 : S50.ShapeCasts S1x50
  shapeCasts_S100_S1x100 : S100.ShapeCasts S1x100
  shapeCasts_S1_S1x1 : S1.ShapeCasts S1x1
  inb_S8x128_S8x128_0_0 : ∀ a, (![0, 0] : Fin 2 → Nat) a + S8x128.size a ≤ S8x128.size a
  h_S8x128 : 0 < S8x128.numel
  inb_S256x10x50_S256x10x50_0_0_0 : ∀ a, (![0, 0, 0] : Fin 3 → Nat) a + S256x10x50.size a ≤ S256x10x50.size a
  h_S256x10x50 : 0 < S256x10x50.numel
  shapeCasts_S256x10x50_S256x10x50 : S256x10x50.ShapeCasts S256x10x50
  inb_S256x50_S256x50_0_0 : ∀ a, (![0, 0] : Fin 2 → Nat) a + S256x50.size a ≤ S256x50.size a
  h_S256x50 : 0 < S256x50.numel
  shapeCasts_S256x50_S256x50 : S256x50.ShapeCasts S256x50
  shapeCasts_S256x10x50_S2560x50 : S256x10x50.ShapeCasts S2560x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  shapeCasts_S2560x50_S256x10x50 : S2560x50.ShapeCasts S256x10x50
  shapeCasts_S256x50_S256x1x50 : S256x50.ShapeCasts S256x1x50
  broadcasts_S256x1x50_S256x10x50 : S256x1x50.Broadcasts S256x10x50
  shapeCasts_S1x50_S1x1x50 : S1x50.ShapeCasts S1x1x50
  broadcasts_S1x1x50_S256x10x50 : S1x1x50.Broadcasts S256x10x50
  reduces_S256x10x50_S256x50 : S256x10x50.Reduces [1] S256x50
  inb_S50x100_S50x100_0_0 : ∀ a, (![0, 0] : Fin 2 → Nat) a + S50x100.size a ≤ S50x100.size a
  h_S50x100 : 0 < S50x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S50x1_S50x1_0_0 : ∀ a, (![0, 0] : Fin 2 → Nat) a + S50x1.size a ≤ S50x1.size a
  h_S50x1 : 0 < S50x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x100_S256x100 : S1x100.Broadcasts S256x100
  broadcasts_S1x1_S256x1 : S1x1.Broadcasts S256x1
  inb_S256x10x101_S256x10x101_0_0_0 : ∀ a, (![0, 0, 0] : Fin 3 → Nat) a + S256x10x101.size a ≤ S256x10x101.size a
  h_S256x10x101 : 0 < S256x10x101.numel
  shapeCasts_S256x10x101_S256x10x101 : S256x10x101.ShapeCasts S256x10x101
  inb_S256x101_S256x101_0_0 : ∀ a, (![0, 0] : Fin 2 → Nat) a + S256x101.size a ≤ S256x101.size a
  h_S256x101 : 0 < S256x101.numel
  shapeCasts_S256x101_S256x101 : S256x101.ShapeCasts S256x101
  slices_S256x10x101_o0_0_0_S256x10x100 : S256x10x101.Slices ![0, 0, 0] S256x10x100
  slices_S256x10x101_o0_0_100_S256x10x1 : S256x10x101.Slices ![0, 0, 100] S256x10x1
  shapeCasts_S256x10x1_S256x10 : S256x10x1.ShapeCasts S256x10
  slices_S256x101_o0_0_S256x100 : S256x101.Slices ![0, 0] S256x100
  slices_S256x101_o0_100_S256x1 : S256x101.Slices ![0, 100] S256x1
  shapeCasts_S256x100_S256x1x100 : S256x100.ShapeCasts S256x1x100
  shapeCasts_S256x1x100_S256x1x100 : S256x1x100.ShapeCasts S256x1x100
  broadcasts_S256x1x100_S256x10x100 : S256x1x100.Broadcasts S256x10x100
  shapeCasts_S256x1_S256x1 : S256x1.ShapeCasts S256x1
  broadcasts_S256x1_S256x10 : S256x1.Broadcasts S256x10
  reduces_S256x10x100_S256x10 : S256x10x100.Reduces [2] S256x10
  reduces_S256x100_S256 : S256x100.Reduces [1] S256
  shapeCasts_S256_S256x1 : S256.ShapeCasts S256x1
  reduces_S256x10_S256 : S256x10.Reduces [1] S256
  reduces_S256x1_S1 : S256x1.Reduces [0] S1
  concatenates_S1x1_S1x127_S1x128_d1 : Shape.Concatenates [S1x1, S1x127] S1x128 1
  concatenates_S1x128_S7x128_S8x128_d0 : Shape.Concatenates [S1x128, S7x128] S8x128 0
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  gather_S50000x50_S65536x10x1_S65536x10x50_2_0_n_n_0_2_150_wf : GatherDims.WF S50000x50 S65536x10x1 S65536x10x50 [2] [0] [] [0] [] 2 ![1, 50]
  gather_S50000x50_S65536x1_S65536x50_1_0_n_n_0_1_150_wf : GatherDims.WF S50000x50 S65536x1 S65536x50 [1] [0] [] [0] [] 1 ![1, 50]
  gather_S50000x101_S65536x10x1_S65536x10x101_2_0_n_n_0_2_1101_wf : GatherDims.WF S50000x101 S65536x10x1 S65536x10x101 [2] [0] [] [0] [] 2 ![1, 101]
  gather_S50000x101_S65536x1_S65536x101_1_0_n_n_0_1_1101_wf : GatherDims.WF S50000x101 S65536x1 S65536x101 [1] [0] [] [0] [] 1 ![1, 101]
  dot_S2560x50_S50x50_S2560x50_1_0_0_1_n_n_wf : DotDims.WF S2560x50 S50x50 S2560x50 [1] [0] [0] [1] [] []
  dot_S256x50_S50x50_S256x50_1_0_0_1_n_n_wf : DotDims.WF S256x50 S50x50 S256x50 [1] [0] [0] [1] [] []
  dot_S256x50_S50x100_S256x100_1_0_0_1_n_n_wf : DotDims.WF S256x50 S50x100 S256x100 [1] [0] [0] [1] [] []
  dot_S256x50_S50x1_S256x1_1_0_0_1_n_n_wf : DotDims.WF S256x50 S50x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10x50.size a ≤ S65536x10x50.size a
  hwx0_0 : ∀ i : grid0.Coords, EltTy.bits .bf16 = 32 ∨ (Rect.block (s := S65536x10x50) S256x10x50.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x50.size a ≤ S65536x50.size a
  hwx0_1 : ∀ i : grid0.Coords, EltTy.bits .bf16 = 32 ∨ (Rect.block (s := S65536x50) S256x50.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x10x101.size a ≤ S65536x10x101.size a
  hwx0_2 : ∀ i : grid0.Coords, EltTy.bits .f32 = 32 ∨ (Rect.block (s := S65536x10x101) S256x10x101.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x10x101.size a ≤ S65536x10x101.size a
  hwx0_3 : ∀ i : grid0.Coords, EltTy.bits .f32 = 32 ∨ (Rect.block (s := S65536x10x101) S256x10x101.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x101.size a ≤ S65536x101.size a
  hwx0_4 : ∀ i : grid0.Coords, EltTy.bits .f32 = 32 ∨ (Rect.block (s := S65536x101) S256x101.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x50.size a ≤ S50x50.size a
  hwx0_5 : ∀ i : grid0.Coords, EltTy.bits .bf16 = 32 ∨ (Rect.block (s := S50x50) S50x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50x50.size a ≤ S50x50.size a
  hwx0_6 : ∀ i : grid0.Coords, EltTy.bits .bf16 = 32 ∨ (Rect.block (s := S50x50) S50x50.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x50.size a ≤ S1x50.size a
  hwx0_7 : ∀ i : grid0.Coords, EltTy.bits .f32 = 32 ∨ (Rect.block (s := S1x50) S1x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x100.size a ≤ S50x100.size a
  hwx0_8 : ∀ i : grid0.Coords, EltTy.bits .f32 = 32 ∨ (Rect.block (s := S50x100) S50x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x100.size a ≤ S1x100.size a
  hwx0_9 : ∀ i : grid0.Coords, EltTy.bits .f32 = 32 ∨ (Rect.block (s := S1x100) S1x100.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50x1.size a ≤ S50x1.size a
  hwx0_10 : ∀ i : grid0.Coords, EltTy.bits .f32 = 32 ∨ (Rect.block (s := S50x1) S50x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x128.size a ≤ S16x128.size a
  hwx0_12 : ∀ i : grid0.Coords, EltTy.bits .f32 = 32 ∨ (Rect.block (s := S16x128) S8x128.size (cc0_transform_12 i) (hinb0_12 i)).WholeWords (EltTy.packing .f32)

variable [Facts₀]

def gather_S50000x50_S65536x10x1_S65536x10x50_2_0_n_n_0_2_150 : GatherDims S50000x50 S65536x10x1 S65536x10x50 where
  offsetDims := [2]
  collapsedSliceDims := [0]
  operandBatchingDims := []
  startIndicesBatchingDims := []
  startIndexMap := [0]
  indexVectorDim := 2
  sliceSizes := ![1, 50]
  wf := gather_S50000x50_S65536x10x1_S65536x10x50_2_0_n_n_0_2_150_wf
def gather_S50000x50_S65536x1_S65536x50_1_0_n_n_0_1_150 : GatherDims S50000x50 S65536x1 S65536x50 where
  offsetDims := [1]
  collapsedSliceDims := [0]
  operandBatchingDims := []
  startIndicesBatchingDims := []
  startIndexMap := [0]
  indexVectorDim := 1
  sliceSizes := ![1, 50]
  wf := gather_S50000x50_S65536x1_S65536x50_1_0_n_n_0_1_150_wf
def gather_S50000x101_S65536x10x1_S65536x10x101_2_0_n_n_0_2_1101 : GatherDims S50000x101 S65536x10x1 S65536x10x101 where
  offsetDims := [2]
  collapsedSliceDims := [0]
  operandBatchingDims := []
  startIndicesBatchingDims := []
  startIndexMap := [0]
  indexVectorDim := 2
  sliceSizes := ![1, 101]
  wf := gather_S50000x101_S65536x10x1_S65536x10x101_2_0_n_n_0_2_1101_wf
def gather_S50000x101_S65536x1_S65536x101_1_0_n_n_0_1_1101 : GatherDims S50000x101 S65536x1 S65536x101 where
  offsetDims := [1]
  collapsedSliceDims := [0]
  operandBatchingDims := []
  startIndicesBatchingDims := []
  startIndexMap := [0]
  indexVectorDim := 1
  sliceSizes := ![1, 101]
  wf := gather_S50000x101_S65536x1_S65536x101_1_0_n_n_0_1_1101_wf
def dot_S2560x50_S50x50_S2560x50_1_0_0_1_n_n : DotDims S2560x50 S50x50 S2560x50 where
  lhsContracting := [1]
  rhsContracting := [0]
  lhsNonContracting := [0]
  rhsNonContracting := [1]
  lhsBatch := []
  rhsBatch := []
  wf := dot_S2560x50_S50x50_S2560x50_1_0_0_1_n_n_wf
def dot_S256x50_S50x50_S256x50_1_0_0_1_n_n : DotDims S256x50 S50x50 S256x50 where
  lhsContracting := [1]
  rhsContracting := [0]
  lhsNonContracting := [0]
  rhsNonContracting := [1]
  lhsBatch := []
  rhsBatch := []
  wf := dot_S256x50_S50x50_S256x50_1_0_0_1_n_n_wf
def dot_S256x50_S50x100_S256x100_1_0_0_1_n_n : DotDims S256x50 S50x100 S256x100 where
  lhsContracting := [1]
  rhsContracting := [0]
  lhsNonContracting := [0]
  rhsNonContracting := [1]
  lhsBatch := []
  rhsBatch := []
  wf := dot_S256x50_S50x100_S256x100_1_0_0_1_n_n_wf
def dot_S256x50_S50x1_S256x1_1_0_0_1_n_n : DotDims S256x50 S50x1 S256x1 where
  lhsContracting := [1]
  rhsContracting := [0]
  lhsNonContracting := [0]
  rhsNonContracting := [1]
  lhsBatch := []
  rhsBatch := []
  wf := dot_S256x50_S50x1_S256x1_1_0_0_1_n_n_wf

abbrev win0_0 : Pipeline.Window sig grid0 :=
  Pipeline.Window.ofSpec (Memref.whole main_v8) S256x10x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x10x101.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S256x10x101.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S256x101.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S50x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S50x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S50x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S50x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v45) S8x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S_ : Shape := ⟨0, ![]⟩
abbrev S65536x10x1 : Shape := ⟨3, ![65536, 10, 1]⟩
abbrev S65536x10x50 : Shape := ⟨3, ![65536, 10, 50]⟩
abbrev S65536x1 : Shape := ⟨2, ![65536, 1]⟩
abbrev S65536x50 : Shape := ⟨2, ![65536, 50]⟩
abbrev S65536x1x50 : Shape := ⟨3, ![65536, 1, 50]⟩
abbrev S65536x10x100 : Shape := ⟨3, ![65536, 10, 100]⟩
abbrev S1x1x50 : Shape := ⟨3, ![1, 1, 50]⟩
abbrev S65536x100 : Shape := ⟨2, ![65536, 100]⟩
abbrev S1x100 : Shape := ⟨2, ![1, 100]⟩
abbrev S1x1 : Shape := ⟨2, ![1, 1]⟩
abbrev S655360x100 : Shape := ⟨2, ![655360, 100]⟩
abbrev S655360x1 : Shape := ⟨2, ![655360, 1]⟩
abbrev S655360 : Shape := ⟨1, ![655360]⟩

abbrev nBuf : Space → Nat
  | .hbm => 181
  | .vmem => 0
  | .smem => 0
  | _ => 0

abbrev hbmTy0_0 (i : Nat) : BufTy := match i % 128 with
  | 0 => ⟨S50000x50, .f32⟩
  | 1 => ⟨S100x50, .f32⟩
  | 2 => ⟨S50, .f32⟩
  | 3 => ⟨S50x100, .f32⟩
  | 4 => ⟨S100, .f32⟩
  | 5 => ⟨S50x1, .f32⟩
  | 6 => ⟨S1, .f32⟩
  | 7 => ⟨S50000x100, .f32⟩
  | 8 => ⟨S50000x1, .f32⟩
  | 9 => ⟨S65536, .i32⟩
  | 10 => ⟨S65536x10, .i32⟩
  | 11 => ⟨S65536x10, .i32⟩
  | 12 => ⟨S_, .i32⟩
  | 13 => ⟨S65536x10, .i32⟩
  | 14 => ⟨S65536x10, .i1⟩
  | 15 => ⟨S_, .i32⟩
  | 16 => ⟨S65536x10, .i32⟩
  | 17 => ⟨S65536x10, .i32⟩
  | 18 => ⟨S65536x10, .i32⟩
  | 19 => ⟨S65536x10x1, .i32⟩
  | 20 => ⟨S65536x10x50, .f32⟩
  | 21 => ⟨S_, .i32⟩
  | 22 => ⟨S65536, .i32⟩
  | 23 => ⟨S65536, .i1⟩
  | 24 => ⟨S_, .i32⟩
  | 25 => ⟨S65536, .i32⟩
  | 26 => ⟨S65536, .i32⟩
  | 27 => ⟨S65536, .i32⟩
  | 28 => ⟨S65536x1, .i32⟩
  | 29 => ⟨S65536x50, .f32⟩
  | 30 => ⟨S65536x1x50, .f32⟩
  | 31 => ⟨S65536x10x50, .f32⟩
  | 32 => ⟨S65536x10x100, .f32⟩
  | 33 => ⟨S65536x10x50, .f32⟩
  | 34 => ⟨S1x1x50, .f32⟩
  | 35 => ⟨S65536x10x50, .f32⟩
  | 36 => ⟨S65536x10x50, .f32⟩
  | 37 => ⟨S_, .f32⟩
  | 38 => ⟨S65536x10x50, .f32⟩
  | 39 => ⟨S65536x10x50, .f32⟩
  | 40 => ⟨S_, .f32⟩
  | 41 => ⟨S65536x50, .f32⟩
  | 42 => ⟨S65536x100, .f32⟩
  | 43 => ⟨S1x100, .f32⟩
  | 44 => ⟨S65536x100, .f32⟩
  | 45 => ⟨S65536x100, .f32⟩
  | 46 => ⟨S65536x1, .f32⟩
  | 47 => ⟨S1x1, .f32⟩
  | 48 => ⟨S65536x1, .f32⟩
  | 49 => ⟨S65536x1, .f32⟩
  | 50 => ⟨S65536x10x100, .f32⟩
  | 51 => ⟨S655360x100, .f32⟩
  | 52 => ⟨S65536x10x1, .f32⟩
  | 53 => ⟨S655360x1, .f32⟩
  | 54 => ⟨S655360, .i32⟩
  | 55 => ⟨S655360x1, .f32⟩
  | 56 => ⟨S_, .i32⟩
  | 57 => ⟨S655360, .i32⟩
  | 58 => ⟨S655360, .i1⟩
  | 59 => ⟨S_, .i32⟩
  | 60 => ⟨S655360, .i32⟩
  | 61 => ⟨S655360, .i32⟩
  | 62 => ⟨S655360, .i32⟩
  | 63 => ⟨S655360x1, .i32⟩
  | 64 => ⟨S655360x100, .f32⟩
  | 65 => ⟨S_, .i32⟩
  | 66 => ⟨S655360, .i32⟩
  | 67 => ⟨S655360, .i1⟩
  | 68 => ⟨S_, .i32⟩
  | 69 => ⟨S655360, .i32⟩
  | 70 => ⟨S655360, .i32⟩
  | 71 => ⟨S655360, .i32⟩
  | 72 => ⟨S655360x1, .i32⟩
  | 73 => ⟨S655360x1, .f32⟩
  | 74 => ⟨S655360x1, .f32⟩
  | 75 => ⟨S655360x1, .f32⟩
  | 76 => ⟨S655360x100, .f32⟩
  | 77 => ⟨S655360x100, .f32⟩
  | 78 => ⟨S_, .f32⟩
  | 79 => ⟨S655360, .f32⟩
  | 80 => ⟨S655360x1, .f32⟩
  | 81 => ⟨S655360x1, .f32⟩
  | 82 => ⟨S655360x1, .f32⟩
  | 83 => ⟨S655360x1, .f32⟩
  | 84 => ⟨S655360x1, .f32⟩
  | 85 => ⟨S655360, .f32⟩
  | 86 => ⟨S_, .f32⟩
  | 87 => ⟨S655360, .f32⟩
  | 88 => ⟨S655360, .f32⟩
  | 89 => ⟨S_, .f32⟩
  | 90 => ⟨S655360, .f32⟩
  | 91 => ⟨S655360, .f32⟩
  | 92 => ⟨S655360, .i32⟩
  | 93 => ⟨S655360x1, .f32⟩
  | 94 => ⟨S_, .i32⟩
  | 95 => ⟨S655360, .i32⟩
  | 96 => ⟨S655360, .i1⟩
  | 97 => ⟨S_, .i32⟩
  | 98 => ⟨S655360, .i32⟩
  | 99 => ⟨S655360, .i32⟩
  | 100 => ⟨S655360, .i32⟩
  | 101 => ⟨S655360x1, .i32⟩
  | 102 => ⟨S655360x100, .f32⟩
  | 103 => ⟨S_, .i32⟩
  | 104 => ⟨S655360, .i32⟩
  | 105 => ⟨S655360, .i1⟩
  | 106 => ⟨S_, .i32⟩
  | 107 => ⟨S655360, .i32⟩
  | 108 => ⟨S655360, .i32⟩
  | 109 => ⟨S655360, .i32⟩
  | 110 => ⟨S655360x1, .i32⟩
  | 111 => ⟨S655360x1, .f32⟩
  | 112 => ⟨S655360x1, .f32⟩
  | 113 => ⟨S655360x1, .f32⟩
  | 114 => ⟨S655360x100, .f32⟩
  | 115 => ⟨S655360x100, .f32⟩
  | 116 => ⟨S_, .f32⟩
  | 117 => ⟨S655360, .f32⟩
  | 118 => ⟨S655360x1, .f32⟩
  | 119 => ⟨S655360x1, .f32⟩
  | 120 => ⟨S655360x1, .f32⟩
  | 121 => ⟨S655360x1, .f32⟩
  | 122 => ⟨S655360x1, .f32⟩
  | 123 => ⟨S655360, .f32⟩
  | 124 => ⟨S_, .f32⟩
  | 125 => ⟨S655360, .f32⟩
  | 126 => ⟨S655360, .f32⟩
  | 127 => ⟨S_, .f32⟩
  | _ => ⟨S50000x50, .f32⟩

abbrev hbmTy0_1 (i : Nat) : BufTy := match i % 128 with
  | 0 => ⟨S655360, .f32⟩
  | 1 => ⟨S655360, .f32⟩
  | 2 => ⟨S65536x1, .f32⟩
  | 3 => ⟨S_, .i32⟩
  | 4 => ⟨S65536, .i32⟩
  | 5 => ⟨S65536, .i1⟩
  | 6 => ⟨S_, .i32⟩
  | 7 => ⟨S65536, .i32⟩
  | 8 => ⟨S65536, .i32⟩
  | 9 => ⟨S65536, .i32⟩
  | 10 => ⟨S65536x1, .i32⟩
  | 11 => ⟨S65536x100, .f32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x1, .f32⟩
  | 21 => ⟨S65536x1, .f32⟩
  | 22 => ⟨S65536x1, .f32⟩
  | 23 => ⟨S65536x100, .f32⟩
  | 24 => ⟨S65536x100, .f32⟩
  | 25 => ⟨S_, .f32⟩
  | 26 => ⟨S65536, .f32⟩
  | 27 => ⟨S65536x1, .f32⟩
  | 28 => ⟨S65536x1, .f32⟩
  | 29 => ⟨S65536x1, .f32⟩
  | 30 => ⟨S65536x1, .f32⟩
  | 31 => ⟨S65536x1, .f32⟩
  | 32 => ⟨S65536, .f32⟩
  | 33 => ⟨S_, .f32⟩
  | 34 => ⟨S65536, .f32⟩
  | 35 => ⟨S65536, .f32⟩
  | 36 => ⟨S_, .f32⟩
  | 37 => ⟨S65536, .f32⟩
  | 38 => ⟨S65536, .f32⟩
  | 39 => ⟨S655360, .f32⟩
  | 40 => ⟨S_, .f32⟩
  | 41 => ⟨S655360, .f32⟩
  | 42 => ⟨S655360, .f32⟩
  | 43 => ⟨S_, .f32⟩
  | 44 => ⟨S655360, .f32⟩
  | 45 => ⟨S655360, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S50000x50, .f32⟩

abbrev hbmTy (i : Nat) : BufTy := match i / 128 with
  | 0 => hbmTy0_0 i
  | 1 => hbmTy0_1 i
  | _ => ⟨S50000x50, .f32⟩

abbrev bufTy : (tb : Table) → Fin (tcTables nBuf tb) → BufTy
  | .hbm, ⟨i, _⟩ => hbmTy i
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_c_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_17 : Ref sig .tc := ⟨.hbm, 131, rfl⟩
abbrev main_v98 : Ref sig .tc := ⟨.hbm, 132, rfl⟩
abbrev main_v99 : Ref sig .tc := ⟨.hbm, 133, rfl⟩
abbrev main_c_18 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_19 : Ref sig .tc := ⟨.hbm, 140, rfl⟩
abbrev main_v105 : Ref sig .tc := ⟨.hbm, 141, rfl⟩
abbrev main_v106 : Ref sig .tc := ⟨.hbm, 142, rfl⟩
abbrev main_c_20 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_21 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_22 : Ref sig .tc := ⟨.hbm, 161, rfl⟩
abbrev main_v123 : Ref sig .tc := ⟨.hbm, 162, rfl⟩
abbrev main_v124 : Ref sig .tc := ⟨.hbm, 163, rfl⟩
abbrev main_cst_23 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_24 : Ref sig .tc := ⟨.hbm, 168, rfl⟩
abbrev main_v128 : Ref sig .tc := ⟨.hbm, 169, rfl⟩
abbrev main_v129 : Ref sig .tc := ⟨.hbm, 170, rfl⟩
abbrev main_cst_25 : Ref sig .tc := ⟨.hbm, 171, rfl⟩
abbrev main_v130 : Ref sig .tc := ⟨.hbm, 172, rfl⟩
abbrev main_v131 : Ref sig .tc := ⟨.hbm, 173, rfl⟩
abbrev main_cst_26 : Ref sig .tc := ⟨.hbm, 174, rfl⟩
abbrev main_v132 : Ref sig .tc := ⟨.hbm, 175, rfl⟩
abbrev main_cst_27 : Ref sig .tc := ⟨.hbm, 176, rfl⟩
abbrev main_v133 : Ref sig .tc := ⟨.hbm, 177, rfl⟩
abbrev main_v134 : Ref sig .tc := ⟨.hbm, 178, rfl⟩
abbrev main_cst_28 : Ref sig .tc := ⟨.hbm, 179, rfl⟩
abbrev main_v135 : Ref sig .tc := ⟨.hbm, 180, rfl⟩

abbrev nD : Nat := 1
abbrev τ : Topo := Topo.v7x

variable {F : FTy → Type} [FloatOps F]

class Facts₀ : Prop where
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x50_S65536x1x50_0_2 : S65536x50.BroadcastsInDim S65536x1x50 (![0, 2] : Fin 2 → Fin S65536x1x50.rank)
  bcast_S65536x1x50_S65536x10x50_0_1_2 : S65536x1x50.BroadcastsInDim S65536x10x50 (![0, 1, 2] : Fin 3 → Fin S65536x10x50.rank)
  concatenates_S65536x10x50_S65536x10x50_S65536x10x100_d2 : Shape.Concatenates [S65536x10x50, S65536x10x50] S65536x10x100 2
  bcast_S50_S1x1x50_2 : S50.BroadcastsInDim S1x1x50 (![2] : Fin 1 → Fin S1x1x50.rank)
  bcast_S1x1x50_S65536x10x50_0_1_2 : S1x1x50.BroadcastsInDim S65536x10x50 (![0, 1, 2] : Fin 3 → Fin S65536x10x50.rank)
  bcast_S_S65536x10x50 : S_.BroadcastsInDim S65536x10x50 (![] : Fin 0 → Fin S65536x10x50.rank)
  reducesTo_S65536x10x50_S65536x50_d1 : S65536x10x50.ReducesTo [1] S65536x50
  h_S_ : 0 < S_.numel
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x100_S65536x10x100_0_2 : S65536x100.BroadcastsInDim S65536x10x100 (![0, 2] : Fin 2 → Fin S65536x10x100.rank)
  shapeCasts_S65536x10x100_S655360x100 : S65536x10x100.ShapeCasts S655360x100
  bcast_S65536x1_S65536x10x1_0_2 : S65536x1.BroadcastsInDim S65536x10x1 (![0, 2] : Fin 2 → Fin S65536x10x1.rank)
  shapeCasts_S65536x10x1_S655360x1 : S65536x10x1.ShapeCasts S655360x1
  shapeCasts_S65536x10_S655360 : S65536x10.ShapeCasts S655360
  bcast_S_S655360 : S_.BroadcastsInDim S655360 (![] : Fin 0 → Fin S655360.rank)
  bcast_S655360_S655360x1_0 : S655360.BroadcastsInDim S655360x1 (![0] : Fin 1 → Fin S655360x1.rank)
  reducesTo_S655360x100_S655360_d1 : S655360x100.ReducesTo [1] S655360
  shapeCasts_S655360x1_S655360 : S655360x1.ShapeCasts S655360
  reducesTo_S65536x100_S65536_d1 : S65536x100.ReducesTo [1] S65536
  shapeCasts_S65536x1_S65536 : S65536x1.ShapeCasts S65536
  reducesTo_S655360_S_d0 : S655360.ReducesTo [0] S_
  reducesTo_S65536_S_d0 : S65536.ReducesTo [0] S_
  gather_S50000x50_S65536x10x1_S65536x10x50_2_0_n_n_0_2_150_wf : GatherDims.WF S50000x50 S65536x10x1 S65536x10x50 [2] [0] [] [0] [] 2 ![1, 50]
  gather_S50000x50_S65536x1_S65536x50_1_0_n_n_0_1_150_wf : GatherDims.WF S50000x50 S65536x1 S65536x50 [1] [0] [] [0] [] 1 ![1, 50]
  dot_S65536x10x100_S100x50_S65536x10x50_2_0_01_1_n_n_wf : DotDims.WF S65536x10x100 S100x50 S65536x10x50 [2] [0] [0, 1] [1] [] []
  dot_S65536x50_S50x100_S65536x100_1_0_0_1_n_n_wf : DotDims.WF S65536x50 S50x100 S65536x100 [1] [0] [0] [1] [] []
  dot_S65536x50_S50x1_S65536x1_1_0_0_1_n_n_wf : DotDims.WF S65536x50 S50x1 S65536x1 [1] [0] [0] [1] [] []
  gather_S50000x100_S655360x1_S655360x100_1_0_n_n_0_1_1100_wf : GatherDims.WF S50000x100 S655360x1 S655360x100 [1] [0] [] [0] [] 1 ![1, 100]
  gather_S50000x1_S655360x1_S655360x1_1_0_n_n_0_1_11_wf : GatherDims.WF S50000x1 S655360x1 S655360x1 [1] [0] [] [0] [] 1 ![1, 1]
  gather_S50000x100_S65536x1_S65536x100_1_0_n_n_0_1_1100_wf : GatherDims.WF S50000x100 S65536x1 S65536x100 [1] [0] [] [0] [] 1 ![1, 100]
  gather_S50000x1_S65536x1_S65536x1_1_0_n_n_0_1_11_wf : GatherDims.WF S50000x1 S65536x1 S65536x1 [1] [0] [] [0] [] 1 ![1, 1]

variable [Facts₀]

def gather_S50000x50_S65536x10x1_S65536x10x50_2_0_n_n_0_2_150 : GatherDims S50000x50 S65536x10x1 S65536x10x50 where
  offsetDims := [2]
  collapsedSliceDims := [0]
  operandBatchingDims := []
  startIndicesBatchingDims := []
  startIndexMap := [0]
  indexVectorDim := 2
  sliceSizes := ![1, 50]
  wf := gather_S50000x50_S65536x10x1_S65536x10x50_2_0_n_n_0_2_150_wf
def gather_S50000x50_S65536x1_S65536x50_1_0_n_n_0_1_150 : GatherDims S50000x50 S65536x1 S65536x50 where
  offsetDims := [1]
  collapsedSliceDims := [0]
  operandBatchingDims := []
  startIndicesBatchingDims := []
  startIndexMap := [0]
  indexVectorDim := 1
  sliceSizes := ![1, 50]
  wf := gather_S50000x50_S65536x1_S65536x50_1_0_n_n_0_1_150_wf
def dot_S65536x10x100_S100x50_S65536x10x50_2_0_01_1_n_n : DotDims S65536x10x100 S100x50 S65536x10x50 where
  lhsContracting := [2]
  rhsContracting := [0]
  lhsNonContracting := [0, 1]
  rhsNonContracting := [1]
  lhsBatch := []
  rhsBatch := []
  wf := dot_S65536x10x100_S100x50_S65536x10x50_2_0_01_1_n_n_wf
def dot_S65536x50_S50x100_S65536x100_1_0_0_1_n_n : DotDims S65536x50 S50x100 S65536x100 where
  lhsContracting := [1]
  rhsContracting := [0]
  lhsNonContracting := [0]
  rhsNonContracting := [1]
  lhsBatch := []
  rhsBatch := []
  wf := dot_S65536x50_S50x100_S65536x100_1_0_0_1_n_n_wf
def dot_S65536x50_S50x1_S65536x1_1_0_0_1_n_n : DotDims S65536x50 S50x1 S65536x1 where
  lhsContracting := [1]
  rhsContracting := [0]
  lhsNonContracting := [0]
  rhsNonContracting := [1]
  lhsBatch := []
  rhsBatch := []
  wf := dot_S65536x50_S50x1_S65536x1_1_0_0_1_n_n_wf
def gather_S50000x100_S655360x1_S655360x100_1_0_n_n_0_1_1100 : GatherDims S50000x100 S655360x1 S655360x100 where
  offsetDims := [1]
  collapsedSliceDims := [0]
  operandBatchingDims := []
  startIndicesBatchingDims := []
  startIndexMap := [0]
  indexVectorDim := 1
  sliceSizes := ![1, 100]
  wf := gather_S50000x100_S655360x1_S655360x100_1_0_n_n_0_1_1100_wf
def gather_S50000x1_S655360x1_S655360x1_1_0_n_n_0_1_11 : GatherDims S50000x1 S655360x1 S655360x1 where
  offsetDims := [1]
  collapsedSliceDims := [0]
  operandBatchingDims := []
  startIndicesBatchingDims := []
  startIndexMap := [0]
  indexVectorDim := 1
  sliceSizes := ![1, 1]
  wf := gather_S50000x1_S655360x1_S655360x1_1_0_n_n_0_1_11_wf
def gather_S50000x100_S65536x1_S65536x100_1_0_n_n_0_1_1100 : GatherDims S50000x100 S65536x1 S65536x100 where
  offsetDims := [1]
  collapsedSliceDims := [0]
  operandBatchingDims := []
  startIndicesBatchingDims := []
  startIndexMap := [0]
  indexVectorDim := 1
  sliceSizes := ![1, 100]
  wf := gather_S50000x100_S65536x1_S65536x100_1_0_n_n_0_1_1100_wf
def gather_S50000x1_S65536x1_S65536x1_1_0_n_n_0_1_11 : GatherDims S50000x1 S65536x1 S65536x1 where
  offsetDims := [1]
  collapsedSliceDims := [0]
  operandBatchingDims := []
  startIndicesBatchingDims := []
  startIndexMap := [0]
  indexVectorDim := 1
  sliceSizes := ![1, 1]
  wf := gather_S50000x1_S65536x1_S65536x1_1_0_n_n_0_1_11_wf

class Facts : Prop extends Facts₀ where

variable [Facts]
-- ==== Proof.Spec.lean ====
import Idealize.ShloMosaic.PureOps.Ideal
import Idealize.ShloMosaic.Lib.ValueIdx

/-!
# The loss both programs compute, as one function of the argument arrays

A batch of 65536 examples. Example `b` has a centre word `cen b`, ten context words `ctx b c` and ten
negative words `neg b c`; a word `w` selects row `row w` of the embedding table and of the two type tables
(negative words wrap once by the table length, then the row is clamped into the table).

* hidden layer: `hid h = ∑ c, max (∑ f, e_ctx[c,f]·W1[f,h] + ∑ f, e_cen[f]·W1[50+f,h] + b1[h]) 0` (the first 50 rows of
  `W1` meet the context embedding, the last 50 the centre embedding);
* posterior: `mu l = ∑ h, hid h · Wmu[h,l] + bmu[l]`, `ls = ∑ h, hid h · Wls[h] + bls`;
* divergence against a type row (mean, logvar):
  `kl = ½·((exp ls / exp logvar + (∑ l, (mu l − mean l)²) / exp logvar + (logvar − ls)) − 100)`;
* hinge of a context word against its negative word: `max (kl_ctx − kl_neg + 1) 0`;
* loss: `(∑ b c, hinge b c + ∑ b, kl_cen b) / 65536`.

Everything is over the extended reals; float literals are kept as their words.
-/

noncomputable section

namespace Cert.Spec

open Idealize.ShloMosaic

/-- The float words the programs share: 0, ½, 100, 1 and 65536. -/
def Z : EReal := Ideal.ofBits .f32 0x00000000#32
def HALF : EReal := Ideal.ofBits .f32 0x3F000000#32
def HUND : EReal := Ideal.ofBits .f32 0x42C80000#32
def ONE : EReal := Ideal.ofBits .f32 0x3F800000#32
def BN : EReal := Ideal.ofBits .f32 0x47800000#32

/-- A word index wrapped once: a negative word has the table length 50000 added. -/
def norm (w : BitVec 32) : BitVec 32 := Scalar.select (IntOp.cmpi .slt w 0#32) (IntOp.addi w 50000#32) w

/-- The table row a word selects: the wrapped word read signed and clamped into `[0, 49999]`. -/
def row (w : BitVec 32) : Fin 50000 := ⟨min (norm w).toInt.toNat (50000 - 1), by omega⟩

/-- Hidden pre-activation of one (context word, centre word) pair at hidden unit `h`: the weight block `Wa`
    meets the context embedding `ec`, the block `Wb` the centre embedding `en`. -/
def hpre (Wa Wb : Fin 50 → Fin 50 → EReal) (b1 : Fin 50 → EReal) (ec en : Fin 50 → EReal) (h : Fin 50) : EReal :=
  ((∑ f : Fin 50, ec f * Wa f h) + (∑ f : Fin 50, en f * Wb f h)) + b1 h

/-- The hidden vector of one example: rectified pre-activations summed over the ten context words. -/
def hid (Wa Wb : Fin 50 → Fin 50 → EReal) (b1 : Fin 50 → EReal) (ecs : Fin 10 → Fin 50 → EReal) (en : Fin 50 → EReal)
    (h : Fin 50) : EReal :=
  ∑ c : Fin 10, max (hpre Wa Wb b1 (ecs c) en h) Z

/-- Posterior mean. -/
def mu (Wmu : Fin 50 → Fin 100 → EReal) (bmu : Fin 100 → EReal) (hd : Fin 50 → EReal) (l : Fin 100) : EReal :=
  (∑ h : Fin 50, hd h * Wmu h l) + bmu l

/-- Posterior log-sigma. -/
def ls (Wls : Fin 50 → EReal) (bls : EReal) (hd : Fin 50 → EReal) : EReal :=
  (∑ h : Fin 50, hd h * Wls h) + bls

/-- The divergence of the posterior `(muv, lsv)` against a type row `(mean, lv)`. -/
def kl (muv : Fin 100 → EReal) (lsv : EReal) (mean : Fin 100 → EReal) (lv : EReal) : EReal :=
  HALF * (((Ideal.div (Ideal.exp lsv) (Ideal.exp lv)
      + Ideal.div (∑ l : Fin 100, (muv l - mean l) * (muv l - mean l)) (Ideal.exp lv)) + (lv - lsv)) - HUND)

/-- The hinge of a context divergence against a negative one. -/
def hinge (a b : EReal) : EReal := max ((a - b) + ONE) Z

section Loss

variable (emb : Fin 50000 → Fin 50 → EReal) (W1 : Fin 100 → Fin 50 → EReal) (b1 : Fin 50 → EReal)
  (Wmu : Fin 50 → Fin 100 → EReal) (bmu : Fin 100 → EReal) (Wls : Fin 50 → EReal) (bls : EReal)
  (TM : Fin 50000 → Fin 100 → EReal) (TL : Fin 50000 → EReal)
  (cen : Fin 65536 → BitVec 32) (ctx neg : Fin 65536 → Fin 10 → BitVec 32)

/-- Example `b`'s hidden vector. -/
def hidAt (b : Fin 65536) : Fin 50 → EReal :=
  hid (fun f h => W1 ⟨f.val, by omega⟩ h) (fun f h => W1 ⟨50 + f.val, by omega⟩ h) b1
    (fun c f => emb (row (ctx b c)) f) (fun f => emb (row (cen b)) f)

/-- Example `b`'s posterior mean and log-sigma. -/
def muAt (b : Fin 65536) : Fin 100 → EReal := mu Wmu bmu (hidAt emb W1 b1 cen ctx b)
def lsAt (b : Fin 65536) : EReal := ls Wls bls (hidAt emb W1 b1 cen ctx b)

/-- Example `b`'s divergence against the type row of a word `w`. -/
def klWord (b : Fin 65536) (w : BitVec 32) : EReal :=
  kl (muAt emb W1 b1 Wmu bmu cen ctx b) (lsAt emb W1 b1 Wls bls cen ctx b) (fun l => TM (row w) l) (TL (row w))

/-- The hinge term of example `b` and context position `c`. -/
def hingeAt (b : Fin 65536) (c : Fin 10) : EReal :=
  hinge (klWord emb W1 b1 Wmu bmu Wls bls TM TL cen ctx b (ctx b c))
    (klWord emb W1 b1 Wmu bmu Wls bls TM TL cen ctx b (neg b c))

/-- The centre term of example `b`. -/
def cenAt (b : Fin 65536) : EReal := klWord emb W1 b1 Wmu bmu Wls bls TM TL cen ctx b (cen b)

/-- The loss. -/
def loss : EReal :=
  Ideal.div ((∑ b : Fin 65536, ∑ c : Fin 10, hingeAt emb W1 b1 Wmu bmu Wls bls TM TL cen ctx neg b c)
    + (∑ b : Fin 65536, cenAt emb W1 b1 Wmu bmu Wls bls TM TL cen ctx b)) BN

end Loss

end Cert.Spec

end
-- ==== Proof.KPay.lean ====
import proofs.«154240_j78829829751266_2_alg».proof.Proof.Gen.KernelIdeal.Skeleton
import proofs.«154240_j78829829751266_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What one grid point adds to its accumulator entry

The kernel body at a grid point sees a block of 256 examples: their context embeddings `x0`, centre embeddings `x1`,
the type rows of the context words `x2`, of the negative words `x3` and of the centre words `x4` (a type row is 100
means followed by one log-variance), and the weights `x5 … x11`. It adds, at entry (0,0) of its accumulator block,
the block's hinge terms and centre terms summed over the 256 examples.
-/

noncomputable section

namespace Cert.KernelIdeal.Pay

open Cert.KernelIdeal Cert.KernelIdeal.Gen Idealize.ShloMosaic Idealize.ShloMosaic.ValueIdx

section

variable (x0 : Vec Ideal S256x10x50 .bf16) (x1 : Vec Ideal S256x50 .bf16) (x2 x3 : Vec Ideal S256x10x101 .f32)
  (x4 : Vec Ideal S256x101 .f32) (x5 x6 : Vec Ideal S50x50 .bf16) (x7 : Vec Ideal S1x50 .f32)
  (x8 : Vec Ideal S50x100 .f32) (x9 : Vec Ideal S1x100 .f32) (x10 : Vec Ideal S50x1 .f32) (x11 : Vec Ideal S1x1 .f32)

/-- The block's hidden vectors, posterior means and posterior log-sigmas as the body computes them. -/
def hidV : FVec Ideal S256x50 .f32 := k0_pay2 x0 x1 x5 x6 x7
def muV : FVec Ideal S256x100 .f32 := k0_pay5 (hidV x0 x1 x5 x6 x7) x8 (k0_pay3 x9)
def lsV : FVec Ideal S256x1 .f32 := k0_pay6 (hidV x0 x1 x5 x6 x7) x10 (k0_pay4 x11)

/-- What the body stores into its accumulator block, given the block's previous contents `prev`. -/
def fullPay (prev : Vec Ideal S8x128 .f32) : FVec Ideal S8x128 .f32 :=
  k0_pay18 (muV x0 x1 x5 x6 x7 x8 x9) (lsV x0 x1 x5 x6 x7 x10 x11) (k0_pay9 x3) (k0_pay10 x3) (k0_pay11 x4) (k0_pay12 x4)
    (k0_pay13 (hidV x0 x1 x5 x6 x7) x8 (k0_pay3 x9) x10 (k0_pay4 x11) x2)
    (k0_pay14 (hidV x0 x1 x5 x6 x7) x8 (k0_pay3 x9)) (k0_pay15 (hidV x0 x1 x5 x6 x7) x10 (k0_pay4 x11))
    (k0_pay16 x3) (k0_pay17 (hidV x0 x1 x5 x6 x7) x10 (k0_pay4 x11) x3) prev

/-- Block row `r`'s hidden vector, posterior mean and log-sigma as the specification spells them. -/
def hidB (r : Fin 256) : Fin 50 → EReal :=
  Spec.hid (fun f h => x5 (ix2 f h)) (fun f h => x6 (ix2 f h)) (fun h => x7 (ix2 (0 : Fin 1) h))
    (fun c f => x0 (ix3 r c f)) (fun f => x1 (ix2 r f))
def muB (r : Fin 256) : Fin 100 → EReal :=
  Spec.mu (fun h l => x8 (ix2 h l)) (fun l => x9 (ix2 (0 : Fin 1) l)) (hidB x0 x1 x5 x6 x7 r)
def lsB (r : Fin 256) : EReal :=
  Spec.ls (fun h => x10 (ix2 h (0 : Fin 1))) (x11 (ix2 (0 : Fin 1) (0 : Fin 1))) (hidB x0 x1 x5 x6 x7 r)

/-- Block row `r`'s divergence against a type row `(mean, lv)`. -/
def klB (r : Fin 256) (mean : Fin 100 → EReal) (lv : EReal) : EReal :=
  Spec.kl (muB x0 x1 x5 x6 x7 x8 x9 r) (lsB x0 x1 x5 x6 x7 x10 x11 r) mean lv

/-- The block's contribution: its hinge terms and its centre terms. -/
def blockLoss : EReal :=
  (∑ r : Fin 256, ∑ c : Fin 10,
      Spec.hinge
        (klB x0 x1 x5 x6 x7 x8 x9 x10 x11 r (fun l => x2 (ix3 r c (⟨l.val, by omega⟩ : Fin 101))) (x2 (ix3 r c (⟨100, by omega⟩ : Fin 101))))
        (klB x0 x1 x5 x6 x7 x8 x9 x10 x11 r (fun l => x3 (ix3 r c (⟨l.val, by omega⟩ : Fin 101))) (x3 (ix3 r c (⟨100, by omega⟩ : Fin 101)))))
  + ∑ r : Fin 256,
      klB x0 x1 x5 x6 x7 x8 x9 x10 x11 r (fun l => x4 (ix2 r (⟨l.val, by omega⟩ : Fin 101))) (x4 (ix2 r (⟨100, by omega⟩ : Fin 101)))

end

end Cert.KernelIdeal.Pay

end
-- ==== Proof.KAccum.lean ====
import proofs.«154240_j78829829751266_2_alg».proof.Proof.GenP.KernelIdeal.Frame
import proofs.«154240_j78829829751266_2_alg».proof.Proof.KPay
import Idealize.ShloMosaic.Lib.Pipeline.Value
import Idealize.ShloMosaic.Lib.Tactic

/-!
# What the body leaves in its accumulator block, in the two control cases

At the first point of each half of the grid the body clears its accumulator block, reads it back and adds the
block's contribution; at every other point it adds the contribution to what the point before left. In both cases
the stored block is the payload `Pay.fullPay` of the point's input blocks — over the zero block in the first
case, over the previous contents in the second.
-/

noncomputable section

namespace Cert.KernelIdeal.Accum

open Cert.KernelIdeal Cert.KernelIdeal.Gen Cert.KernelIdeal.GenP Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first case stores before it accumulates. -/
abbrev zeroBlk : Vec Ideal S8x128 .f32 := k0_pay1 (F := Ideal)

/-- A point that continues an accumulation leaves the payload over the previous contents. -/
theorem out_B (c : Dev nD) (i : grid0.Coords) (arg2 : Memref sig .tc .vmem S256x10x50 .bf16) (harg2 : arg2.IsWhole) (arg3 : Memref sig .tc .vmem S256x50 .bf16) (harg3 : arg3.IsWhole) (arg4 : Memref sig .tc .vmem S256x10x101 .f32) (harg4 : arg4.IsWhole) (arg5 : Memref sig .tc .vmem S256x10x101 .f32) (harg5 : arg5.IsWhole) (arg6 : Memref sig .tc .vmem S256x101 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S1x50 .f32) (harg9 : arg9.IsWhole) (arg10 : Memref sig .tc .vmem S50x100 .f32) (harg10 : arg10.IsWhole) (arg11 : Memref sig .tc .vmem S1x100 .f32) (harg11 : arg11.IsWhole) (arg12 : Memref sig .tc .vmem S50x1 .f32) (harg12 : arg12.IsWhole) (arg13 : Memref sig .tc .vmem S1x1 .f32) (harg13 : arg13.IsWhole) (arg14 : Memref sig .tc .vmem S8x128 .f32) (harg14 : arg14.IsWhole) (hc0 : ¬cond0_0 i) (x0 : Vec Ideal S256x10x50 .bf16) (x1 : Vec Ideal S256x50 .bf16) (x2 : Vec Ideal S256x10x101 .f32) (x3 : Vec Ideal S256x10x101 .f32) (x4 : Vec Ideal S256x101 .f32) (x5 : Vec Ideal S50x50 .bf16) (x6 : Vec Ideal S50x50 .bf16) (x7 : Vec Ideal S1x50 .f32) (x8 : Vec Ideal S50x100 .f32) (x9 : Vec Ideal S1x100 .f32) (x10 : Vec Ideal S50x1 .f32) (x11 : Vec Ideal S1x1 .f32) (xo12 : Vec Ideal S8x128 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo12 = Pay.fullPay x0 x1 x2 x3 x4 x5 x6 x7 x8 x9 x10 x11 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x10x50) hz3, View.ld_unit_zero (S := S256x10x101) hz3, View.ld_unit_zero (S := S256x50) hz2, View.ld_unit_zero (S := S256x101) hz2, View.ld_unit_zero (S := S50x50) hz2, View.ld_unit_zero (S := S1x50) hz2, View.ld_unit_zero (S := S50x100) hz2, View.ld_unit_zero (S := S1x100) hz2, View.ld_unit_zero (S := S50x1) hz2, View.ld_unit_zero (S := S1x1) hz2, View.ld_unit_zero (S := S8x128) hz2]
  rfl

/-- The first point of an accumulation leaves the payload over the zero block it has just stored. -/
theorem out_A (c : Dev nD) (i : grid0.Coords) (arg2 : Memref sig .tc .vmem S256x10x50 .bf16) (harg2 : arg2.IsWhole) (arg3 : Memref sig .tc .vmem S256x50 .bf16) (harg3 : arg3.IsWhole) (arg4 : Memref sig .tc .vmem S256x10x101 .f32) (harg4 : arg4.IsWhole) (arg5 : Memref sig .tc .vmem S256x10x101 .f32) (harg5 : arg5.IsWhole) (arg6 : Memref sig .tc .vmem S256x101 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S1x50 .f32) (harg9 : arg9.IsWhole) (arg10 : Memref sig .tc .vmem S50x100 .f32) (harg10 : arg10.IsWhole) (arg11 : Memref sig .tc .vmem S1x100 .f32) (harg11 : arg11.IsWhole) (arg12 : Memref sig .tc .vmem S50x1 .f32) (harg12 : arg12.IsWhole) (arg13 : Memref sig .tc .vmem S1x1 .f32) (harg13 : arg13.IsWhole) (arg14 : Memref sig .tc .vmem S8x128 .f32) (harg14 : arg14.IsWhole) (hc0 : cond0_0 i) (x0 : Vec Ideal S256x10x50 .bf16) (x1 : Vec Ideal S256x50 .bf16) (x2 : Vec Ideal S256x10x101 .f32) (x3 : Vec Ideal S256x10x101 .f32) (x4 : Vec Ideal S256x101 .f32) (x5 : Vec Ideal S50x50 .bf16) (x6 : Vec Ideal S50x50 .bf16) (x7 : Vec Ideal S1x50 .f32) (x8 : Vec Ideal S50x100 .f32) (x9 : Vec Ideal S1x100 .f32) (x10 : Vec Ideal S50x1 .f32) (x11 : Vec Ideal S1x1 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = Pay.fullPay x0 x1 x2 x3 x4 x5 x6 x7 x8 x9 x10 x11 zeroBlk := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x10x50) hz3, View.ld_unit_zero (S := S256x10x101) hz3, View.ld_unit_zero (S := S256x50) hz2, View.ld_unit_zero (S := S256x101) hz2, View.ld_unit_zero (S := S50x50) hz2, View.ld_unit_zero (S := S1x50) hz2, View.ld_unit_zero (S := S50x100) hz2, View.ld_unit_zero (S := S1x100) hz2, View.ld_unit_zero (S := S50x1) hz2, View.ld_unit_zero (S := S1x1) hz2, View.ld_unit_zero (S := S8x128) hz2]
  rfl

end Cert.KernelIdeal.Accum

end
-- ==== Proof.KPayHidden.lean ====
import proofs.«154240_j78829829751266_2_alg».proof.Proof.KPay

/-!
# The block's hidden vectors and posterior heads, row by row

The body's two products against the halves of the hidden weight, the bias, the rectifier and the sum over the ten
context words give block row `r`'s hidden vector; its two further products and biases give the posterior mean and
log-sigma of that row.
-/

noncomputable section

namespace Cert.KernelIdeal.Pay

open Cert.KernelIdeal Cert.KernelIdeal.Gen Idealize.ShloMosaic Idealize.ShloMosaic.ValueIdx

namespace Hidden

/-! ### The product `[2560,50] × [50,50]` into zero, read at an index -/

theorem mmCtx_lhs0 (i : S2560x50.Idx) (q : dot_S2560x50_S50x50_S2560x50_1_0_0_1_n_n.contr.Idx) :
    (dot_S2560x50_S50x50_S2560x50_1_0_0_1_n_n.lhsIdx i q 0).val = (i 0).val := by
  unfold DotDims.lhsIdx
  rw [dif_neg (show ¬(0 : Fin S2560x50.rank) ∈ dot_S2560x50_S50x50_S2560x50_1_0_0_1_n_n.lhsBatch by decide), dif_pos (show (0 : Fin S2560x50.rank) ∈ dot_S2560x50_S50x50_S2560x50_1_0_0_1_n_n.lhsNonContracting by decide)]
  rfl
theorem mmCtx_rhs1 (i : S2560x50.Idx) (q : dot_S2560x50_S50x50_S2560x50_1_0_0_1_n_n.contr.Idx) :
    (dot_S2560x50_S50x50_S2560x50_1_0_0_1_n_n.rhsIdx i q 1).val = (i 1).val := by
  unfold DotDims.rhsIdx
  rw [dif_neg (show ¬(1 : Fin S50x50.rank) ∈ dot_S2560x50_S50x50_S2560x50_1_0_0_1_n_n.rhsBatch by decide), dif_pos (show (1 : Fin S50x50.rank) ∈ dot_S2560x50_S50x50_S2560x50_1_0_0_1_n_n.rhsNonContracting by decide)]
  rfl

/-- Element `(p, q)` of the product is the sum over the contraction coordinate of the operands' products. -/
theorem mmCtx_apply (A : FVec Ideal S2560x50 .bf16) (B : FVec Ideal S50x50 .bf16) (p : Fin 2560) (q : Fin 50) :
    matmul dot_S2560x50_S50x50_S2560x50_1_0_0_1_n_n none A B (constant (F := Ideal) S2560x50 .f32 0x00000000#32) (ix2 p q)
      = ∑ f : Fin 50, A (ix2 p f) * B (ix2 f q) := by
  simp only [matmul]
  rw [Ideal.matmul_constant_zero_apply, ← Equiv.sum_comp (contrEquiv1 dot_S2560x50_S50x50_S2560x50_1_0_0_1_n_n 50 rfl rfl).symm]
  refine Finset.sum_congr rfl fun k _ => ?_
  have hk := contrEquiv1_symm_val dot_S2560x50_S50x50_S2560x50_1_0_0_1_n_n 50 rfl rfl k
  have el : dot_S2560x50_S50x50_S2560x50_1_0_0_1_n_n.lhsIdx (ix2 p q) ((contrEquiv1 dot_S2560x50_S50x50_S2560x50_1_0_0_1_n_n 50 rfl rfl).symm k) = ix2 p k := funext fun a => Fin.ext (by
    match a with
    | ⟨0, _⟩ => exact mmCtx_lhs0 _ _
    | ⟨1, _⟩ => exact ((dot_S2560x50_S50x50_S2560x50_1_0_0_1_n_n.lhsIdx_val_of_single rfl _ _).trans hk))
  have er : dot_S2560x50_S50x50_S2560x50_1_0_0_1_n_n.rhsIdx (ix2 p q) ((contrEquiv1 dot_S2560x50_S50x50_S2560x50_1_0_0_1_n_n 50 rfl rfl).symm k) = ix2 k q := funext fun a => Fin.ext (by
    match a with
    | ⟨0, _⟩ => exact ((dot_S2560x50_S50x50_S2560x50_1_0_0_1_n_n.rhsIdx_val_of_single rfl _ _).trans hk)
    | ⟨1, _⟩ => exact mmCtx_rhs1 _ _)
  rw [el, er]

/-! ### The product `[256,50] × [50,50]` into zero, read at an index -/

theorem mmCen_lhs0 (i : S256x50.Idx) (q : dot_S256x50_S50x50_S256x50_1_0_0_1_n_n.contr.Idx) :
    (dot_S256x50_S50x50_S256x50_1_0_0_1_n_n.lhsIdx i q 0).val = (i 0).val := by
  unfold DotDims.lhsIdx
  rw [dif_neg (show ¬(0 : Fin S256x50.rank) ∈ dot_S256x50_S50x50_S256x50_1_0_0_1_n_n.lhsBatch by decide), dif_pos (show (0 : Fin S256x50.rank) ∈ dot_S256x50_S50x50_S256x50_1_0_0_1_n_n.lhsNonContracting by decide)]
  rfl
theorem mmCen_rhs1 (i : S256x50.Idx) (q : dot_S256x50_S50x50_S256x50_1_0_0_1_n_n.contr.Idx) :
    (dot_S256x50_S50x50_S256x50_1_0_0_1_n_n.rhsIdx i q 1).val = (i 1).val := by
  unfold DotDims.rhsIdx
  rw [dif_neg (show ¬(1 : Fin S50x50.rank) ∈ dot_S256x50_S50x50_S256x50_1_0_0_1_n_n.rhsBatch by decide), dif_pos (show (1 : Fin S50x50.rank) ∈ dot_S256x50_S50x50_S256x50_1_0_0_1_n_n.rhsNonContracting by decide)]
  rfl

/-- Element `(p, q)` of the product is the sum over the contraction coordinate of the operands' products. -/
theorem mmCen_apply (A : FVec Ideal S256x50 .bf16) (B : FVec Ideal S50x50 .bf16) (p : Fin 256) (q : Fin 50) :
    matmul dot_S256x50_S50x50_S256x50_1_0_0_1_n_n none A B (constant (F := Ideal) S256x50 .f32 0x00000000#32) (ix2 p q)
      = ∑ f : Fin 50, A (ix2 p f) * B (ix2 f q) := by
  simp only [matmul]
  rw [Ideal.matmul_constant_zero_apply, ← Equiv.sum_comp (contrEquiv1 dot_S256x50_S50x50_S256x50_1_0_0_1_n_n 50 rfl rfl).symm]
  refine Finset.sum_congr rfl fun k _ => ?_
  have hk := contrEquiv1_symm_val dot_S256x50_S50x50_S256x50_1_0_0_1_n_n 50 rfl rfl k
  have el : dot_S256x50_S50x50_S256x50_1_0_0_1_n_n.lhsIdx (ix2 p q) ((contrEquiv1 dot_S256x50_S50x50_S256x50_1_0_0_1_n_n 50 rfl rfl).symm k) = ix2 p k := funext fun a => Fin.ext (by
    match a with
    | ⟨0, _⟩ => exact mmCen_lhs0 _ _
    | ⟨1, _⟩ => exact ((dot_S256x50_S50x50_S256x50_1_0_0_1_n_n.lhsIdx_val_of_single rfl _ _).trans hk))
  have er : dot_S256x50_S50x50_S256x50_1_0_0_1_n_n.rhsIdx (ix2 p q) ((contrEquiv1 dot_S256x50_S50x50_S256x50_1_0_0_1_n_n 50 rfl rfl).symm k) = ix2 k q := funext fun a => Fin.ext (by
    match a with
    | ⟨0, _⟩ => exact ((dot_S256x50_S50x50_S256x50_1_0_0_1_n_n.rhsIdx_val_of_single rfl _ _).trans hk)
    | ⟨1, _⟩ => exact mmCen_rhs1 _ _)
  rw [el, er]

/-! ### The product `[256,50] × [50,100]` into zero, read at an index -/

theorem mmMu_lhs0 (i : S256x100.Idx) (q : dot_S256x50_S50x100_S256x100_1_0_0_1_n_n.contr.Idx) :
    (dot_S256x50_S50x100_S256x100_1_0_0_1_n_n.lhsIdx i q 0).val = (i 0).val := by
  unfold DotDims.lhsIdx
  rw [dif_neg (show ¬(0 : Fin S256x50.rank) ∈ dot_S256x50_S50x100_S256x100_1_0_0_1_n_n.lhsBatch by decide), dif_pos (show (0 : Fin S256x50.rank) ∈ dot_S256x50_S50x100_S256x100_1_0_0_1_n_n.lhsNonContracting by decide)]
  rfl
theorem mmMu_rhs1 (i : S256x100.Idx) (q : dot_S256x50_S50x100_S256x100_1_0_0_1_n_n.contr.Idx) :
    (dot_S256x50_S50x100_S256x100_1_0_0_1_n_n.rhsIdx i q 1).val = (i 1).val := by
  unfold DotDims.rhsIdx
  rw [dif_neg (show ¬(1 : Fin S50x100.rank) ∈ dot_S256x50_S50x100_S256x100_1_0_0_1_n_n.rhsBatch by decide), dif_pos (show (1 : Fin S50x100.rank) ∈ dot_S256x50_S50x100_S256x100_1_0_0_1_n_n.rhsNonContracting by decide)]
  rfl

/-- Element `(p, q)` of the product is the sum over the contraction coordinate of the operands' products. -/
theorem mmMu_apply (A : FVec Ideal S256x50 .f32) (B : FVec Ideal S50x100 .f32) (p : Fin 256) (q : Fin 100) :
    matmul dot_S256x50_S50x100_S256x100_1_0_0_1_n_n none A B (constant (F := Ideal) S256x100 .f32 0x00000000#32) (ix2 p q)
      = ∑ f : Fin 50, A (ix2 p f) * B (ix2 f q) := by
  simp only [matmul]
  rw [Ideal.matmul_constant_zero_apply, ← Equiv.sum_comp (contrEquiv1 dot_S256x50_S50x100_S256x100_1_0_0_1_n_n 50 rfl rfl).symm]
  refine Finset.sum_congr rfl fun k _ => ?_
  have hk := contrEquiv1_symm_val dot_S256x50_S50x100_S256x100_1_0_0_1_n_n 50 rfl rfl k
  have el : dot_S256x50_S50x100_S256x100_1_0_0_1_n_n.lhsIdx (ix2 p q) ((contrEquiv1 dot_S256x50_S50x100_S256x100_1_0_0_1_n_n 50 rfl rfl).symm k) = ix2 p k := funext fun a => Fin.ext (by
    match a with
    | ⟨0, _⟩ => exact mmMu_lhs0 _ _
    | ⟨1, _⟩ => exact ((dot_S256x50_S50x100_S256x100_1_0_0_1_n_n.lhsIdx_val_of_single rfl _ _).trans hk))
  have er : dot_S256x50_S50x100_S256x100_1_0_0_1_n_n.rhsIdx (ix2 p q) ((contrEquiv1 dot_S256x50_S50x100_S256x100_1_0_0_1_n_n 50 rfl rfl).symm k) = ix2 k q := funext fun a => Fin.ext (by
    match a with
    | ⟨0, _⟩ => exact ((dot_S256x50_S50x100_S256x100_1_0_0_1_n_n.rhsIdx_val_of_single rfl _ _).trans hk)
    | ⟨1, _⟩ => exact mmMu_rhs1 _ _)
  rw [el, er]

/-! ### The product `[256,50] × [50,1]` into zero, read at an index -/

theorem mmLs_lhs0 (i : S256x1.Idx) (q : dot_S256x50_S50x1_S256x1_1_0_0_1_n_n.contr.Idx) :
    (dot_S256x50_S50x1_S256x1_1_0_0_1_n_n.lhsIdx i q 0).val = (i 0).val := by
  unfold DotDims.lhsIdx
  rw [dif_neg (show ¬(0 : Fin S256x50.rank) ∈ dot_S256x50_S50x1_S256x1_1_0_0_1_n_n.lhsBatch by decide), dif_pos (show (0 : Fin S256x50.rank) ∈ dot_S256x50_S50x1_S256x1_1_0_0_1_n_n.lhsNonContracting by decide)]
  rfl
theorem mmLs_rhs1 (i : S256x1.Idx) (q : dot_S256x50_S50x1_S256x1_1_0_0_1_n_n.contr.Idx) :
    (dot_S256x50_S50x1_S256x1_1_0_0_1_n_n.rhsIdx i q 1).val = (i 1).val := by
  unfold DotDims.rhsIdx
  rw [dif_neg (show ¬(1 : Fin S50x1.rank) ∈ dot_S256x50_S50x1_S256x1_1_0_0_1_n_n.rhsBatch by decide), dif_pos (show (1 : Fin S50x1.rank) ∈ dot_S256x50_S50x1_S256x1_1_0_0_1_n_n.rhsNonContracting by decide)]
  rfl

/-- Element `(p, q)` of the product is the sum over the contraction coordinate of the operands' products. -/
theorem mmLs_apply (A : FVec Ideal S256x50 .f32) (B : FVec Ideal S50x1 .f32) (p : Fin 256) (q : Fin 1) :
    matmul dot_S256x50_S50x1_S256x1_1_0_0_1_n_n none A B (constant (F := Ideal) S256x1 .f32 0x00000000#32) (ix2 p q)
      = ∑ f : Fin 50, A (ix2 p f) * B (ix2 f q) := by
  simp only [matmul]
  rw [Ideal.matmul_constant_zero_apply, ← Equiv.sum_comp (contrEquiv1 dot_S256x50_S50x1_S256x1_1_0_0_1_n_n 50 rfl rfl).symm]
  refine Finset.sum_congr rfl fun k _ => ?_
  have hk := contrEquiv1_symm_val dot_S256x50_S50x1_S256x1_1_0_0_1_n_n 50 rfl rfl k
  have el : dot_S256x50_S50x1_S256x1_1_0_0_1_n_n.lhsIdx (ix2 p q) ((contrEquiv1 dot_S256x50_S50x1_S256x1_1_0_0_1_n_n 50 rfl rfl).symm k) = ix2 p k := funext fun a => Fin.ext (by
    match a with
    | ⟨0, _⟩ => exact mmLs_lhs0 _ _
    | ⟨1, _⟩ => exact ((dot_S256x50_S50x1_S256x1_1_0_0_1_n_n.lhsIdx_val_of_single rfl _ _).trans hk))
  have er : dot_S256x50_S50x1_S256x1_1_0_0_1_n_n.rhsIdx (ix2 p q) ((contrEquiv1 dot_S256x50_S50x1_S256x1_1_0_0_1_n_n 50 rfl rfl).symm k) = ix2 k q := funext fun a => Fin.ext (by
    match a with
    | ⟨0, _⟩ => exact ((dot_S256x50_S50x1_S256x1_1_0_0_1_n_n.rhsIdx_val_of_single rfl _ _).trans hk)
    | ⟨1, _⟩ => exact mmLs_rhs1 _ _)
  rw [el, er]

/-! ### The layout operations of the hidden layer, read at an index -/

section Layout
variable {α : Type}

/-- The context block `[256,10,50]` viewed as `[2560,50]`: row `r·10 + c` is context word `c` of example `r`. -/
theorem cast_rows_apply (v : S256x10x50.Idx → α) (r : Fin 256) (c : Fin 10) (f : Fin 50) :
    shapeCast S2560x50 v shapeCasts_S256x10x50_S2560x50 (ix2 (⟨r.val * 10 + c.val, by omega⟩ : Fin 2560) f) = v (ix3 r c f) := by
  refine shapeCast_apply v _ _ (ix3 r c f) ?_
  rw [Shape.rowMajor_val_two, Shape.rowMajor_val_three]
  rfl

/-- … and the `[2560,50]` product viewed back as `[256,10,50]`. -/
theorem cast_back_apply (v : S2560x50.Idx → α) (r : Fin 256) (c : Fin 10) (h : Fin 50) :
    shapeCast S256x10x50 v shapeCasts_S2560x50_S256x10x50 (ix3 r c h) = v (ix2 (⟨r.val * 10 + c.val, by omega⟩ : Fin 2560) h) := by
  refine shapeCast_apply v _ _ (ix2 (⟨r.val * 10 + c.val, by omega⟩ : Fin 2560) h) ?_
  rw [Shape.rowMajor_val_two, Shape.rowMajor_val_three]
  rfl

/-- The centre product `[256,50]` given a unit middle axis. -/
theorem cast_mid_apply (v : S256x50.Idx → α) (r : Fin 256) (h : Fin 50) :
    shapeCast S256x1x50 v shapeCasts_S256x50_S256x1x50 (ix3 r (0 : Fin 1) h) = v (ix2 r h) := by
  refine shapeCast_apply v _ _ (ix2 r h) ?_
  rw [Shape.rowMajor_val_two, Shape.rowMajor_val_three]
  show r.val * 50 + h.val = (r.val * 1 + 0) * 50 + h.val
  omega

/-- … and repeated over the ten context words. -/
theorem bcast_mid_apply (v : S256x1x50.Idx → α) (r : Fin 256) (c : Fin 10) (h : Fin 50) :
    broadcastTo S256x10x50 v broadcasts_S256x1x50_S256x10x50 (ix3 r c h) = v (ix3 r (0 : Fin 1) h) := by
  refine broadcastTo_apply v _ _ (ix3 r (0 : Fin 1) h) fun a => ?_
  match a with
  | ⟨0, _⟩ => rfl
  | ⟨1, _⟩ => rfl
  | ⟨2, _⟩ => rfl

/-- The bias row `[1,50]` given a second unit axis. -/
theorem cast_bias_apply (v : S1x50.Idx → α) (h : Fin 50) :
    shapeCast S1x1x50 v shapeCasts_S1x50_S1x1x50 (ix3 (0 : Fin 1) (0 : Fin 1) h) = v (ix2 (0 : Fin 1) h) := by
  refine shapeCast_apply v _ _ (ix2 (0 : Fin 1) h) ?_
  rw [Shape.rowMajor_val_two, Shape.rowMajor_val_three]
  rfl

/-- … and repeated over the examples and the context words. -/
theorem bcast_bias_apply (v : S1x1x50.Idx → α) (r : Fin 256) (c : Fin 10) (h : Fin 50) :
    broadcastTo S256x10x50 v broadcasts_S1x1x50_S256x10x50 (ix3 r c h) = v (ix3 (0 : Fin 1) (0 : Fin 1) h) := by
  refine broadcastTo_apply v _ _ (ix3 (0 : Fin 1) (0 : Fin 1) h) fun a => ?_
  match a with
  | ⟨0, _⟩ => rfl
  | ⟨1, _⟩ => rfl
  | ⟨2, _⟩ => rfl

/-- A bias row `[1,100]` repeated over the examples. -/
theorem bcast_mu_apply (v : S1x100.Idx → α) (r : Fin 256) (l : Fin 100) :
    broadcastTo S256x100 v broadcasts_S1x100_S256x100 (ix2 r l) = v (ix2 (0 : Fin 1) l) := by
  refine broadcastTo_apply v _ _ (ix2 (0 : Fin 1) l) fun a => ?_
  match a with
  | ⟨0, _⟩ => rfl
  | ⟨1, _⟩ => rfl

/-- A bias `[1,1]` repeated over the examples. -/
theorem bcast_ls_apply (v : S1x1.Idx → α) (r : Fin 256) :
    broadcastTo S256x1 v broadcasts_S1x1_S256x1 (ix2 r (0 : Fin 1)) = v (ix2 (0 : Fin 1) (0 : Fin 1)) := by
  refine broadcastTo_apply v _ _ (ix2 (0 : Fin 1) (0 : Fin 1)) fun a => ?_
  match a with
  | ⟨0, _⟩ => rfl
  | ⟨1, _⟩ => rfl

end Layout

/-- The sum over the ten context words: the reduction of a `[256,10,50]` array over its middle axis. -/
theorem sum_ctx_apply (src : FVec Ideal S256x10x50 .f32) (hφ : FKind.Formats .f32)
    (hacc : (0x00000000#32 : BitVec 32) = 0x00000000#32) (r : Fin 256) (h : Fin 50) :
    multiReduction (F := Ideal) .add [1] S256x50 src 0x00000000#32 reduces_S256x10x50_S256x50 hφ hacc (ix2 r h)
      = ∑ c : Fin 10, src (ix3 r c h) := by
  refine (Ideal.multiReduction_add_single src 0x00000000#32 reduces_S256x10x50_S256x50 hφ hacc (ix2 r h)).trans ?_
  refine Finset.sum_congr rfl fun c _ => congrArg src ?_
  funext a
  match a with
  | ⟨0, _⟩ => rfl
  | ⟨1, _⟩ => rfl
  | ⟨2, _⟩ => rfl

end Hidden

open Hidden

variable (x0 : Vec Ideal S256x10x50 .bf16) (x1 : Vec Ideal S256x50 .bf16)
  (x5 x6 : Vec Ideal S50x50 .bf16) (x7 : Vec Ideal S1x50 .f32)
  (x8 : Vec Ideal S50x100 .f32) (x9 : Vec Ideal S1x100 .f32) (x10 : Vec Ideal S50x1 .f32) (x11 : Vec Ideal S1x1 .f32)

theorem hidV_at (r : Fin 256) (h : Fin 50) :
    hidV x0 x1 x5 x6 x7 (ix2 r h) = hidB x0 x1 x5 x6 x7 r h := by
  unfold hidV k0_pay2
  refine (sum_ctx_apply _ _ _ r h).trans ?_
  unfold hidB Spec.hid Spec.hpre
  refine Finset.sum_congr rfl fun c _ => ?_
  rw [maximumf_apply, addf_apply, addf_apply, broadcast_apply]
  rw [cast_back_apply, mmCtx_apply, bcast_mid_apply, cast_mid_apply, mmCen_apply, bcast_bias_apply, cast_bias_apply]
  simp only [shapeCast_self, cast_rows_apply]
  rfl

theorem muV_at (r : Fin 256) (l : Fin 100) :
    muV x0 x1 x5 x6 x7 x8 x9 (ix2 r l) = muB x0 x1 x5 x6 x7 x8 x9 r l := by
  unfold muV k0_pay5 k0_pay3
  rw [addf_apply, mmMu_apply, bcast_mu_apply, shapeCast_self]
  unfold muB Spec.mu
  refine congrArg₂ (· + ·) (Finset.sum_congr rfl fun h _ => ?_) rfl
  rw [hidV_at]

theorem lsV_at (r : Fin 256) :
    lsV x0 x1 x5 x6 x7 x10 x11 (ix2 r (0 : Fin 1)) = lsB x0 x1 x5 x6 x7 x10 x11 r := by
  unfold lsV k0_pay6 k0_pay4
  rw [addf_apply, mmLs_apply, bcast_ls_apply, shapeCast_self]
  unfold lsB Spec.ls
  refine congrArg₂ (· + ·) (Finset.sum_congr rfl fun h _ => ?_) rfl
  rw [hidV_at]

end Cert.KernelIdeal.Pay

end
-- ==== Proof.KPayLoss.lean ====
import proofs.«154240_j78829829751266_2_alg».proof.Proof.KPayHidden

/-!
# The accumulator entry after one grid point

From the rows' posterior heads the body forms each row's divergences against its ten context type rows, its ten
negative type rows and its centre type row, the hinge terms, and their sums over the block; it lays the total at
entry (0,0) of an otherwise zero block and adds that block to the accumulator's previous contents.

The steps below: each layout operation of the body read at an index (a sum over one axis as a sum over that axis's
coordinates, a view of the same entries under another shape, a repetition along an axis, a slice, the first piece of
a join); each named value of the body read at an index; the divergence of a row against a context type row; entry
(0,0) of the stored block as the previous entry plus the two sums; and last the identification of every term with the
specification's, by the rows' posterior heads.
-/

noncomputable section

namespace Cert.KernelIdeal.Pay

open Cert.KernelIdeal Cert.KernelIdeal.Gen Idealize.ShloMosaic Idealize.ShloMosaic.ValueIdx

/-! ## The layout operations of the body, read at an index -/

section Layout

/-- The sum over the last axis of a [256,10,100] array, at (r, c). -/
theorem sum_last3 (v : FVec Ideal S256x10x100 .f32) (h : S256x10x100.Reduces [2] S256x10) (hφ : FKind.Formats .f32)
    (hacc : (0x00000000#32 : BitVec FTy.f32.bits) = 0x00000000#32) (r : Fin 256) (c : Fin 10) :
    multiReduction .add [2] S256x10 v 0x00000000#32 h hφ hacc (ix2 r c) = ∑ l : Fin 100, v (ix3 r c l) := by
  refine (Ideal.multiReduction_add_single v 0x00000000#32 h hφ hacc (ix2 r c)).trans ?_
  refine Finset.sum_congr rfl fun l _ => congrArg v ?_
  funext a; match a with | ⟨0, _⟩ => rfl | ⟨1, _⟩ => rfl | ⟨2, _⟩ => rfl

/-- The sum over the columns of a [256,100] array, at row r. -/
theorem sum_cols100 (v : FVec Ideal S256x100 .f32) (h : S256x100.Reduces [1] S256) (hφ : FKind.Formats .f32)
    (hacc : (0x00000000#32 : BitVec FTy.f32.bits) = 0x00000000#32) (r : Fin 256) :
    multiReduction .add [1] S256 v 0x00000000#32 h hφ hacc (ix1 r) = ∑ l : Fin 100, v (ix2 r l) := by
  refine (Ideal.multiReduction_add_single v 0x00000000#32 h hφ hacc (ix1 r)).trans ?_
  refine Finset.sum_congr rfl fun l _ => congrArg v ?_
  funext a; match a with | ⟨0, _⟩ => rfl | ⟨1, _⟩ => rfl

/-- The sum over the columns of a [256,10] array, at row r. -/
theorem sum_cols10 (v : FVec Ideal S256x10 .f32) (h : S256x10.Reduces [1] S256) (hφ : FKind.Formats .f32)
    (hacc : (0x00000000#32 : BitVec FTy.f32.bits) = 0x00000000#32) (r : Fin 256) :
    multiReduction .add [1] S256 v 0x00000000#32 h hφ hacc (ix1 r) = ∑ c : Fin 10, v (ix2 r c) := by
  refine (Ideal.multiReduction_add_single v 0x00000000#32 h hφ hacc (ix1 r)).trans ?_
  refine Finset.sum_congr rfl fun l _ => congrArg v ?_
  funext a; match a with | ⟨0, _⟩ => rfl | ⟨1, _⟩ => rfl

/-- The sum over the rows of a [256,1] column. -/
theorem sum_rows (v : FVec Ideal S256x1 .f32) (h : S256x1.Reduces [0] S1) (hφ : FKind.Formats .f32)
    (hacc : (0x00000000#32 : BitVec FTy.f32.bits) = 0x00000000#32) :
    multiReduction .add [0] S1 v 0x00000000#32 h hφ hacc (ix1 (0 : Fin 1)) = ∑ r : Fin 256, v (ix2 r (0 : Fin 1)) := by
  refine (Ideal.multiReduction_add_single v 0x00000000#32 h hφ hacc (ix1 (0 : Fin 1))).trans ?_
  refine Finset.sum_congr rfl fun l _ => congrArg v ?_
  funext a; match a with | ⟨0, _⟩ => rfl | ⟨1, _⟩ => rfl

/-- A [256] vector viewed as a [256,1] column. -/
theorem cast_col (v : FVec Ideal S256 .f32) (h : S256.ShapeCasts S256x1) (r : Fin 256) :
    shapeCast S256x1 v h (ix2 r (0 : Fin 1)) = v (ix1 r) := by
  refine shapeCast_apply v h _ _ ?_
  rw [Shape.rowMajor_val_one, Shape.rowMajor_val_two]
  show r.val = r.val * 1 + 0
  omega

/-- A [1] vector viewed as [1,1]. -/
theorem cast_one (v : FVec Ideal S1 .f32) (h : S1.ShapeCasts S1x1) :
    shapeCast S1x1 v h (ix2 (0 : Fin 1) (0 : Fin 1)) = v (ix1 (0 : Fin 1)) := by
  refine shapeCast_apply v h _ _ ?_
  rw [Shape.rowMajor_val_one, Shape.rowMajor_val_two]
  rfl

/-- A [256,10,1] array viewed as [256,10]. -/
theorem cast_drop_last (v : FVec Ideal S256x10x1 .f32) (h : S256x10x1.ShapeCasts S256x10) (r : Fin 256) (c : Fin 10) :
    shapeCast S256x10 v h (ix2 r c) = v (ix3 r c (0 : Fin 1)) := by
  refine shapeCast_apply v h _ _ ?_
  rw [Shape.rowMajor_val_three, Shape.rowMajor_val_two]
  show (r.val * 10 + c.val) * 1 + 0 = r.val * 10 + c.val
  omega

/-- A [256,100] array viewed as [256,1,100]. -/
theorem cast_mid (v : FVec Ideal S256x100 .f32) (h : S256x100.ShapeCasts S256x1x100) (r : Fin 256) (l : Fin 100) :
    shapeCast S256x1x100 v h (ix3 r (0 : Fin 1) l) = v (ix2 r l) := by
  refine shapeCast_apply v h _ _ ?_
  rw [Shape.rowMajor_val_three, Shape.rowMajor_val_two]
  show r.val * 100 + l.val = (r.val * 1 + 0) * 100 + l.val
  omega

/-- A [256,1,100] array repeated along its middle axis. -/
theorem bcast_mid (v : FVec Ideal S256x1x100 .f32) (h : S256x1x100.Broadcasts S256x10x100) (r : Fin 256) (c : Fin 10)
    (l : Fin 100) : broadcastTo S256x10x100 v h (ix3 r c l) = v (ix3 r (0 : Fin 1) l) := by
  refine broadcastTo_apply v h _ _ fun a => ?_
  match a with
  | ⟨0, _⟩ => rfl
  | ⟨1, _⟩ => rfl
  | ⟨2, _⟩ => rfl

/-- A [256,1] column repeated along the second axis. -/
theorem bcast_col (v : FVec Ideal S256x1 .f32) (h : S256x1.Broadcasts S256x10) (r : Fin 256) (c : Fin 10) :
    broadcastTo S256x10 v h (ix2 r c) = v (ix2 r (0 : Fin 1)) := by
  refine broadcastTo_apply v h _ _ fun a => ?_
  match a with
  | ⟨0, _⟩ => rfl
  | ⟨1, _⟩ => rfl

/-- The first 100 entries of every row of a [256,10,101] block. -/
theorem slice3_means (x : FVec Ideal S256x10x101 .f32) (h : S256x10x101.Slices ![0, 0, 0] S256x10x100) (r : Fin 256)
    (c : Fin 10) (l : Fin 100) :
    extractStridedSlice S256x10x100 ![0, 0, 0] x h (ix3 r c l) = x (ix3 r c (⟨l.val, by omega⟩ : Fin 101)) := by
  refine extractStridedSlice_apply _ x h _ _ fun a => ?_
  match a with
  | ⟨0, _⟩ => show r.val = 0 + r.val; omega
  | ⟨1, _⟩ => show c.val = 0 + c.val; omega
  | ⟨2, _⟩ => show l.val = 0 + l.val; omega

/-- The last entry of every row of a [256,10,101] block. -/
theorem slice3_last (x : FVec Ideal S256x10x101 .f32) (h : S256x10x101.Slices ![0, 0, 100] S256x10x1) (r : Fin 256)
    (c : Fin 10) :
    extractStridedSlice S256x10x1 ![0, 0, 100] x h (ix3 r c (0 : Fin 1)) = x (ix3 r c (⟨100, by omega⟩ : Fin 101)) := by
  refine extractStridedSlice_apply _ x h _ _ fun a => ?_
  match a with
  | ⟨0, _⟩ => show r.val = 0 + r.val; omega
  | ⟨1, _⟩ => show c.val = 0 + c.val; omega
  | ⟨2, _⟩ => rfl

/-- The first 100 entries of every row of a [256,101] block. -/
theorem slice2_means (x : FVec Ideal S256x101 .f32) (h : S256x101.Slices ![0, 0] S256x100) (r : Fin 256) (l : Fin 100) :
    extractStridedSlice S256x100 ![0, 0] x h (ix2 r l) = x (ix2 r (⟨l.val, by omega⟩ : Fin 101)) := by
  refine extractStridedSlice_apply _ x h _ _ fun a => ?_
  match a with
  | ⟨0, _⟩ => show r.val = 0 + r.val; omega
  | ⟨1, _⟩ => show l.val = 0 + l.val; omega

/-- The last entry of every row of a [256,101] block. -/
theorem slice2_last (x : FVec Ideal S256x101 .f32) (h : S256x101.Slices ![0, 100] S256x1) (r : Fin 256) :
    extractStridedSlice S256x1 ![0, 100] x h (ix2 r (0 : Fin 1)) = x (ix2 r (⟨100, by omega⟩ : Fin 101)) := by
  refine extractStridedSlice_apply _ x h _ _ fun a => ?_
  match a with
  | ⟨0, _⟩ => show r.val = 0 + r.val; omega
  | ⟨1, _⟩ => rfl

/-- Entry (0,0) of a [1,1] array followed by 127 further columns. -/
theorem concat_cols_00 (v : FVec Ideal S1x1 .f32) (w : FVec Ideal S1x127 .f32)
    (h : Shape.Concatenates [S1x1, S1x127] S1x128 1) :
    concatenate S1x128 1 [⟨S1x1, v⟩, ⟨S1x127, w⟩] h (ix2 (0 : Fin 1) (0 : Fin 128)) = v (ix2 (0 : Fin 1) (0 : Fin 1)) := by
  refine concatenate_pair_apply_left (1 : Fin S1x128.rank) v w h _ rfl _ fun b => ?_
  match b with
  | ⟨0, _⟩ => rfl
  | ⟨1, _⟩ => rfl

/-- Entry (0,0) of a [1,128] row followed by 7 further rows. -/
theorem concat_rows_00 (v : FVec Ideal S1x128 .f32) (w : FVec Ideal S7x128 .f32)
    (h : Shape.Concatenates [S1x128, S7x128] S8x128 0) :
    concatenate S8x128 0 [⟨S1x128, v⟩, ⟨S7x128, w⟩] h (ix2 (0 : Fin 8) (0 : Fin 128)) = v (ix2 (0 : Fin 1) (0 : Fin 128)) := by
  refine concatenate_pair_apply_left (0 : Fin S8x128.rank) v w h _ rfl _ fun b => ?_
  match b with
  | ⟨0, _⟩ => rfl
  | ⟨1, _⟩ => rfl

end Layout

/-! ## The payloads of the body, read at an index -/

section Payloads

/-- The exponential of an array at an index. -/
theorem exp_apply {s : Shape} {φ : FTy} (a : FVec Ideal s φ) (i : s.Idx) : exp a i = Ideal.exp (a i) := rfl

/-- The means of a [256,10,101] block of type rows. -/
theorem pay9_at (x : Vec Ideal S256x10x101 .f32) (r : Fin 256) (c : Fin 10) (l : Fin 100) :
    k0_pay9 x (ix3 r c l) = x (ix3 r c (⟨l.val, by omega⟩ : Fin 101)) := by
  unfold k0_pay9 k0_pay7
  refine (slice3_means _ _ r c l).trans ?_
  rw [shapeCast_self]

/-- The log-variances of a [256,10,101] block of type rows. -/
theorem pay10_at (x : Vec Ideal S256x10x101 .f32) (r : Fin 256) (c : Fin 10) :
    k0_pay10 x (ix2 r c) = x (ix3 r c (⟨100, by omega⟩ : Fin 101)) := by
  unfold k0_pay10 k0_pay7
  refine (cast_drop_last _ _ r c).trans ?_
  refine (slice3_last _ _ r c).trans ?_
  rw [shapeCast_self]

/-- The means of the centre words' type rows. -/
theorem pay11_at (x : Vec Ideal S256x101 .f32) (r : Fin 256) (l : Fin 100) :
    k0_pay11 x (ix2 r l) = x (ix2 r (⟨l.val, by omega⟩ : Fin 101)) := by
  unfold k0_pay11 k0_pay8
  refine (slice2_means _ _ r l).trans ?_
  rw [shapeCast_self]

/-- The log-variances of the centre words' type rows. -/
theorem pay12_at (x : Vec Ideal S256x101 .f32) (r : Fin 256) :
    k0_pay12 x (ix2 r (0 : Fin 1)) = x (ix2 r (⟨100, by omega⟩ : Fin 101)) := by
  unfold k0_pay12 k0_pay8
  refine (slice2_last _ _ r).trans ?_
  rw [shapeCast_self]

/-- The posterior mean of row r, repeated over the ten words. -/
theorem pay14_at (v25 : FVec Ideal S256x50 .f32) (v26 : Vec Ideal S50x100 .f32) (v28 : FVec Ideal S1x100 .f32)
    (r : Fin 256) (c : Fin 10) (l : Fin 100) :
    k0_pay14 v25 v26 v28 (ix3 r c l) = k0_pay5 v25 v26 v28 (ix2 r l) := by
  unfold k0_pay14
  generalize k0_pay5 v25 v26 v28 = M
  refine (bcast_mid _ _ r c l).trans ?_
  rw [shapeCast_self]
  exact cast_mid _ _ r l

/-- The posterior log-sigma of row r, repeated over the ten words. -/
theorem pay15_at (v25 : FVec Ideal S256x50 .f32) (v29 : Vec Ideal S50x1 .f32) (v31 : FVec Ideal S1x1 .f32)
    (r : Fin 256) (c : Fin 10) :
    k0_pay15 v25 v29 v31 (ix2 r c) = k0_pay6 v25 v29 v31 (ix2 r (0 : Fin 1)) := by
  unfold k0_pay15
  generalize k0_pay6 v25 v29 v31 = L
  refine (bcast_col _ _ r c).trans ?_
  rw [shapeCast_self]

/-- The exponentials of a block's log-variances. -/
theorem pay16_at (x : Vec Ideal S256x10x101 .f32) (r : Fin 256) (c : Fin 10) :
    k0_pay16 x (ix2 r c) = Ideal.exp (x (ix3 r c (⟨100, by omega⟩ : Fin 101))) := by
  unfold k0_pay16
  refine (exp_apply _ _).trans ?_
  rw [pay10_at]

/-- The first quotient of a divergence: exp of the posterior log-sigma over exp of the type row's log-variance. -/
theorem pay17_at (v25 : FVec Ideal S256x50 .f32) (v29 : Vec Ideal S50x1 .f32) (v31 : FVec Ideal S1x1 .f32)
    (x : Vec Ideal S256x10x101 .f32) (r : Fin 256) (c : Fin 10) :
    k0_pay17 v25 v29 v31 x (ix2 r c)
      = Ideal.div (Ideal.exp (k0_pay6 v25 v29 v31 (ix2 r (0 : Fin 1)))) (Ideal.exp (x (ix3 r c (⟨100, by omega⟩ : Fin 101)))) := by
  unfold k0_pay17
  refine (divf_apply _ _ _).trans ?_
  rw [exp_apply, pay15_at, pay16_at]

end Payloads

section Divergence

/-- The context divergence of row r against its c-th context type row, over the posterior heads as the body holds them. -/
theorem pay13_at (v25 : FVec Ideal S256x50 .f32) (v26 : Vec Ideal S50x100 .f32) (v28 : FVec Ideal S1x100 .f32)
    (v29 : Vec Ideal S50x1 .f32) (v31 : FVec Ideal S1x1 .f32) (v38 : Vec Ideal S256x10x101 .f32) (r : Fin 256) (c : Fin 10) :
    k0_pay13 v25 v26 v28 v29 v31 v38 (ix2 r c)
      = Spec.kl (fun l => k0_pay5 v25 v26 v28 (ix2 r l)) (k0_pay6 v25 v29 v31 (ix2 r (0 : Fin 1)))
          (fun l => v38 (ix3 r c (⟨l.val, by omega⟩ : Fin 101))) (v38 (ix3 r c (⟨100, by omega⟩ : Fin 101))) := by
  unfold k0_pay13 Spec.kl
  generalize k0_pay5 v25 v26 v28 = M
  generalize k0_pay6 v25 v29 v31 = L
  simp only [mulf_apply, subf_apply, addf_apply, divf_apply, broadcast_apply, exp_apply, cast_drop_last, slice3_last,
    bcast_col, shapeCast_self]
  rw [sum_last3]
  simp only [mulf_apply, subf_apply, slice3_means, bcast_mid, cast_mid, shapeCast_self]
  rfl

end Divergence

section Total

/-- Entry (0,0) of what the body stores: the previous entry plus the block's hinge terms and centre terms, over the
    values the body holds when it forms them (the posterior heads `v34`, `v37`; the negative rows' means `v47`, log-variances
    `v49`, their exponentials `v77`; the centre rows' means `v50` and log-variances `v51`; the context divergences `v70`;
    the heads repeated over the ten words `v73`, `v75`; the negative rows' first quotient `v78`). -/
theorem pay18_at00 (v34 : FVec Ideal S256x100 .f32) (v37 : FVec Ideal S256x1 .f32) (v47 : FVec Ideal S256x10x100 .f32)
    (v49 : FVec Ideal S256x10 .f32) (v50 : FVec Ideal S256x100 .f32) (v51 : FVec Ideal S256x1 .f32)
    (v70 : FVec Ideal S256x10 .f32) (v73 : FVec Ideal S256x10x100 .f32) (v75 v77 v78 : FVec Ideal S256x10 .f32)
    (prev : Vec Ideal S8x128 .f32) :
    k0_pay18 v34 v37 v47 v49 v50 v51 v70 v73 v75 v77 v78 prev (ix2 (0 : Fin 8) (0 : Fin 128))
      = prev (ix2 (0 : Fin 8) (0 : Fin 128))
        + ((∑ r : Fin 256, ∑ c : Fin 10,
              Spec.hinge (v70 (ix2 r c))
                (Spec.HALF * (((v78 (ix2 r c)
                    + Ideal.div (∑ l : Fin 100, (v73 (ix3 r c l) - v47 (ix3 r c l)) * (v73 (ix3 r c l) - v47 (ix3 r c l)))
                        (v77 (ix2 r c)))
                    + (v49 (ix2 r c) - v75 (ix2 r c))) - Spec.HUND)))
          + ∑ r : Fin 256,
              Spec.HALF * (((Ideal.div (Ideal.exp (v37 (ix2 r (0 : Fin 1)))) (Ideal.exp (v51 (ix2 r (0 : Fin 1))))
                  + Ideal.div (∑ l : Fin 100, (v34 (ix2 r l) - v50 (ix2 r l)) * (v34 (ix2 r l) - v50 (ix2 r l)))
                      (Ideal.exp (v51 (ix2 r (0 : Fin 1)))))
                  + (v51 (ix2 r (0 : Fin 1)) - v37 (ix2 r (0 : Fin 1)))) - Spec.HUND)) := by
  unfold k0_pay18 Spec.hinge
  simp only [addf_apply, shapeCast_self]
  rw [concat_rows_00, concat_cols_00]
  simp only [addf_apply]
  rw [cast_one, cast_one, sum_rows, sum_rows]
  refine congrArg₂ (· + ·) rfl (congrArg₂ (· + ·) (Finset.sum_congr rfl fun r _ => ?_) (Finset.sum_congr rfl fun r _ => ?_))
  · refine (cast_col _ _ r).trans ?_
    rw [sum_cols10]
    refine Finset.sum_congr rfl fun c _ => ?_
    simp only [maximumf_apply, addf_apply, subf_apply, mulf_apply, divf_apply, broadcast_apply]
    rw [sum_last3]
    simp only [mulf_apply, subf_apply]
    rfl
  · simp only [mulf_apply, subf_apply, addf_apply, divf_apply, broadcast_apply, exp_apply]
    rw [cast_col, sum_cols100]
    simp only [mulf_apply, subf_apply]
    rfl

end Total

/-! ## The accumulator entry -/

variable (x0 : Vec Ideal S256x10x50 .bf16) (x1 : Vec Ideal S256x50 .bf16) (x2 x3 : Vec Ideal S256x10x101 .f32)
  (x4 : Vec Ideal S256x101 .f32) (x5 x6 : Vec Ideal S50x50 .bf16) (x7 : Vec Ideal S1x50 .f32)
  (x8 : Vec Ideal S50x100 .f32) (x9 : Vec Ideal S1x100 .f32) (x10 : Vec Ideal S50x1 .f32) (x11 : Vec Ideal S1x1 .f32)

/-- Entry (0,0) of what the body stores is the previous entry plus the block's contribution to the loss. -/
theorem fullPay_at00 (prev : Vec Ideal S8x128 .f32) :
    fullPay x0 x1 x2 x3 x4 x5 x6 x7 x8 x9 x10 x11 prev (ix2 (0 : Fin 8) (0 : Fin 128))
      = prev (ix2 (0 : Fin 8) (0 : Fin 128)) + blockLoss x0 x1 x2 x3 x4 x5 x6 x7 x8 x9 x10 x11 := by
  unfold fullPay blockLoss klB
  refine (pay18_at00 _ _ _ _ _ _ _ _ _ _ _ prev).trans ?_
  refine congrArg₂ (· + ·) rfl (congrArg₂ (· + ·)
    (Finset.sum_congr rfl fun r _ => Finset.sum_congr rfl fun c _ => ?_) (Finset.sum_congr rfl fun r _ => ?_))
  · -- the posterior heads inside the divergences are the block row's mean and log-sigma
    have hmu : ∀ l : Fin 100, k0_pay5 (hidV x0 x1 x5 x6 x7) x8 (k0_pay3 x9) (ix2 r l) = muB x0 x1 x5 x6 x7 x8 x9 r l :=
      fun l => muV_at x0 x1 x5 x6 x7 x8 x9 r l
    have hls : k0_pay6 (hidV x0 x1 x5 x6 x7) x10 (k0_pay4 x11) (ix2 r (0 : Fin 1)) = lsB x0 x1 x5 x6 x7 x10 x11 r :=
      lsV_at x0 x1 x5 x6 x7 x10 x11 r
    rw [pay13_at, pay17_at, pay16_at, pay10_at, pay15_at]
    simp only [pay14_at, pay9_at, hmu, hls]
    rfl
  · simp only [muV_at, lsV_at, pay11_at, pay12_at]
    rfl

end Cert.KernelIdeal.Pay

end
-- ==== Proof.KChain.lean ====
import proofs.«154240_j78829829751266_2_alg».proof.Proof.KAccum
import proofs.«154240_j78829829751266_2_alg».proof.Proof.KPayLoss

/-!
# The accumulator entry after each grid point

The grid has 256 points; points 0 … 127 accumulate into the first output block and points 128 … 255 into the
second. After point `n` entry (0,0) of the accumulator block holds the sum of the contributions of the points of
its half of the grid up to `n`: the first point of a half starts from the zero block, every other point adds to
what the point before left.
-/

noncomputable section

namespace Cert.KernelIdeal.Accum

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ) (c : Dev nD)

/-- The contribution of grid point `t`: the block loss of the blocks its windows show. -/
def bl (t : Fin cfg0.N) : EReal :=
  Pay.blockLoss (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The same, indexed by a natural number (zero past the grid). -/
def blN (j : ℕ) : EReal := if h : j < cfg0.N then bl m c ⟨j, h⟩ else 0

theorem blN_of_lt (j : ℕ) (h : j < cfg0.N) : blN m c j = bl m c ⟨j, h⟩ := dif_pos h

/-- The zero block's entry is zero. -/
theorem zero00 : zeroBlk (ix2 (0 : Fin 8) (0 : Fin 128)) = 0 := by
  show Ideal.ofBits .f32 0x00000000#32 = 0
  exact Ideal.ofBits_zero_f32

/-- After point `n` the accumulator entry holds the contributions of the points of `n`'s half of the grid up to `n`. -/
theorem outsAt_00 : ∀ (n : ℕ) (h : n < cfg0.N),
    outsAt0 m c n h (ix2 (0 : Fin 8) (0 : Fin 128)) = ∑ j ∈ Finset.range (n % 128 + 1), blN m c (n - n % 128 + j)
  | 0, h => by
    rw [outsAt0_A m c ⟨0, h⟩ rfl, out_A, Pay.fullPay_at00, zero00, zero_add]
    show _ = ∑ j ∈ Finset.range 1, blN m c (0 + j)
    rw [Finset.sum_range_one]
    exact (blN_of_lt m c _ h).symm
  | n + 1, h => by
    by_cases h0 : (n + 1) % 128 = 0
    · rw [outsAt0_A m c ⟨n + 1, h⟩ h0, out_A, Pay.fullPay_at00, zero00, zero_add, h0]
      show _ = ∑ j ∈ Finset.range 1, blN m c (n + 1 - 0 + j)
      rw [Finset.sum_range_one]
      exact (blN_of_lt m c _ h).symm
    · rw [outsAt0_B m c ⟨n + 1, h⟩ h0, out_B, Pay.fullPay_at00]
      show outsAt0 m c n _ (ix2 (0 : Fin 8) (0 : Fin 128)) + _ = _
      rw [outsAt_00 n]
      have e1 : (n + 1) % 128 = n % 128 + 1 := by omega
      have e2 : n + 1 - (n + 1) % 128 = n - n % 128 := by omega
      rw [e2, e1, Finset.sum_range_succ _ (n % 128 + 1)]
      congr 1
      rw [show n - n % 128 + (n % 128 + 1) = n + 1 by omega]
      exact (blN_of_lt m c _ h).symm

end Cert.KernelIdeal.Accum

end
-- ==== Proof.KOut.lean ====
import proofs.«154240_j78829829751266_2_alg».proof.Proof.GenP.KernelIdeal.Frame
import Idealize.ShloMosaic.Lib.Pipeline.Value
import Idealize.ShloMosaic.Lib.ValueIdx

/-!
# The output array after the call, at the two entries the host reads

The output array has 16 rows: rows 0–7 are the accumulator block of the first half of the grid, written back after
point 127, rows 8–15 that of the second half, written back after point 255. So entry (0,0) of the array ends
holding entry (0,0) of what point 127 left in the accumulator block, and entry (8,0) what point 255 left.
-/

noncomputable section

namespace Cert.KernelIdeal.Out

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The output array after the call, on core `c`. -/
def outArr : S16x128.Idx → EReal := (dats m 0 c).arrAt 12 cfg0.N

/-- What grid point `n` leaves in the accumulator block. -/
def accAt (n : ℕ) (h : n < cfg0.N) : S8x128.Idx → EReal := outsAt0 m c n h

theorem lt127 : 127 < cfg0.N := by rw [show cfg0.N = 256 from N_0]; decide
theorem lt255 : 255 < cfg0.N := by rw [show cfg0.N = 256 from N_0]; decide

/-- What a grid point leaves in the accumulator block depends on the point's number only. -/
theorem outsAt0_congr {n n' : ℕ} (e : n = n') (h : n < cfg0.N) (h' : n' < cfg0.N) (j j' : S8x128.Idx) (ej : j = j') :
    outsAt0 m c n h j = outsAt0 m c n' h' j' := by
  subst e; subst ej; rfl

/-- The output window's block index at every grid point: the half of the grid the point is in, and zero. -/
theorem index12 : ∀ t : Fin cfg0.N, win0_12.index t (0 : Fin 2) = t.val / 128 ∧ win0_12.index t (1 : Fin 2) = 0 :=
  (by decide +kernel : ∀ t : Fin grid0.N, _)

theorem outWhole_lt (i : S16x128.Idx) : 128 * ((i 0).val / 8) + 127 < cfg0.N := by
  have h0 : (i 0).val < 16 := idx2_lt0 i
  rw [show cfg0.N = 256 from N_0]; omega

/-- One contents of the whole output array of which every written-back block is a restriction: rows `8p … 8p + 7`
    hold what the last point of half `p` of the grid, point `128·p + 127`, left in the accumulator block. -/
def outWhole : S16x128.Idx → EReal := fun i =>
  outsAt0 m c (128 * ((i 0).val / 8) + 127) (outWhole_lt i)
    (ix2 (⟨(i 0).val % 8, Nat.mod_lt _ (by decide)⟩ : Fin 8) (⟨(i 1).val, idx2_lt1 i⟩ : Fin 128))

/-- `outWhole` at row `8·(n / 128) + p`, for a point `n` that is the last of its half. -/
theorem outWhole_apply (i : S16x128.Idx) (n : ℕ) (hn : n < cfg0.N) (p : Fin 8) (q : Fin 128)
    (h0 : (i 0).val = n / 128 * 8 + p.val) (h1 : (i 1).val = q.val) (hnm : n % 128 = 127) :
    outWhole m c i = outsAt0 m c n hn (ix2 p q) := by
  unfold outWhole
  refine outsAt0_congr m c (by omega) _ _ _ _ ?_
  funext a
  match a with
  | ⟨0, _⟩ => exact Fin.ext (by show (i 0).val % 8 = p.val; omega)
  | ⟨1, _⟩ => exact Fin.ext h1

/-- What a writing point writes back is its block of `outWhole`. -/
theorem flushed12 (t : Fin cfg0.N) (hf : (cfg0.win 12).flush t = true) :
    (dats m 0 c).flushed 12 t = ((cfg0.win 12).blk t).view.read (Elt Ideal) (outWhole m c) := by
  have h127 : t.val % 128 = 127 := (flush0_12 t).mp hf
  obtain ⟨e0, e1⟩ := index12 t
  show (cfg0.win 12).cut (grid0.coords t) ((dats m 0 c).after 12 t) = _
  rw [after0_12]
  refine funext fun (y : S8x128.Idx) => ?_
  obtain ⟨p, q, rfl⟩ : ∃ (p : Fin 8) (q : Fin 128), y = ix2 p q := ⟨y 0, y 1, eq_ix2 y⟩
  show outsAt0 m c t.val t.isLt (ix2 p q) = outWhole m c (((cfg0.win 12).blk t).view.emb (ix2 p q))
  refine (outWhole_apply m c _ t.val t.isLt p q ?_ ?_ h127).symm
  · show win0_12.index t (0 : Fin 2) * 8 + 1 * p.val = t.val / 128 * 8 + p.val; omega
  · show win0_12.index t (1 : Fin 2) * 128 + 1 * q.val = q.val; omega

/-- An index of the array is in point `t`'s block iff each coordinate is in the block's range on its axis. -/
theorem mem_blk12 (t : Fin cfg0.N) (i : S16x128.Idx) :
    i ∈ ((cfg0.win 12).blk t).view.set ↔ ∀ a : Fin 2, win0_12.index t a * S8x128.size a ≤ (i a).val
      ∧ (i a).val < win0_12.index t a * S8x128.size a + S8x128.size a := by
  show i ∈ ((View.whole main_v45).slice (win0_12.rect t)).set ↔ _
  rw [View.set_slice_whole, Rect.mem_set_unit]
  exact Iff.rfl

theorem out_entry0 :
    outArr m c (ix2 (0 : Fin 16) (0 : Fin 128)) = accAt m c 127 lt127 (ix2 (0 : Fin 8) (0 : Fin 128)) := by
  unfold outArr accAt
  obtain ⟨e0, e1⟩ := index12 ⟨127, lt127⟩
  refine ((dats m 0 c).arrAt_apply_of_mem 12 (outWhole m c) (flushed12 m c) cfg0.N ⟨127, lt127⟩
    (ix2 (0 : Fin 16) (0 : Fin 128)) lt127 ((flush0_12 _).mpr rfl) ?_).trans
    (outWhole_apply m c _ 127 lt127 0 0 rfl rfl rfl)
  rw [mem_blk12]
  intro a
  match a with
  | ⟨0, _⟩ => show win0_12.index ⟨127, lt127⟩ (0 : Fin 2) * 8 ≤ 0 ∧ 0 < win0_12.index ⟨127, lt127⟩ (0 : Fin 2) * 8 + 8
              rw [e0]; decide
  | ⟨1, _⟩ => show win0_12.index ⟨127, lt127⟩ (1 : Fin 2) * 128 ≤ 0 ∧ 0 < win0_12.index ⟨127, lt127⟩ (1 : Fin 2) * 128 + 128
              rw [e1]; decide

theorem out_entry8 :
    outArr m c (ix2 (8 : Fin 16) (0 : Fin 128)) = accAt m c 255 lt255 (ix2 (0 : Fin 8) (0 : Fin 128)) := by
  unfold outArr accAt
  obtain ⟨e0, e1⟩ := index12 ⟨255, lt255⟩
  refine ((dats m 0 c).arrAt_apply_of_mem 12 (outWhole m c) (flushed12 m c) cfg0.N ⟨255, lt255⟩
    (ix2 (8 : Fin 16) (0 : Fin 128)) lt255 ((flush0_12 _).mpr rfl) ?_).trans
    (outWhole_apply m c _ 255 lt255 0 0 rfl rfl rfl)
  rw [mem_blk12]
  intro a
  match a with
  | ⟨0, _⟩ => show win0_12.index ⟨255, lt255⟩ (0 : Fin 2) * 8 ≤ 8 ∧ 8 < win0_12.index ⟨255, lt255⟩ (0 : Fin 2) * 8 + 8
              rw [e0]; decide
  | ⟨1, _⟩ => show win0_12.index ⟨255, lt255⟩ (1 : Fin 2) * 128 ≤ 0 ∧ 0 < win0_12.index ⟨255, lt255⟩ (1 : Fin 2) * 128 + 128
              rw [e1]; decide

end Cert.KernelIdeal.Out

end
-- ==== Proof.KTail.lean ====
import proofs.«154240_j78829829751266_2_alg».proof.Proof.KOut
import proofs.«154240_j78829829751266_2_alg».proof.Proof.Spec
import Idealize.ShloMosaic.Lib.Pipeline.Value
import Idealize.ShloMosaic.Lib.ValueIdx
import Idealize.ShloMosaic.Lib.ValueLayout

/-!
# The program's result from the output array

After the call the host reads entries (0,0) and (8,0) of the output array — the two halves' totals —, adds them and
divides by the batch size 65536.
-/

noncomputable section

namespace Cert.KernelIdeal.Tail

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

namespace Read

variable {α : Type}

/-- The slice `[0:1, 0:1]` of a `[16,128]` array, reshaped to a scalar, is the array's entry (0,0). -/
theorem entry0_apply (A : S16x128.Idx → α) (j : S_.Idx) :
    shapeCast S_ (extractStridedSlice S1x1 ![0, 0] A slices_S16x128_S1x1_0_0) shapeCasts_S1x1_S_ j
      = A (ix2 (0 : Fin 16) (0 : Fin 128)) := by
  refine (shapeCast_apply _ _ j (ix2 (0 : Fin 1) (0 : Fin 1)) ?_).trans ?_
  · have hj : (S_.rowMajor j).val < 1 := (S_.rowMajor j).isLt
    rw [Shape.rowMajor_val_two]
    show (0 : ℕ) * 1 + 0 = _
    omega
  · exact extractStridedSlice_apply _ A _ _ (ix2 (0 : Fin 16) (0 : Fin 128)) fun a => by
      match a with
      | ⟨0, _⟩ => rfl
      | ⟨1, _⟩ => rfl

/-- The slice `[8:9, 0:1]`, reshaped to a scalar, is the array's entry (8,0). -/
theorem entry8_apply (A : S16x128.Idx → α) (j : S_.Idx) :
    shapeCast S_ (extractStridedSlice S1x1 ![8, 0] A slices_S16x128_S1x1_8_0) shapeCasts_S1x1_S_ j
      = A (ix2 (8 : Fin 16) (0 : Fin 128)) := by
  refine (shapeCast_apply _ _ j (ix2 (0 : Fin 1) (0 : Fin 1)) ?_).trans ?_
  · have hj : (S_.rowMajor j).val < 1 := (S_.rowMajor j).isLt
    rw [Shape.rowMajor_val_two]
    show (0 : ℕ) * 1 + 0 = _
    omega
  · exact extractStridedSlice_apply _ A _ _ (ix2 (8 : Fin 16) (0 : Fin 128)) fun a => by
      match a with
      | ⟨0, _⟩ => rfl
      | ⟨1, _⟩ => rfl

end Read

open Read

variable (m : (ℓ : Loc nD τ sig) → Buf (Elt Ideal) ℓ) (c : Dev nD)

/-- The result buffer after the host lines that follow the call. -/
theorem tail_value :
    (Pipeline.afterTail₀ cfgs (dats m) 0 (V0 m) [hostOps1] c main_v51 : S_.Idx → EReal)
      = fun _ => Ideal.div
          (Out.outArr m c (ix2 (0 : Fin 16) (0 : Fin 128)) + Out.outArr m c (ix2 (8 : Fin 16) (0 : Fin 128))) Spec.BN := by
  unfold Pipeline.afterTail₀
  simp only [List.flatten_cons, List.flatten_nil, List.append_nil]
  show StableHlo.after hostOps1 _ (Proc.devRef .tc main_v51) = _
  after_results
  have e : Pipeline.withArrays (cfgs 0).spec c (V0 m c) (fun w => (dats m 0 c).arrAt w (cfgs 0).N) (Proc.devRef .tc main_v45)
      = Out.outArr m c := Pipeline.withArrays_arr spec0 launch0.win.arr_inj c _ _ 12
  rw [e]
  generalize Out.outArr m c = A
  funext j
  show Ideal.div (shapeCast S_ (extractStridedSlice S1x1 ![0, 0] A slices_S16x128_S1x1_0_0) shapeCasts_S1x1_S_ j
      + shapeCast S_ (extractStridedSlice S1x1 ![8, 0] A slices_S16x128_S1x1_8_0) shapeCasts_S1x1_S_ j)
      (Ideal.ofBits .f32 0x47800000#32) = _
  rw [entry0_apply, entry8_apply]
  rfl

end Cert.KernelIdeal.Tail

end
-- ==== Proof.KArgs.lean ====
import proofs.«154240_j78829829751266_2_alg».proof.KernelIdeal
import Idealize.ShloMosaic.Lib.ValueIdx

/-!
# The kernel program's argument arrays, read entry by entry

Each argument array of the program, as it lies in a core's memory, as a function of literal coordinates:
the embedding table, the hidden layer's weight and bias, the two posterior heads, the two type tables and the
three word arrays.
-/

noncomputable section

namespace Cert.KernelIdeal.Args

open Cert.KernelIdeal Idealize.ShloMosaic Idealize.ShloMosaic.TcCoe Idealize.ShloMosaic.ValueIdx Idealize.SL.Sem

variable (m : (ℓ : Loc nD τ sig) → Buf (Elt Ideal) ℓ) (c : Dev nD)

def emb : Fin 50000 → Fin 50 → EReal := fun v f => (m ((c : Thread nD τ).loc main_arg0) : S50000x50.Idx → EReal) (ix2 v f)
def W1 : Fin 100 → Fin 50 → EReal := fun k h => (m ((c : Thread nD τ).loc main_arg1) : S100x50.Idx → EReal) (ix2 k h)
def b1 : Fin 50 → EReal := fun h => (m ((c : Thread nD τ).loc main_arg2) : S50.Idx → EReal) (ix1 h)
def Wmu : Fin 50 → Fin 100 → EReal := fun h l => (m ((c : Thread nD τ).loc main_arg3) : S50x100.Idx → EReal) (ix2 h l)
def bmu : Fin 100 → EReal := fun l => (m ((c : Thread nD τ).loc main_arg4) : S100.Idx → EReal) (ix1 l)
def Wls : Fin 50 → EReal := fun h => (m ((c : Thread nD τ).loc main_arg5) : S50x1.Idx → EReal) (ix2 h (0 : Fin 1))
def bls : EReal := (m ((c : Thread nD τ).loc main_arg6) : S1.Idx → EReal) (ix1 (0 : Fin 1))
def TM : Fin 50000 → Fin 100 → EReal := fun v l => (m ((c : Thread nD τ).loc main_arg7) : S50000x100.Idx → EReal) (ix2 v l)
def TL : Fin 50000 → EReal := fun v => (m ((c : Thread nD τ).loc main_arg8) : S50000x1.Idx → EReal) (ix2 v (0 : Fin 1))
def cen : Fin 65536 → BitVec 32 := fun b => (m ((c : Thread nD τ).loc main_arg9) : S65536.Idx → BitVec 32) (ix1 b)
def ctx : Fin 65536 → Fin 10 → BitVec 32 := fun b k => (m ((c : Thread nD τ).loc main_arg10) : S65536x10.Idx → BitVec 32) (ix2 b k)
def neg : Fin 65536 → Fin 10 → BitVec 32 := fun b k => (m ((c : Thread nD τ).loc main_arg11) : S65536x10.Idx → BitVec 32) (ix2 b k)

end Cert.KernelIdeal.Args

end
-- ==== Proof.LibGatherRows3.lean ====
/-
  A gather of rows at a rank-2 table of index words, read at an index.

  `x[idx]` of a matrix `x : [N, C]` at an integer array `idx : [E, K]` lowers to a gather whose start indices are
  printed `[E, K, 1]` (the index vector on axis 2) and whose result is `[E, K, C]`: the result's element
  `(e, k, f)` is `x` at the row `idx[e, k, 0]`, read signed and clamped into `[0, N − 1]`, and column `f`.
-/
import Idealize.ShloMosaic.PureOps.Ideal
import Idealize.ShloMosaic.Lib.ValueIdx

noncomputable section

namespace Cert.Lib.GatherRows3

open Idealize.ShloMosaic Idealize.ShloMosaic.ValueIdx

variable {α : Type}

/-- The dimension numbers of `x[idx]` for a matrix operand `[N, C]`, start indices `[E, K, 1]` and result `[E, K, C]`. -/
abbrev rows3Dims (N C E K : Nat)
    (wf : GatherDims.WF ⟨2, ![N, C]⟩ ⟨3, ![E, K, 1]⟩ ⟨3, ![E, K, C]⟩ [2] [0] [] [0] [] 2 ![1, C]) :
    GatherDims ⟨2, ![N, C]⟩ ⟨3, ![E, K, 1]⟩ ⟨3, ![E, K, C]⟩ where
  offsetDims := [2]
  collapsedSliceDims := [0]
  operandBatchingDims := []
  startIndicesBatchingDims := []
  startIndexMap := [0]
  indexVectorDim := 2
  sliceSizes := ![1, C]
  wf := wf

/-- The operand's row coordinate of result element `(e, k, f)`: the index word `idx[e, k, 0]`, signed and clamped. -/
theorem rows3_coord0 {N C E K w : Nat}
    (wf : GatherDims.WF ⟨2, ![N, C]⟩ ⟨3, ![E, K, 1]⟩ ⟨3, ![E, K, C]⟩ [2] [0] [] [0] [] 2 ![1, C])
    (idx : IVec ⟨3, ![E, K, 1]⟩ w) (e : Fin E) (k : Fin K) (f : Fin C) :
    (rows3Dims N C E K wf).start (ix3 e k f) idx (0 : Fin 2) + (rows3Dims N C E K wf).batchCoord (ix3 e k f) (0 : Fin 2)
      + (rows3Dims N C E K wf).offCoord (ix3 e k f) (0 : Fin 2) = min (idx (ix3 e k (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rows3Dims N C E K wf).startIndexMap from List.mem_singleton.mpr rfl)]
  have hsi : (rows3Dims N C E K wf).siIdx (ix3 e k f) ⟨List.idxOf (0 : Fin 2) (rows3Dims N C E K wf).startIndexMap,
      List.idxOf_lt_length_iff.2 (List.mem_singleton.mpr rfl)⟩ = ix3 e k (0 : Fin 1) := by
    funext b; refine Fin.ext ?_
    match b with
    | ⟨0, _⟩ => rfl
    | ⟨1, _⟩ => rfl
    | ⟨2, _⟩ => rfl
  rw [hsi]
  rfl

/-- The operand's column coordinate of result element `(e, k, f)` is `f`. -/
theorem rows3_coord1 {N C E K w : Nat}
    (wf : GatherDims.WF ⟨2, ![N, C]⟩ ⟨3, ![E, K, 1]⟩ ⟨3, ![E, K, C]⟩ [2] [0] [] [0] [] 2 ![1, C])
    (idx : IVec ⟨3, ![E, K, 1]⟩ w) (e : Fin E) (k : Fin K) (f : Fin C) :
    (rows3Dims N C E K wf).start (ix3 e k f) idx (1 : Fin 2) + (rows3Dims N C E K wf).batchCoord (ix3 e k f) (1 : Fin 2)
      + (rows3Dims N C E K wf).offCoord (ix3 e k f) (1 : Fin 2) = f.val := by
  rw [GatherDims.batchCoord_eq_zero _ _ _ List.not_mem_nil, Nat.add_zero]
  have hs : (rows3Dims N C E K wf).start (ix3 e k f) idx (1 : Fin 2) = 0 := by
    unfold GatherDims.start
    rw [dif_neg (show (1 : Fin 2) ∉ [(0 : Fin 2)] by decide)]
  have ho : (rows3Dims N C E K wf).offCoord (ix3 e k f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, k, f)`: the operand at the row `idx[e, k, 0]`, read signed and clamped, and column `f`. -/
theorem gather_rows3_apply {N C E K w : Nat} (hN : 0 < N)
    (wf : GatherDims.WF ⟨2, ![N, C]⟩ ⟨3, ![E, K, 1]⟩ ⟨3, ![E, K, C]⟩ [2] [0] [] [0] [] 2 ![1, C])
    (x : (⟨2, ![N, C]⟩ : Shape).Idx → α) (idx : IVec ⟨3, ![E, K, 1]⟩ w) (e : Fin E) (k : Fin K) (f : Fin C) :
    Host.gather (rows3Dims N C E K wf) x idx (ix3 e k f)
      = x (ix2 ⟨min (idx (ix3 e k (0 : Fin 1))).toInt.toNat (N - 1), by omega⟩ f) := by
  unfold Host.gather
  congr 1
  funext a
  refine Fin.ext ?_
  match a with
  | ⟨0, _⟩ => exact rows3_coord0 wf idx e k f
  | ⟨1, _⟩ => exact rows3_coord1 wf idx e k f

end Cert.Lib.GatherRows3

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.KHost.lean ====
import proofs.«154240_j78829829751266_2_alg».proof.Proof.GenP.KernelIdeal.Frame
import proofs.«154240_j78829829751266_2_alg».proof.Proof.KArgs
import proofs.«154240_j78829829751266_2_alg».proof.Proof.Spec
import proofs.«154240_j78829829751266_2_alg».proof.Proof.LibGatherRows3
import proofs.«154240_j78829829751266_2_alg».proof.Proof.LibScatterGather
import Idealize.ShloMosaic.Lib.ValueLayout

/-!
# The arrays the host lines prepare for the call, entry by entry

Before the call the host gathers, for every batch row, the embedding rows of its ten context words and of its centre
word, and the type rows (100 means followed by one log-variance, the two type tables laid side by side) of its
context words, negative words and centre word; it cuts the hidden layer's weight into its two halves and lays the
three bias vectors out as single rows. Each entry of each of these arrays is an entry of an argument array.

Each array is first written as the host operations' term of the argument arrays (`vJ_eq`), then read at an index:
a wrapped word `select (w < 0) (w + 50000) w` at an index is `Spec.norm` of the word; a gather of rows reads the
table at the row the wrapped word selects, signed and clamped, which is `Spec.row`; the narrowing conversion is the
identity on extended reals; a slice, a one-row reshape and the side-by-side join read one entry of their operand.
-/

noncomputable section

namespace Cert.KernelIdeal.HostVal

open Cert.KernelIdeal Cert.KernelIdeal.Gen Cert.KernelIdeal.GenP Idealize.ShloMosaic Idealize.ShloMosaic.TcCoe Idealize.ShloMosaic.ValueIdx Idealize.SL.Sem
open Idealize.ShloMosaic.StableHlo

/-! ## Layout and word lemmas -/

/-- A vector laid out as one row reads, at `(0, i)`, its entry `i`. -/
theorem row_reshape_apply {α : Type} {n : Nat} (x : (⟨1, ![n]⟩ : Shape).Idx → α)
    (h : (⟨1, ![n]⟩ : Shape).ShapeCasts ⟨2, ![1, n]⟩) (i : Fin n) :
    shapeCast ⟨2, ![1, n]⟩ x h (ix2 (0 : Fin 1) i) = x (ix1 i) :=
  shapeCast_apply x h _ _ (by
    rw [Shape.rowMajor_val_one, Shape.rowMajor_val_two]
    show i.val = 0 * n + i.val
    omega)

/-- One word per batch row wrapped once, as the host computes it: `select (w < 0) (w + 50000) w` entry by entry. -/
def wrap1 (w : IVec S65536 32) : IVec S65536 32 :=
  select (cmpi .slt w (broadcastInDim S65536 ![] Facts₀.bcast_S_S65536 (constantI S_ 32 0#32)))
    (addi w (broadcastInDim S65536 ![] Facts₀.bcast_S_S65536 (constantI S_ 32 50000#32))) w

theorem wrap1_apply (w : IVec S65536 32) (b : Fin 65536) : wrap1 w (ix1 b) = Spec.norm (w (ix1 b)) := rfl

/-- The wrapped words as a column `[65536, 1]` of row numbers. -/
def col1 (w : IVec S65536 32) : IVec S65536x1 32 :=
  broadcastInDim S65536x1 ![0] Facts₀.bcast_S65536_S65536x1_0 (wrap1 w)

theorem col1_apply (w : IVec S65536 32) (b : Fin 65536) : col1 w (ix2 b (0 : Fin 1)) = Spec.norm (w (ix1 b)) := by
  unfold col1
  refine (broadcastInDim_apply _ _ _ _ (ix1 b) (fun a => ?_)).trans (wrap1_apply w b)
  match a with
  | ⟨0, _⟩ => rfl

/-- Ten words per batch row wrapped once. -/
def wrap2 (w : IVec S65536x10 32) : IVec S65536x10 32 :=
  select (cmpi .slt w (broadcastInDim S65536x10 ![] Facts₀.bcast_S_S65536x10 (constantI S_ 32 0#32)))
    (addi w (broadcastInDim S65536x10 ![] Facts₀.bcast_S_S65536x10 (constantI S_ 32 50000#32))) w

theorem wrap2_apply (w : IVec S65536x10 32) (b : Fin 65536) (k : Fin 10) :
    wrap2 w (ix2 b k) = Spec.norm (w (ix2 b k)) := rfl

/-- The wrapped words as an array `[65536, 10, 1]` of row numbers. -/
def col2 (w : IVec S65536x10 32) : IVec S65536x10x1 32 :=
  broadcastInDim S65536x10x1 ![0, 1] Facts₀.bcast_S65536x10_S65536x10x1_0_1 (wrap2 w)

theorem col2_apply (w : IVec S65536x10 32) (b : Fin 65536) (k : Fin 10) :
    col2 w (ix3 b k (0 : Fin 1)) = Spec.norm (w (ix2 b k)) := by
  unfold col2
  refine (broadcastInDim_apply _ _ _ _ (ix2 b k) (fun a => ?_)).trans (wrap2_apply w b k)
  match a with
  | ⟨0, _⟩ => rfl
  | ⟨1, _⟩ => rfl

/-- The printed dimension numbers of the four gathers are the row gathers'. -/
theorem gdims_emb1 : gather_S50000x50_S65536x1_S65536x50_1_0_n_n_0_1_150
    = Cert.Lib.ScatterGather.rowsDims 50000 50 65536 Facts₀.gather_S50000x50_S65536x1_S65536x50_1_0_n_n_0_1_150_wf := rfl
theorem gdims_emb3 : gather_S50000x50_S65536x10x1_S65536x10x50_2_0_n_n_0_2_150
    = Cert.Lib.GatherRows3.rows3Dims 50000 50 65536 10 Facts₀.gather_S50000x50_S65536x10x1_S65536x10x50_2_0_n_n_0_2_150_wf := rfl
theorem gdims_tt1 : gather_S50000x101_S65536x1_S65536x101_1_0_n_n_0_1_1101
    = Cert.Lib.ScatterGather.rowsDims 50000 101 65536 Facts₀.gather_S50000x101_S65536x1_S65536x101_1_0_n_n_0_1_1101_wf := rfl
theorem gdims_tt3 : gather_S50000x101_S65536x10x1_S65536x10x101_2_0_n_n_0_2_1101
    = Cert.Lib.GatherRows3.rows3Dims 50000 101 65536 10 Facts₀.gather_S50000x101_S65536x10x1_S65536x10x101_2_0_n_n_0_2_1101_wf := rfl

variable (m : (ℓ : Loc nD τ sig) → Buf (Elt Ideal) ℓ) (c : Dev nD)

/-! ## The two type tables side by side -/

/-- The type rows: 100 means followed by one log-variance. -/
def TT : FVec Ideal S50000x101 .f32 :=
  concatenate S50000x101 1 [⟨S50000x100, (m ((c : Thread nD τ).loc main_arg7) : FVec Ideal S50000x100 .f32)⟩,
    ⟨S50000x1, (m ((c : Thread nD τ).loc main_arg8) : FVec Ideal S50000x1 .f32)⟩]
    Facts₀.concatenates_S50000x100_S50000x1_S50000x101_d1

theorem TT_mean (v : Fin 50000) (l : Fin 100) :
    TT m c (ix2 v (⟨l.val, by omega⟩ : Fin 101)) = Args.TM m c v l :=
  concatenate_pair_apply_left (t := S50000x101) (s₁ := S50000x100) (s₂ := S50000x1) (1 : Fin 2) _ _ _ (ix2 v (⟨l.val, by omega⟩ : Fin 101)) rfl (ix2 v l) (fun b => by
    match b with
    | ⟨0, _⟩ => rfl
    | ⟨1, _⟩ => rfl)

theorem TT_logvar (v : Fin 50000) :
    TT m c (ix2 v (⟨100, by omega⟩ : Fin 101)) = Args.TL m c v :=
  concatenate_pair_apply_right (t := S50000x101) (s₁ := S50000x100) (s₂ := S50000x1) (1 : Fin 2) _ _ _ (ix2 v (⟨100, by omega⟩ : Fin 101)) rfl rfl (ix2 v (0 : Fin 1))
    (fun b hb => by
      match b, hb with
      | ⟨0, _⟩, _ => rfl
      | ⟨1, _⟩, hb => exact absurd rfl hb)
    rfl

/-! ## Each array as the host operations' term -/

theorem v8_eq : @Eq (S65536x10x50.Idx → EReal) (V m c main_v8)
    (truncf .bf16 (Host.gather gather_S50000x50_S65536x10x1_S65536x10x50_2_0_n_n_0_2_150
      (m ((c : Thread nD τ).loc main_arg0) : FVec Ideal S50000x50 .f32)
      (col2 (m ((c : Thread nD τ).loc main_arg10) : IVec S65536x10 32))) Facts₀.bitsLt_bf16_f32 : FVec Ideal S65536x10x50 .bf16) := by
  show StableHlo.after hostOps0 (fun b => m (c, b)) (Proc.devRef .tc main_v8) = _
  after_results_simp
  first | rfl | skip

theorem v16_eq : @Eq (S65536x50.Idx → EReal) (V m c main_v16)
    (truncf .bf16 (Host.gather gather_S50000x50_S65536x1_S65536x50_1_0_n_n_0_1_150
      (m ((c : Thread nD τ).loc main_arg0) : FVec Ideal S50000x50 .f32)
      (col1 (m ((c : Thread nD τ).loc main_arg9) : IVec S65536 32))) Facts₀.bitsLt_bf16_f32 : FVec Ideal S65536x50 .bf16) := by
  show StableHlo.after hostOps0 (fun b => m (c, b)) (Proc.devRef .tc main_v16) = _
  after_results_simp
  first | rfl | skip

theorem v23_eq : @Eq (S65536x10x101.Idx → EReal) (V m c main_v23)
    (Host.gather gather_S50000x101_S65536x10x1_S65536x10x101_2_0_n_n_0_2_1101 (TT m c)
      (col2 (m ((c : Thread nD τ).loc main_arg10) : IVec S65536x10 32))) := by
  show StableHlo.after hostOps0 (fun b => m (c, b)) (Proc.devRef .tc main_v23) = _
  after_results_simp
  first | rfl | skip

theorem v30_eq : @Eq (S65536x10x101.Idx → EReal) (V m c main_v30)
    (Host.gather gather_S50000x101_S65536x10x1_S65536x10x101_2_0_n_n_0_2_1101 (TT m c)
      (col2 (m ((c : Thread nD τ).loc main_arg11) : IVec S65536x10 32))) := by
  show StableHlo.after hostOps0 (fun b => m (c, b)) (Proc.devRef .tc main_v30) = _
  after_results_simp
  first | rfl | skip

theorem v37_eq : @Eq (S65536x101.Idx → EReal) (V m c main_v37)
    (Host.gather gather_S50000x101_S65536x1_S65536x101_1_0_n_n_0_1_1101 (TT m c)
      (col1 (m ((c : Thread nD τ).loc main_arg9) : IVec S65536 32))) := by
  show StableHlo.after hostOps0 (fun b => m (c, b)) (Proc.devRef .tc main_v37) = _
  after_results_simp
  first | rfl | skip

theorem v39_eq : @Eq (S50x50.Idx → EReal) (V m c main_v39)
    (truncf .bf16 (extractStridedSlice S50x50 ![0, 0] (m ((c : Thread nD τ).loc main_arg1) : FVec Ideal S100x50 .f32)
      Facts₀.slices_S100x50_S50x50_0_0) Facts₀.bitsLt_bf16_f32 : FVec Ideal S50x50 .bf16) := by
  show StableHlo.after hostOps0 (fun b => m (c, b)) (Proc.devRef .tc main_v39) = _
  after_results_simp
  first | rfl | skip

theorem v41_eq : @Eq (S50x50.Idx → EReal) (V m c main_v41)
    (truncf .bf16 (extractStridedSlice S50x50 ![50, 0] (m ((c : Thread nD τ).loc main_arg1) : FVec Ideal S100x50 .f32)
      Facts₀.slices_S100x50_S50x50_50_0) Facts₀.bitsLt_bf16_f32 : FVec Ideal S50x50 .bf16) := by
  show StableHlo.after hostOps0 (fun b => m (c, b)) (Proc.devRef .tc main_v41) = _
  after_results_simp
  first | rfl | skip

theorem v42_eq : (V m c main_v42 : S1x50.Idx → EReal)
    = shapeCast S1x50 (m ((c : Thread nD τ).loc main_arg2) : S50.Idx → EReal) Facts₀.shapeCasts_S50_S1x50 := by
  show StableHlo.after hostOps0 (fun b => m (c, b)) (Proc.devRef .tc main_v42) = _
  after_results_simp
  first | rfl | skip

theorem v43_eq : (V m c main_v43 : S1x100.Idx → EReal)
    = shapeCast S1x100 (m ((c : Thread nD τ).loc main_arg4) : S100.Idx → EReal) Facts₀.shapeCasts_S100_S1x100 := by
  show StableHlo.after hostOps0 (fun b => m (c, b)) (Proc.devRef .tc main_v43) = _
  after_results_simp
  first | rfl | skip

theorem v44_eq : (V m c main_v44 : S1x1.Idx → EReal)
    = shapeCast S1x1 (m ((c : Thread nD τ).loc main_arg6) : S1.Idx → EReal) Facts₀.shapeCasts_S1_S1x1 := by
  show StableHlo.after hostOps0 (fun b => m (c, b)) (Proc.devRef .tc main_v44) = _
  after_results_simp
  first | rfl | skip

/-! ## The arrays at an index -/

theorem host_v8 (B : Fin 65536) (k : Fin 10) (f : Fin 50) :
    (V m c main_v8 : S65536x10x50.Idx → EReal) (ix3 B k f) = Args.emb m c (Spec.row (Args.ctx m c B k)) f := by
  rw [v8_eq, truncf_apply, gdims_emb3]
  refine (Cert.Lib.GatherRows3.gather_rows3_apply (by omega) _ _ _ B k f).trans ?_
  unfold Args.emb Spec.row Args.ctx
  congr 2
  refine Fin.ext ?_
  show min (col2 _ (ix3 B k (0 : Fin 1))).toInt.toNat (50000 - 1) = _
  rw [col2_apply]

theorem host_v16 (B : Fin 65536) (f : Fin 50) :
    (V m c main_v16 : S65536x50.Idx → EReal) (ix2 B f) = Args.emb m c (Spec.row (Args.cen m c B)) f := by
  rw [v16_eq, truncf_apply, gdims_emb1]
  refine (Cert.Lib.ScatterGather.gather_rows_apply (by omega) _ _ _ B f).trans ?_
  unfold Args.emb Spec.row Args.cen
  congr 2
  refine Fin.ext ?_
  show min (col1 _ (ix2 B (0 : Fin 1))).toInt.toNat (50000 - 1) = _
  rw [col1_apply]

theorem host_v23_mean (B : Fin 65536) (k : Fin 10) (l : Fin 100) :
    (V m c main_v23 : S65536x10x101.Idx → EReal) (ix3 B k (⟨l.val, by omega⟩ : Fin 101))
      = Args.TM m c (Spec.row (Args.ctx m c B k)) l := by
  rw [v23_eq, gdims_tt3]
  refine (Cert.Lib.GatherRows3.gather_rows3_apply (by omega) _ _ _ B k _).trans ?_
  simp only [col2_apply]
  exact TT_mean m c (Spec.row (Args.ctx m c B k)) l

theorem host_v23_logvar (B : Fin 65536) (k : Fin 10) :
    (V m c main_v23 : S65536x10x101.Idx → EReal) (ix3 B k (⟨100, by omega⟩ : Fin 101))
      = Args.TL m c (Spec.row (Args.ctx m c B k)) := by
  rw [v23_eq, gdims_tt3]
  refine (Cert.Lib.GatherRows3.gather_rows3_apply (by omega) _ _ _ B k _).trans ?_
  simp only [col2_apply]
  exact TT_logvar m c (Spec.row (Args.ctx m c B k))

theorem host_v30_mean (B : Fin 65536) (k : Fin 10) (l : Fin 100) :
    (V m c main_v30 : S65536x10x101.Idx → EReal) (ix3 B k (⟨l.val, by omega⟩ : Fin 101))
      = Args.TM m c (Spec.row (Args.neg m c B k)) l := by
  rw [v30_eq, gdims_tt3]
  refine (Cert.Lib.GatherRows3.gather_rows3_apply (by omega) _ _ _ B k _).trans ?_
  simp only [col2_apply]
  exact TT_mean m c (Spec.row (Args.neg m c B k)) l

theorem host_v30_logvar (B : Fin 65536) (k : Fin 10) :
    (V m c main_v30 : S65536x10x101.Idx → EReal) (ix3 B k (⟨100, by omega⟩ : Fin 101))
      = Args.TL m c (Spec.row (Args.neg m c B k)) := by
  rw [v30_eq, gdims_tt3]
  refine (Cert.Lib.GatherRows3.gather_rows3_apply (by omega) _ _ _ B k _).trans ?_
  simp only [col2_apply]
  exact TT_logvar m c (Spec.row (Args.neg m c B k))

theorem host_v37_mean (B : Fin 65536) (l : Fin 100) :
    (V m c main_v37 : S65536x101.Idx → EReal) (ix2 B (⟨l.val, by omega⟩ : Fin 101))
      = Args.TM m c (Spec.row (Args.cen m c B)) l := by
  rw [v37_eq, gdims_tt1]
  refine (Cert.Lib.ScatterGather.gather_rows_apply (by omega) _ _ _ B _).trans ?_
  simp only [col1_apply]
  exact TT_mean m c (Spec.row (Args.cen m c B)) l

theorem host_v37_logvar (B : Fin 65536) :
    (V m c main_v37 : S65536x101.Idx → EReal) (ix2 B (⟨100, by omega⟩ : Fin 101))
      = Args.TL m c (Spec.row (Args.cen m c B)) := by
  rw [v37_eq, gdims_tt1]
  refine (Cert.Lib.ScatterGather.gather_rows_apply (by omega) _ _ _ B _).trans ?_
  simp only [col1_apply]
  exact TT_logvar m c (Spec.row (Args.cen m c B))

theorem host_v39 (f h : Fin 50) :
    (V m c main_v39 : S50x50.Idx → EReal) (ix2 f h) = Args.W1 m c ⟨f.val, by omega⟩ h := by
  rw [v39_eq, truncf_apply]
  exact slice2_axis0_apply 0 _ _ f h ⟨f.val, by omega⟩ (by simp)

theorem host_v41 (f h : Fin 50) :
    (V m c main_v41 : S50x50.Idx → EReal) (ix2 f h) = Args.W1 m c ⟨50 + f.val, by omega⟩ h := by
  rw [v41_eq, truncf_apply]
  exact slice2_axis0_apply 50 _ _ f h ⟨50 + f.val, by omega⟩ rfl

theorem host_v42 (h : Fin 50) :
    (V m c main_v42 : S1x50.Idx → EReal) (ix2 (0 : Fin 1) h) = Args.b1 m c h := by
  rw [v42_eq]
  exact row_reshape_apply _ _ h

theorem host_v43 (l : Fin 100) :
    (V m c main_v43 : S1x100.Idx → EReal) (ix2 (0 : Fin 1) l) = Args.bmu m c l := by
  rw [v43_eq]
  exact row_reshape_apply _ _ l

theorem host_v44 :
    (V m c main_v44 : S1x1.Idx → EReal) (ix2 (0 : Fin 1) (0 : Fin 1)) = Args.bls m c := by
  rw [v44_eq]
  exact row_reshape_apply _ _ (0 : Fin 1)

theorem host_arg3 (h : Fin 50) (l : Fin 100) :
    (V m c main_arg3 : S50x100.Idx → EReal) (ix2 h l) = Args.Wmu m c h l := by
  rw [V_main_arg3]; rfl

theorem host_arg5 (h : Fin 50) :
    (V m c main_arg5 : S50x1.Idx → EReal) (ix2 h (0 : Fin 1)) = Args.Wls m c h := by
  rw [V_main_arg5]; rfl

end Cert.KernelIdeal.HostVal

end
-- ==== Proof.KBlocks.lean ====
import proofs.«154240_j78829829751266_2_alg».proof.Proof.GenP.KernelIdeal.Frame
import proofs.«154240_j78829829751266_2_alg».proof.Proof.KHost
import proofs.«154240_j78829829751266_2_alg».proof.Proof.Spec

/-!
# The blocks the kernel body sees, entry by entry

At grid point `t` (of 256) the five batch windows show batch rows `256·t … 256·t + 255` of their arrays and the seven
weight windows show their whole arrays. With the arrays' contents known (what the host lines before the call leave),
each block entry is an entry of an argument array: an embedding row or a type row of the word at that batch row.
-/

noncomputable section

namespace Cert.KernelIdeal.Blocks

open Cert.KernelIdeal Cert.KernelIdeal.Gen Cert.KernelIdeal.GenP Idealize.ShloMosaic Idealize.ShloMosaic.TcCoe Idealize.ShloMosaic.ValueIdx Idealize.SL.Sem

variable (m : (ℓ : Loc nD τ sig) → Buf (Elt Ideal) ℓ) (c : Dev nD)

/-- The batch row that block row `r` of grid point `t` shows. -/
def brow (t : Fin cfg0.N) (r : Fin 256) : Fin 65536 :=
  ⟨t.val * 256 + r.val, by have := t.isLt; have hN : cfg0.N = 256 := N_0; omega⟩

/-! ## Where each window's block sits in its array

A block's element sits, on each axis, at the block index times the block's extent plus its own coordinate. The
block indices are decided once over the 256 grid points; each read lemma then opens the block once, at literal
coordinates. -/

/-- Window 0's block index at every grid point: the point's number on the batch axis, zero on the others. -/
theorem index0 : ∀ t : Fin cfg0.N, win0_0.index t (0 : Fin 3) = t.val ∧ win0_0.index t (1 : Fin 3) = 0
    ∧ win0_0.index t (2 : Fin 3) = 0 :=
  (by decide +kernel : ∀ t : Fin grid0.N, _)

/-- Entry `(r, k, j)` of window 0's block at point `t` is entry `(256·t + r, k, j)` of its array. -/
theorem read0 (t : Fin cfg0.N) (r : Fin 256) (k : Fin 10) (j : Fin 50) :
    (iblk m c 0 t : Vec Ideal S256x10x50 .bf16) (ix3 r k j) = (V m c main_v8 : S65536x10x50.Idx → EReal) (ix3 (brow t r) k j) := by
  obtain ⟨e0, e1, e2⟩ := index0 t
  unfold iblk
  show V m c main_v8 (((cfg0.win 0).blk t).view.emb (ix3 r k j)) = V m c main_v8 (ix3 (brow t r) k j)
  refine congrArg _ ?_
  funext a; apply Fin.ext
  match a with
  | ⟨0, _⟩ => show win0_0.index t (0 : Fin 3) * 256 + 1 * r.val = t.val * 256 + r.val; omega
  | ⟨1, _⟩ => show win0_0.index t (1 : Fin 3) * 10 + 1 * k.val = k.val; omega
  | ⟨2, _⟩ => show win0_0.index t (2 : Fin 3) * 50 + 1 * j.val = j.val; omega

/-- Window 1's block index at every grid point: the point's number on the batch axis, zero on the other. -/
theorem index1 : ∀ t : Fin cfg0.N, win0_1.index t (0 : Fin 2) = t.val ∧ win0_1.index t (1 : Fin 2) = 0 :=
  (by decide +kernel : ∀ t : Fin grid0.N, _)

/-- Entry `(r, j)` of window 1's block at point `t` is entry `(256·t + r, j)` of its array. -/
theorem read1 (t : Fin cfg0.N) (r : Fin 256) (j : Fin 50) :
    (iblk m c 1 t : Vec Ideal S256x50 .bf16) (ix2 r j) = (V m c main_v16 : S65536x50.Idx → EReal) (ix2 (brow t r) j) := by
  obtain ⟨e0, e1⟩ := index1 t
  unfold iblk
  show V m c main_v16 (((cfg0.win 1).blk t).view.emb (ix2 r j)) = V m c main_v16 (ix2 (brow t r) j)
  refine congrArg _ ?_
  funext a; apply Fin.ext
  match a with
  | ⟨0, _⟩ => show win0_1.index t (0 : Fin 2) * 256 + 1 * r.val = t.val * 256 + r.val; omega
  | ⟨1, _⟩ => show win0_1.index t (1 : Fin 2) * 50 + 1 * j.val = j.val; omega

/-- Window 2's block index at every grid point: the point's number on the batch axis, zero on the others. -/
theorem index2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- Entry `(r, k, j)` of window 2's block at point `t` is entry `(256·t + r, k, j)` of its array. -/
theorem read2 (t : Fin cfg0.N) (r : Fin 256) (k : Fin 10) (j : Fin 101) :
    (iblk m c 2 t : Vec Ideal S256x10x101 .f32) (ix3 r k j) = (V m c main_v23 : S65536x10x101.Idx → EReal) (ix3 (brow t r) k j) := by
  obtain ⟨e0, e1, e2⟩ := index2 t
  unfold iblk
  show V m c main_v23 (((cfg0.win 2).blk t).view.emb (ix3 r k j)) = V m c main_v23 (ix3 (brow t r) k j)
  refine congrArg _ ?_
  funext a; apply Fin.ext
  match a with
  | ⟨0, _⟩ => show win0_2.index t (0 : Fin 3) * 256 + 1 * r.val = t.val * 256 + r.val; omega
  | ⟨1, _⟩ => show win0_2.index t (1 : Fin 3) * 10 + 1 * k.val = k.val; omega
  | ⟨2, _⟩ => show win0_2.index t (2 : Fin 3) * 101 + 1 * j.val = j.val; omega

/-- Window 3's block index at every grid point: the point's number on the batch axis, zero on the others. -/
theorem index3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- Entry `(r, k, j)` of window 3's block at point `t` is entry `(256·t + r, k, j)` of its array. -/
theorem read3 (t : Fin cfg0.N) (r : Fin 256) (k : Fin 10) (j : Fin 101) :
    (iblk m c 3 t : Vec Ideal S256x10x101 .f32) (ix3 r k j) = (V m c main_v30 : S65536x10x101.Idx → EReal) (ix3 (brow t r) k j) := by
  obtain ⟨e0, e1, e2⟩ := index3 t
  unfold iblk
  show V m c main_v30 (((cfg0.win 3).blk t).view.emb (ix3 r k j)) = V m c main_v30 (ix3 (brow t r) k j)
  refine congrArg _ ?_
  funext a; apply Fin.ext
  match a with
  | ⟨0, _⟩ => show win0_3.index t (0 : Fin 3) * 256 + 1 * r.val = t.val * 256 + r.val; omega
  | ⟨1, _⟩ => show win0_3.index t (1 : Fin 3) * 10 + 1 * k.val = k.val; omega
  | ⟨2, _⟩ => show win0_3.index t (2 : Fin 3) * 101 + 1 * j.val = j.val; omega

/-- Window 4's block index at every grid point: the point's number on the batch axis, zero on the other. -/
theorem index4 : ∀ t : Fin cfg0.N, win0_4.index t (0 : Fin 2) = t.val ∧ win0_4.index t (1 : Fin 2) = 0 :=
  (by decide +kernel : ∀ t : Fin grid0.N, _)

/-- Entry `(r, j)` of window 4's block at point `t` is entry `(256·t + r, j)` of its array. -/
theorem read4 (t : Fin cfg0.N) (r : Fin 256) (j : Fin 101) :
    (iblk m c 4 t : Vec Ideal S256x101 .f32) (ix2 r j) = (V m c main_v37 : S65536x101.Idx → EReal) (ix2 (brow t r) j) := by
  obtain ⟨e0, e1⟩ := index4 t
  unfold iblk
  show V m c main_v37 (((cfg0.win 4).blk t).view.emb (ix2 r j)) = V m c main_v37 (ix2 (brow t r) j)
  refine congrArg _ ?_
  funext a; apply Fin.ext
  match a with
  | ⟨0, _⟩ => show win0_4.index t (0 : Fin 2) * 256 + 1 * r.val = t.val * 256 + r.val; omega
  | ⟨1, _⟩ => show win0_4.index t (1 : Fin 2) * 101 + 1 * j.val = j.val; omega

/-- Window 5 shows its whole array at every grid point: block index zero on both axes. -/
theorem index5 : ∀ t : Fin cfg0.N, win0_5.index t (0 : Fin 2) = 0 ∧ win0_5.index t (1 : Fin 2) = 0 :=
  (by decide +kernel : ∀ t : Fin grid0.N, _)

/-- Entry `(p, q)` of window 5's block at any point is entry `(p, q)` of its array. -/
theorem read5 (t : Fin cfg0.N) (p : Fin 50) (q : Fin 50) :
    (iblk m c 5 t : Vec Ideal S50x50 .bf16) (ix2 p q) = (V m c main_v39 : S50x50.Idx → EReal) (ix2 p q) := by
  obtain ⟨e0, e1⟩ := index5 t
  unfold iblk
  show V m c main_v39 (((cfg0.win 5).blk t).view.emb (ix2 p q)) = V m c main_v39 (ix2 p q)
  refine congrArg _ ?_
  funext a; apply Fin.ext
  match a with
  | ⟨0, _⟩ => show win0_5.index t (0 : Fin 2) * 50 + 1 * p.val = p.val; omega
  | ⟨1, _⟩ => show win0_5.index t (1 : Fin 2) * 50 + 1 * q.val = q.val; omega

/-- Window 6 shows its whole array at every grid point: block index zero on both axes. -/
theorem index6 : ∀ t : Fin cfg0.N, win0_6.index t (0 : Fin 2) = 0 ∧ win0_6.index t (1 : Fin 2) = 0 :=
  (by decide +kernel : ∀ t : Fin grid0.N, _)

/-- Entry `(p, q)` of window 6's block at any point is entry `(p, q)` of its array. -/
theorem read6 (t : Fin cfg0.N) (p : Fin 50) (q : Fin 50) :
    (iblk m c 6 t : Vec Ideal S50x50 .bf16) (ix2 p q) = (V m c main_v41 : S50x50.Idx → EReal) (ix2 p q) := by
  obtain ⟨e0, e1⟩ := index6 t
  unfold iblk
  show V m c main_v41 (((cfg0.win 6).blk t).view.emb (ix2 p q)) = V m c main_v41 (ix2 p q)
  refine congrArg _ ?_
  funext a; apply Fin.ext
  match a with
  | ⟨0, _⟩ => show win0_6.index t (0 : Fin 2) * 50 + 1 * p.val = p.val; omega
  | ⟨1, _⟩ => show win0_6.index t (1 : Fin 2) * 50 + 1 * q.val = q.val; omega

/-- Window 7 shows its whole array at every grid point: block index zero on both axes. -/
theorem index7 : ∀ t : Fin cfg0.N, win0_7.index t (0 : Fin 2) = 0 ∧ win0_7.index t (1 : Fin 2) = 0 :=
  (by decide +kernel : ∀ t : Fin grid0.N, _)

/-- Entry `(p, q)` of window 7's block at any point is entry `(p, q)` of its array. -/
theorem read7 (t : Fin cfg0.N) (p : Fin 1) (q : Fin 50) :
    (iblk m c 7 t : Vec Ideal S1x50 .f32) (ix2 p q) = (V m c main_v42 : S1x50.Idx → EReal) (ix2 p q) := by
  obtain ⟨e0, e1⟩ := index7 t
  unfold iblk
  show V m c main_v42 (((cfg0.win 7).blk t).view.emb (ix2 p q)) = V m c main_v42 (ix2 p q)
  refine congrArg _ ?_
  funext a; apply Fin.ext
  match a with
  | ⟨0, _⟩ => show win0_7.index t (0 : Fin 2) * 1 + 1 * p.val = p.val; omega
  | ⟨1, _⟩ => show win0_7.index t (1 : Fin 2) * 50 + 1 * q.val = q.val; omega

/-- Window 8 shows its whole array at every grid point: block index zero on both axes. -/
theorem index8 : ∀ t : Fin cfg0.N, win0_8.index t (0 : Fin 2) = 0 ∧ win0_8.index t (1 : Fin 2) = 0 :=
  (by decide +kernel : ∀ t : Fin grid0.N, _)

/-- Entry `(p, q)` of window 8's block at any point is entry `(p, q)` of its array. -/
theorem read8 (t : Fin cfg0.N) (p : Fin 50) (q : Fin 100) :
    (iblk m c 8 t : Vec Ideal S50x100 .f32) (ix2 p q) = (V m c main_arg3 : S50x100.Idx → EReal) (ix2 p q) := by
  obtain ⟨e0, e1⟩ := index8 t
  unfold iblk
  show V m c main_arg3 (((cfg0.win 8).blk t).view.emb (ix2 p q)) = V m c main_arg3 (ix2 p q)
  refine congrArg _ ?_
  funext a; apply Fin.ext
  match a with
  | ⟨0, _⟩ => show win0_8.index t (0 : Fin 2) * 50 + 1 * p.val = p.val; omega
  | ⟨1, _⟩ => show win0_8.index t (1 : Fin 2) * 100 + 1 * q.val = q.val; omega

/-- Window 9 shows its whole array at every grid point: block index zero on both axes. -/
theorem index9 : ∀ t : Fin cfg0.N, win0_9.index t (0 : Fin 2) = 0 ∧ win0_9.index t (1 : Fin 2) = 0 :=
  (by decide +kernel : ∀ t : Fin grid0.N, _)

/-- Entry `(p, q)` of window 9's block at any point is entry `(p, q)` of its array. -/
theorem read9 (t : Fin cfg0.N) (p : Fin 1) (q : Fin 100) :
    (iblk m c 9 t : Vec Ideal S1x100 .f32) (ix2 p q) = (V m c main_v43 : S1x100.Idx → EReal) (ix2 p q) := by
  obtain ⟨e0, e1⟩ := index9 t
  unfold iblk
  show V m c main_v43 (((cfg0.win 9).blk t).view.emb (ix2 p q)) = V m c main_v43 (ix2 p q)
  refine congrArg _ ?_
  funext a; apply Fin.ext
  match a with
  | ⟨0, _⟩ => show win0_9.index t (0 : Fin 2) * 1 + 1 * p.val = p.val; omega
  | ⟨1, _⟩ => show win0_9.index t (1 : Fin 2) * 100 + 1 * q.val = q.val; omega

/-- Window 10 shows its whole array at every grid point: block index zero on both axes. -/
theorem index10 : ∀ t : Fin cfg0.N, win0_10.index t (0 : Fin 2) = 0 ∧ win0_10.index t (1 : Fin 2) = 0 :=
  (by decide +kernel : ∀ t : Fin grid0.N, _)

/-- Entry `(p, q)` of window 10's block at any point is entry `(p, q)` of its array. -/
theorem read10 (t : Fin cfg0.N) (p : Fin 50) (q : Fin 1) :
    (iblk m c 10 t : Vec Ideal S50x1 .f32) (ix2 p q) = (V m c main_arg5 : S50x1.Idx → EReal) (ix2 p q) := by
  obtain ⟨e0, e1⟩ := index10 t
  unfold iblk
  show V m c main_arg5 (((cfg0.win 10).blk t).view.emb (ix2 p q)) = V m c main_arg5 (ix2 p q)
  refine congrArg _ ?_
  funext a; apply Fin.ext
  match a with
  | ⟨0, _⟩ => show win0_10.index t (0 : Fin 2) * 50 + 1 * p.val = p.val; omega
  | ⟨1, _⟩ => show win0_10.index t (1 : Fin 2) * 1 + 1 * q.val = q.val; omega

/-- Window 11 shows its whole array at every grid point: block index zero on both axes. -/
theorem index11 : ∀ t : Fin cfg0.N, win0_11.index t (0 : Fin 2) = 0 ∧ win0_11.index t (1 : Fin 2) = 0 :=
  (by decide +kernel : ∀ t : Fin grid0.N, _)

/-- Entry `(p, q)` of window 11's block at any point is entry `(p, q)` of its array. -/
theorem read11 (t : Fin cfg0.N) (p : Fin 1) (q : Fin 1) :
    (iblk m c 11 t : Vec Ideal S1x1 .f32) (ix2 p q) = (V m c main_v44 : S1x1.Idx → EReal) (ix2 p q) := by
  obtain ⟨e0, e1⟩ := index11 t
  unfold iblk
  show V m c main_v44 (((cfg0.win 11).blk t).view.emb (ix2 p q)) = V m c main_v44 (ix2 p q)
  refine congrArg _ ?_
  funext a; apply Fin.ext
  match a with
  | ⟨0, _⟩ => show win0_11.index t (0 : Fin 2) * 1 + 1 * p.val = p.val; omega
  | ⟨1, _⟩ => show win0_11.index t (1 : Fin 2) * 1 + 1 * q.val = q.val; omega

/-! ## The blocks as entries of the argument arrays

Each block entry is the array's entry at the batch row the block shows, and the array's entry is what the host lines
before the call left there. -/

open Cert.KernelIdeal.HostVal

theorem blk0 (t : Fin cfg0.N) (r : Fin 256) (k : Fin 10) (f : Fin 50) :
    (iblk m c 0 t : Vec Ideal S256x10x50 .bf16) (ix3 r k f) = Args.emb m c (Spec.row (Args.ctx m c (brow t r) k)) f :=
  (read0 m c t r k f).trans (host_v8 m c (brow t r) k f)

theorem blk1 (t : Fin cfg0.N) (r : Fin 256) (f : Fin 50) :
    (iblk m c 1 t : Vec Ideal S256x50 .bf16) (ix2 r f) = Args.emb m c (Spec.row (Args.cen m c (brow t r))) f :=
  (read1 m c t r f).trans (host_v16 m c (brow t r) f)

theorem blk2_mean (t : Fin cfg0.N) (r : Fin 256) (k : Fin 10) (l : Fin 100) :
    (iblk m c 2 t : Vec Ideal S256x10x101 .f32) (ix3 r k (⟨l.val, by omega⟩ : Fin 101))
      = Args.TM m c (Spec.row (Args.ctx m c (brow t r) k)) l :=
  (read2 m c t r k _).trans (host_v23_mean m c (brow t r) k l)

theorem blk2_logvar (t : Fin cfg0.N) (r : Fin 256) (k : Fin 10) :
    (iblk m c 2 t : Vec Ideal S256x10x101 .f32) (ix3 r k (⟨100, by omega⟩ : Fin 101))
      = Args.TL m c (Spec.row (Args.ctx m c (brow t r) k)) :=
  (read2 m c t r k _).trans (host_v23_logvar m c (brow t r) k)

theorem blk3_mean (t : Fin cfg0.N) (r : Fin 256) (k : Fin 10) (l : Fin 100) :
    (iblk m c 3 t : Vec Ideal S256x10x101 .f32) (ix3 r k (⟨l.val, by omega⟩ : Fin 101))
      = Args.TM m c (Spec.row (Args.neg m c (brow t r) k)) l :=
  (read3 m c t r k _).trans (host_v30_mean m c (brow t r) k l)

theorem blk3_logvar (t : Fin cfg0.N) (r : Fin 256) (k : Fin 10) :
    (iblk m c 3 t : Vec Ideal S256x10x101 .f32) (ix3 r k (⟨100, by omega⟩ : Fin 101))
      = Args.TL m c (Spec.row (Args.neg m c (brow t r) k)) :=
  (read3 m c t r k _).trans (host_v30_logvar m c (brow t r) k)

theorem blk4_mean (t : Fin cfg0.N) (r : Fin 256) (l : Fin 100) :
    (iblk m c 4 t : Vec Ideal S256x101 .f32) (ix2 r (⟨l.val, by omega⟩ : Fin 101))
      = Args.TM m c (Spec.row (Args.cen m c (brow t r))) l :=
  (read4 m c t r _).trans (host_v37_mean m c (brow t r) l)

theorem blk4_logvar (t : Fin cfg0.N) (r : Fin 256) :
    (iblk m c 4 t : Vec Ideal S256x101 .f32) (ix2 r (⟨100, by omega⟩ : Fin 101))
      = Args.TL m c (Spec.row (Args.cen m c (brow t r))) :=
  (read4 m c t r _).trans (host_v37_logvar m c (brow t r))

theorem blk5 (t : Fin cfg0.N) (f h : Fin 50) :
    (iblk m c 5 t : Vec Ideal S50x50 .bf16) (ix2 f h) = Args.W1 m c ⟨f.val, by omega⟩ h :=
  (read5 m c t f h).trans (host_v39 m c f h)

theorem blk6 (t : Fin cfg0.N) (f h : Fin 50) :
    (iblk m c 6 t : Vec Ideal S50x50 .bf16) (ix2 f h) = Args.W1 m c ⟨50 + f.val, by omega⟩ h :=
  (read6 m c t f h).trans (host_v41 m c f h)

theorem blk7 (t : Fin cfg0.N) (h : Fin 50) :
    (iblk m c 7 t : Vec Ideal S1x50 .f32) (ix2 (0 : Fin 1) h) = Args.b1 m c h :=
  (read7 m c t 0 h).trans (host_v42 m c h)

theorem blk8 (t : Fin cfg0.N) (h : Fin 50) (l : Fin 100) :
    (iblk m c 8 t : Vec Ideal S50x100 .f32) (ix2 h l) = Args.Wmu m c h l :=
  (read8 m c t h l).trans (host_arg3 m c h l)

theorem blk9 (t : Fin cfg0.N) (l : Fin 100) :
    (iblk m c 9 t : Vec Ideal S1x100 .f32) (ix2 (0 : Fin 1) l) = Args.bmu m c l :=
  (read9 m c t 0 l).trans (host_v43 m c l)

theorem blk10 (t : Fin cfg0.N) (h : Fin 50) :
    (iblk m c 10 t : Vec Ideal S50x1 .f32) (ix2 h (0 : Fin 1)) = Args.Wls m c h :=
  (read10 m c t h 0).trans (host_arg5 m c h)

theorem blk11 (t : Fin cfg0.N) :
    (iblk m c 11 t : Vec Ideal S1x1 .f32) (ix2 (0 : Fin 1) (0 : Fin 1)) = Args.bls m c :=
  (read11 m c t 0 0).trans (host_v44 m c)

end Cert.KernelIdeal.Blocks

end
-- ==== Proof.KBlockLoss.lean ====
import proofs.«154240_j78829829751266_2_alg».proof.Proof.KBlocks
import proofs.«154240_j78829829751266_2_alg».proof.Proof.KPay

/-!
# A grid point's contribution in terms of the argument arrays

Grid point `t` sees batch rows `256·t … 256·t + 255`. With each block entry known as an entry of an argument array,
the block loss of the blocks at `t` is the sum, over those 256 examples, of their ten hinge terms and of their
centre term, as the specification states them.
-/

noncomputable section

namespace Cert.KernelIdeal.BlockLoss

open Cert.KernelIdeal Cert.KernelIdeal.Gen Cert.KernelIdeal.GenP Idealize.ShloMosaic Idealize.ShloMosaic.TcCoe Idealize.ShloMosaic.ValueIdx Idealize.SL.Sem

variable (m : (ℓ : Loc nD τ sig) → Buf (Elt Ideal) ℓ) (c : Dev nD)

/-- Block row `r`'s hidden vector at grid point `t` is the hidden vector of batch row `brow t r`. -/
theorem hid_blocks (t : Fin cfg0.N) (r : Fin 256) :
    Pay.hidB (iblk m c 0 t) (iblk m c 1 t) (iblk m c 5 t) (iblk m c 6 t) (iblk m c 7 t) r
      = Spec.hidAt (Args.emb m c) (Args.W1 m c) (Args.b1 m c) (Args.cen m c) (Args.ctx m c) (Blocks.brow t r) := by
  unfold Pay.hidB Spec.hidAt
  simp only [Blocks.blk0 m c t, Blocks.blk1 m c t, Blocks.blk5 m c t, Blocks.blk6 m c t, Blocks.blk7 m c t]

/-- Block row `r`'s posterior mean at grid point `t` is that of batch row `brow t r`. -/
theorem mu_blocks (t : Fin cfg0.N) (r : Fin 256) :
    Pay.muB (iblk m c 0 t) (iblk m c 1 t) (iblk m c 5 t) (iblk m c 6 t) (iblk m c 7 t) (iblk m c 8 t) (iblk m c 9 t) r
      = Spec.muAt (Args.emb m c) (Args.W1 m c) (Args.b1 m c) (Args.Wmu m c) (Args.bmu m c) (Args.cen m c) (Args.ctx m c)
          (Blocks.brow t r) := by
  unfold Pay.muB Spec.muAt
  rw [hid_blocks m c t r]
  simp only [Blocks.blk8 m c t, Blocks.blk9 m c t]

/-- Block row `r`'s posterior log-sigma at grid point `t` is that of batch row `brow t r`. -/
theorem ls_blocks (t : Fin cfg0.N) (r : Fin 256) :
    Pay.lsB (iblk m c 0 t) (iblk m c 1 t) (iblk m c 5 t) (iblk m c 6 t) (iblk m c 7 t) (iblk m c 10 t) (iblk m c 11 t) r
      = Spec.lsAt (Args.emb m c) (Args.W1 m c) (Args.b1 m c) (Args.Wls m c) (Args.bls m c) (Args.cen m c) (Args.ctx m c)
          (Blocks.brow t r) := by
  unfold Pay.lsB Spec.lsAt
  rw [hid_blocks m c t r]
  simp only [Blocks.blk10 m c t, Blocks.blk11 m c t]

/-- Block row `r`'s divergence against a type row is that of batch row `brow t r`'s posterior against the same row. -/
theorem kl_blocks (t : Fin cfg0.N) (r : Fin 256) (mean : Fin 100 → EReal) (lv : EReal) :
    Pay.klB (iblk m c 0 t) (iblk m c 1 t) (iblk m c 5 t) (iblk m c 6 t) (iblk m c 7 t) (iblk m c 8 t) (iblk m c 9 t)
        (iblk m c 10 t) (iblk m c 11 t) r mean lv
      = Spec.kl
          (Spec.muAt (Args.emb m c) (Args.W1 m c) (Args.b1 m c) (Args.Wmu m c) (Args.bmu m c) (Args.cen m c) (Args.ctx m c)
            (Blocks.brow t r))
          (Spec.lsAt (Args.emb m c) (Args.W1 m c) (Args.b1 m c) (Args.Wls m c) (Args.bls m c) (Args.cen m c) (Args.ctx m c)
            (Blocks.brow t r))
          mean lv := by
  unfold Pay.klB
  rw [mu_blocks m c t r, ls_blocks m c t r]

/-- The block loss of the blocks at grid point `t`: the hinge terms and centre terms of its 256 batch rows. -/
theorem blockLoss_blocks (t : Fin cfg0.N) :
    Pay.blockLoss (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      = (∑ r : Fin 256, ∑ k : Fin 10,
          Spec.hingeAt (Args.emb m c) (Args.W1 m c) (Args.b1 m c) (Args.Wmu m c) (Args.bmu m c) (Args.Wls m c) (Args.bls m c) (Args.TM m c) (Args.TL m c) (Args.cen m c) (Args.ctx m c) (Args.neg m c) (Blocks.brow t r) k)
        + ∑ r : Fin 256, Spec.cenAt (Args.emb m c) (Args.W1 m c) (Args.b1 m c) (Args.Wmu m c) (Args.bmu m c) (Args.Wls m c) (Args.bls m c) (Args.TM m c) (Args.TL m c) (Args.cen m c) (Args.ctx m c) (Blocks.brow t r) := by
  unfold Pay.blockLoss
  refine congrArg₂ (· + ·)
    (Finset.sum_congr rfl fun r _ => Finset.sum_congr rfl fun k _ => ?_)
    (Finset.sum_congr rfl fun r _ => ?_)
  · unfold Spec.hingeAt Spec.klWord
    rw [kl_blocks m c t r, kl_blocks m c t r]
    simp only [Blocks.blk2_mean m c t, Blocks.blk2_logvar m c t, Blocks.blk3_mean m c t, Blocks.blk3_logvar m c t]
  · unfold Spec.cenAt Spec.klWord
    rw [kl_blocks m c t r]
    simp only [Blocks.blk4_mean m c t, Blocks.blk4_logvar m c t]

end Cert.KernelIdeal.BlockLoss

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.KValue.lean ====
import proofs.«154240_j78829829751266_2_alg».proof.Proof.KChain
import proofs.«154240_j78829829751266_2_alg».proof.Proof.KOut
import proofs.«154240_j78829829751266_2_alg».proof.Proof.KTail
import proofs.«154240_j78829829751266_2_alg».proof.Proof.KBlockLoss
import proofs.«154240_j78829829751266_2_alg».proof.Proof.LibBlockSum

/-!
# The kernel program computes the specification's loss

The two entries the host reads from the output array are the totals of the two halves of the grid; together they
are the sum of all 256 grid points' contributions; a grid point's contribution is the sum of the hinge terms and the
centre terms of its 256 examples; and the 256 × 256 (point, block row) pairs are the 65536 examples, each once. So
the sum of the two entries is the sum of all hinge terms plus the sum of all centre terms, and the program's result
is that sum divided by 65536.
-/

noncomputable section

namespace Cert.KernelIdeal.Value

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-- The specification's loss of the program's argument arrays on core `c`. -/
def specLoss : EReal := Spec.loss (Args.emb m c) (Args.W1 m c) (Args.b1 m c) (Args.Wmu m c) (Args.bmu m c) (Args.Wls m c) (Args.bls m c) (Args.TM m c) (Args.TL m c) (Args.cen m c) (Args.ctx m c) (Args.neg m c)

/-- The pairs (grid point, block row) are the batch rows, each once. -/
theorem sum_rows {M : Type*} [AddCommMonoid M] {N : ℕ} (hN : N = 256) (F : Fin 65536 → M) (brow : Fin N → Fin 256 → Fin 65536)
    (hb : ∀ t r, (brow t r).val = t.val * 256 + r.val) :
    ∑ t : Fin N, ∑ r : Fin 256, F (brow t r) = ∑ B, F B := by
  subst hN
  rw [Cert.BlockSum.sum_fin_blocks (A := 256) (B := 256) (N := 65536) (by norm_num) F]
  refine Finset.sum_congr rfl fun t _ => Finset.sum_congr rfl fun r _ => congrArg F (Fin.ext ?_)
  rw [hb]
  show t.val * 256 + r.val = 256 * t.val + r.val
  omega

/-- The two halves' totals together are the sum of every grid point's contribution. -/
theorem halves_total :
    (∑ j ∈ Finset.range 128, Accum.blN m c (0 + j)) + (∑ j ∈ Finset.range 128, Accum.blN m c (128 + j))
      = ∑ t : Fin cfg0.N, Accum.bl m c t := by
  have hN : cfg0.N = 128 + 128 := N_0
  have e0 : (∑ j ∈ Finset.range 128, Accum.blN m c (0 + j)) = ∑ j ∈ Finset.range 128, Accum.blN m c j :=
    Finset.sum_congr rfl fun j _ => by rw [Nat.zero_add]
  rw [e0, ← Finset.sum_range_add, ← hN, Finset.sum_range]
  exact Finset.sum_congr rfl fun t _ => Accum.blN_of_lt m c t.val t.isLt

/-- The sum of the two entries the host reads is the sum of all hinge terms plus the sum of all centre terms. -/
theorem entries_total :
    Out.outArr m c (ix2 (0 : Fin 16) (0 : Fin 128)) + Out.outArr m c (ix2 (8 : Fin 16) (0 : Fin 128))
      = (∑ B : Fin 65536, ∑ k : Fin 10, Spec.hingeAt (Args.emb m c) (Args.W1 m c) (Args.b1 m c) (Args.Wmu m c) (Args.bmu m c) (Args.Wls m c) (Args.bls m c) (Args.TM m c) (Args.TL m c) (Args.cen m c) (Args.ctx m c) (Args.neg m c) B k)
        + ∑ B : Fin 65536, Spec.cenAt (Args.emb m c) (Args.W1 m c) (Args.b1 m c) (Args.Wmu m c) (Args.bmu m c) (Args.Wls m c) (Args.bls m c) (Args.TM m c) (Args.TL m c) (Args.cen m c) (Args.ctx m c) B := by
  rw [Out.out_entry0, Out.out_entry8]
  unfold Out.accAt
  rw [Accum.outsAt_00 m c 127 Out.lt127, Accum.outsAt_00 m c 255 Out.lt255]
  show (∑ j ∈ Finset.range 128, Accum.blN m c (0 + j)) + (∑ j ∈ Finset.range 128, Accum.blN m c (128 + j)) = _
  rw [halves_total]
  have hbl : ∀ t : Fin cfg0.N, Accum.bl m c t
      = (∑ r : Fin 256, ∑ k : Fin 10, Spec.hingeAt (Args.emb m c) (Args.W1 m c) (Args.b1 m c) (Args.Wmu m c) (Args.bmu m c) (Args.Wls m c) (Args.bls m c) (Args.TM m c) (Args.TL m c) (Args.cen m c) (Args.ctx m c) (Args.neg m c) (Blocks.brow t r) k)
        + ∑ r : Fin 256, Spec.cenAt (Args.emb m c) (Args.W1 m c) (Args.b1 m c) (Args.Wmu m c) (Args.bmu m c) (Args.Wls m c) (Args.bls m c) (Args.TM m c) (Args.TL m c) (Args.cen m c) (Args.ctx m c) (Blocks.brow t r) :=
    fun t => BlockLoss.blockLoss_blocks m c t
  rw [Finset.sum_congr rfl fun t _ => hbl t, Finset.sum_add_distrib]
  have hN : cfg0.N = 256 := N_0
  rw [sum_rows hN (fun B => ∑ k : Fin 10, Spec.hingeAt (Args.emb m c) (Args.W1 m c) (Args.b1 m c) (Args.Wmu m c) (Args.bmu m c) (Args.Wls m c) (Args.bls m c) (Args.TM m c) (Args.TL m c) (Args.cen m c) (Args.ctx m c) (Args.neg m c) B k) Blocks.brow (fun _ _ => rfl),
    sum_rows hN (fun B => Spec.cenAt (Args.emb m c) (Args.W1 m c) (Args.b1 m c) (Args.Wmu m c) (Args.bmu m c) (Args.Wls m c) (Args.bls m c) (Args.TM m c) (Args.TL m c) (Args.cen m c) (Args.ctx m c) B) Blocks.brow (fun _ _ => rfl)]

/-- The program's result buffer after the run. -/
theorem result_value :
    (Pipeline.afterTail₀ cfgs (dats m) 0 (V0 m) [hostOps1] c main_v51 : S_.Idx → EReal) = fun _ => specLoss m c := by
  rw [Tail.tail_value, entries_total]
  rfl

/-- The run, read: the result at the specification's loss of the arguments, the arguments unchanged. -/
theorem run : θ_run defs (onTc (τ := τ) (main (F := Ideal))) ⟨m, fun _ => 0, ρ⟩ fun r => ∀ c : Dev nD,
      r.2.mem ((c.tc : Thread nD τ).loc main_v51) = (fun _ => specLoss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).2 main_v51 (Pipeline.mem_restRefs_of main_v51 (by decide) (by decide))).trans (result_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 8).trans ((((dats m) 0 c).arrAt_in 8 rfl _).trans ((A_eq m c 8).trans (V_main_arg3 m c))),
      (((h c).2 main_arg4 (Pipeline.mem_restRefs_of main_arg4 (by decide) (by decide))).trans (W_main_arg4 m (dats m) c)),
      ((h c).1 10).trans ((((dats m) 0 c).arrAt_in 10 rfl _).trans ((A_eq m c 10).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.Value

end
-- ==== Proof.RefArgs.lean ====
import proofs.«154240_j78829829751266_2_alg».proof.ReferenceIdeal
import Idealize.ShloMosaic.Lib.ValueIdx

/-!
# The reference program's argument arrays, read entry by entry

The same twelve arrays as the kernel program's, as functions of literal coordinates.
-/

noncomputable section

namespace Cert.ReferenceIdeal.Args

open Cert.ReferenceIdeal Idealize.ShloMosaic Idealize.ShloMosaic.ValueIdx

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

def emb : Fin 50000 → Fin 50 → EReal := fun v f => (x0 : S50000x50.Idx → EReal) (ix2 v f)
def W1 : Fin 100 → Fin 50 → EReal := fun k h => (x1 : S100x50.Idx → EReal) (ix2 k h)
def b1 : Fin 50 → EReal := fun h => (x2 : S50.Idx → EReal) (ix1 h)
def Wmu : Fin 50 → Fin 100 → EReal := fun h l => (x3 : S50x100.Idx → EReal) (ix2 h l)
def bmu : Fin 100 → EReal := fun l => (x4 : S100.Idx → EReal) (ix1 l)
def Wls : Fin 50 → EReal := fun h => (x5 : S50x1.Idx → EReal) (ix2 h (0 : Fin 1))
def bls : EReal := (x6 : S1.Idx → EReal) (ix1 (0 : Fin 1))
def TM : Fin 50000 → Fin 100 → EReal := fun v l => (x7 : S50000x100.Idx → EReal) (ix2 v l)
def TL : Fin 50000 → EReal := fun v => (x8 : S50000x1.Idx → EReal) (ix2 v (0 : Fin 1))
def cen : Fin 65536 → BitVec 32 := fun b => (x9 : S65536.Idx → BitVec 32) (ix1 b)
def ctx : Fin 65536 → Fin 10 → BitVec 32 := fun b k => (x10 : S65536x10.Idx → BitVec 32) (ix2 b k)
def neg : Fin 65536 → Fin 10 → BitVec 32 := fun b k => (x11 : S65536x10.Idx → BitVec 32) (ix2 b k)

end Cert.ReferenceIdeal.Args

end
-- ==== Proof.RefHidden.lean ====
import proofs.«154240_j78829829751266_2_alg».proof.Proof.Gen.ReferenceIdeal.Read
import proofs.«154240_j78829829751266_2_alg».proof.Proof.RefArgs
import proofs.«154240_j78829829751266_2_alg».proof.Proof.Spec
import proofs.«154240_j78829829751266_2_alg».proof.Proof.LibGatherRows3
import proofs.«154240_j78829829751266_2_alg».proof.Proof.LibScatterGather
import Idealize.ShloMosaic.Lib.ValueLayout

/-!
# The reference's hidden vectors and posterior heads, example by example

The reference gathers each example's ten context embeddings and its centre embedding, lays the centre embedding
beside every context embedding (a row of 100 numbers), contracts that row with the whole hidden weight, adds the
bias, rectifies and sums over the ten context words. Contracting a joined row of 100 against the whole weight is
the sum of the two contractions of its halves against the weight's halves. Two further products and biases give
the posterior mean and log-sigma.
-/

noncomputable section

namespace Cert.ReferenceIdeal.RefValue

open Cert.ReferenceIdeal Cert.ReferenceIdeal.Gen Cert.ReferenceIdeal.Read Idealize.ShloMosaic Idealize.ShloMosaic.ValueIdx

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

/-! ## The stages below the hidden vector, each read at an index -/

namespace Hidden

/-- The wrapped context word of example `b`, position `c`, as the gather's index array holds it. -/
theorem ctx_word (b : Fin 65536) (c : Fin 10) :
    val_main_v5 (F := Ideal) x10 (ix3 b c (0 : Fin 1)) = Spec.norm (Args.ctx x10 b c) := by
  rw [val_main_v5_apply]
  have e : idx_main_v5 (ix3 b c (0 : Fin 1)) = ix2 b c :=
    funext fun a => Fin.ext (by match a with | ⟨0, _⟩ => rfl | ⟨1, _⟩ => rfl)
  rw [e, val_main_v4_apply, val_main_v1_apply, val_main_v3_apply, val_main_v0_apply, val_main_v2_apply,
    val_main_c_apply, val_main_c_0_apply]
  rfl

/-- The wrapped centre word of example `b`, as the gather's index array holds it. -/
theorem cen_word (b : Fin 65536) :
    val_main_v12 (F := Ideal) x9 (ix2 b (0 : Fin 1)) = Spec.norm (Args.cen x9 b) := by
  rw [val_main_v12_apply]
  have e : idx_main_v12 (ix2 b (0 : Fin 1)) = ix1 b :=
    funext fun a => Fin.ext (by match a with | ⟨0, _⟩ => rfl)
  rw [e, val_main_v11_apply, val_main_v8_apply, val_main_v10_apply, val_main_v7_apply, val_main_v9_apply,
    val_main_c_1_apply, val_main_c_2_apply]
  rfl

/-- The gathered context embedding: row `row (ctx b c)` of the table. -/
theorem ctx_emb (b : Fin 65536) (c : Fin 10) (f : Fin 50) :
    val_main_v6 (F := Ideal) x0 x10 (ix3 b c f) = Args.emb x0 (Spec.row (Args.ctx x10 b c)) f := by
  unfold val_main_v6
  have hd : gather_S50000x50_S65536x10x1_S65536x10x50_2_0_n_n_0_2_150
      = Cert.Lib.GatherRows3.rows3Dims 50000 50 65536 10
          Facts₀.gather_S50000x50_S65536x10x1_S65536x10x50_2_0_n_n_0_2_150_wf := rfl
  rw [hd]
  refine (Cert.Lib.GatherRows3.gather_rows3_apply (by decide) _ x0 (val_main_v5 (F := Ideal) x10) b c f).trans ?_
  unfold Args.emb Spec.row
  refine congrArg x0 ?_
  refine congrArg (fun r => ix2 r f) ?_
  refine Fin.ext ?_
  show min (val_main_v5 (F := Ideal) x10 (ix3 b c (0 : Fin 1))).toInt.toNat (50000 - 1) = _
  rw [ctx_word]

/-- The gathered centre embedding: row `row (cen b)` of the table. -/
theorem cen_emb (b : Fin 65536) (f : Fin 50) :
    val_main_v13 (F := Ideal) x0 x9 (ix2 b f) = Args.emb x0 (Spec.row (Args.cen x9 b)) f := by
  unfold val_main_v13
  have hd : gather_S50000x50_S65536x1_S65536x50_1_0_n_n_0_1_150
      = Cert.Lib.ScatterGather.rowsDims 50000 50 65536
          Facts₀.gather_S50000x50_S65536x1_S65536x50_1_0_n_n_0_1_150_wf := rfl
  rw [hd]
  refine (Cert.Lib.ScatterGather.gather_rows_apply (by decide) _ x0 (val_main_v12 (F := Ideal) x9) b f).trans ?_
  unfold Args.emb Spec.row
  refine congrArg x0 ?_
  refine congrArg (fun r => ix2 r f) ?_
  refine Fin.ext ?_
  show min (val_main_v12 (F := Ideal) x9 (ix2 b (0 : Fin 1))).toInt.toNat (50000 - 1) = _
  rw [cen_word]

/-- The centre embedding laid beside every context position: entry `(b, c, f)` is the centre embedding's `f`. -/
theorem cen_bcast (b : Fin 65536) (c : Fin 10) (f : Fin 50) :
    val_main_v15 (F := Ideal) x0 x9 (ix3 b c f) = Args.emb x0 (Spec.row (Args.cen x9 b)) f := by
  rw [val_main_v15_apply, val_main_v14_apply]
  have e : idx_main_v14 (idx_main_v15 (ix3 b c f)) = ix2 b f :=
    funext fun a => Fin.ext (by match a with | ⟨0, _⟩ => rfl | ⟨1, _⟩ => rfl)
  rw [e, cen_emb]

/-- The joined row below 50: the context embedding. -/
theorem cat_left (b : Fin 65536) (c : Fin 10) (f : Fin 50) :
    val_main_v16 (F := Ideal) x0 x9 x10 (ix3 b c (⟨f.val, by omega⟩ : Fin 100))
      = Args.emb x0 (Spec.row (Args.ctx x10 b c)) f := by
  unfold val_main_v16
  refine (concatenate_pair_apply_left 2 (val_main_v6 (F := Ideal) x0 x10) (val_main_v15 (F := Ideal) x0 x9)
    Facts₀.concatenates_S65536x10x50_S65536x10x50_S65536x10x100_d2 _ rfl (ix3 b c f) (fun a => by
      match a with
      | ⟨0, _⟩ => rfl
      | ⟨1, _⟩ => rfl
      | ⟨2, _⟩ => rfl)).trans ?_
  exact ctx_emb x0 x10 b c f

/-- The joined row from 50 on: the centre embedding. -/
theorem cat_right (b : Fin 65536) (c : Fin 10) (f : Fin 50) :
    val_main_v16 (F := Ideal) x0 x9 x10 (ix3 b c (⟨50 + f.val, by omega⟩ : Fin 100))
      = Args.emb x0 (Spec.row (Args.cen x9 b)) f := by
  unfold val_main_v16
  refine (concatenate_pair_apply_right 2 (val_main_v6 (F := Ideal) x0 x10) (val_main_v15 (F := Ideal) x0 x9)
    Facts₀.concatenates_S65536x10x50_S65536x10x50_S65536x10x100_d2 _ rfl rfl (ix3 b c f) (fun a ha => by
      match a with
      | ⟨0, _⟩ => rfl
      | ⟨1, _⟩ => rfl
      | ⟨2, _⟩ => exact absurd rfl ha) (by show f.val + 50 = 50 + f.val; omega)).trans ?_
  exact cen_bcast x0 x9 b c f

/-- A sum over 100 positions is the sum over the first 50 plus the sum over the last 50. -/
theorem sum_halves (g : Fin 100 → EReal) :
    ∑ k : Fin 100, g k
      = (∑ f : Fin 50, g ⟨f.val, by omega⟩) + ∑ f : Fin 50, g ⟨50 + f.val, by omega⟩ :=
  Fin.sum_univ_add (a := 50) (b := 50) g

/-- The hidden pre-activation of example `b`, context position `c`, at hidden unit `h`. -/
theorem pre_at (b : Fin 65536) (c : Fin 10) (h : Fin 50) :
    val_main_v20 (F := Ideal) x0 x1 x2 x9 x10 (ix3 b c h)
      = Spec.hpre (fun f h => Args.W1 x1 ⟨f.val, by omega⟩ h) (fun f h => Args.W1 x1 ⟨50 + f.val, by omega⟩ h)
          (Args.b1 x2) (fun f => Args.emb x0 (Spec.row (Args.ctx x10 b c)) f)
          (fun f => Args.emb x0 (Spec.row (Args.cen x9 b)) f) h := by
  rw [val_main_v20_apply, val_main_v19_apply, val_main_v18_apply, val_main_v17_apply]
  have el : ∀ k : Fin 100, lidx_main_v17 (ix3 b c h) k = ix3 b c k := fun k =>
    funext fun a => Fin.ext (by match a with | ⟨0, _⟩ => rfl | ⟨1, _⟩ => rfl | ⟨2, _⟩ => rfl)
  have er : ∀ k : Fin 100, ridx_main_v17 (ix3 b c h) k = ix2 k h := fun k =>
    funext fun a => Fin.ext (by match a with | ⟨0, _⟩ => rfl | ⟨1, _⟩ => rfl)
  have eb : idx_main_v18 (idx_main_v19 (ix3 b c h)) = ix1 h :=
    funext fun a => Fin.ext (by match a with | ⟨0, _⟩ => rfl)
  simp only [el, er, eb, Ideal.addf_def]
  unfold Spec.hpre
  rw [sum_halves]
  refine congrArg₂ (· + ·) (congrArg₂ (· + ·) (Finset.sum_congr rfl fun f _ => ?_)
    (Finset.sum_congr rfl fun f _ => ?_)) rfl
  · rw [cat_left]; rfl
  · rw [cat_right]; rfl

end Hidden

/-! ## The hidden vector and the two heads -/

/-- Example `b`'s hidden vector at unit `h`: the rectified pre-activations summed over the ten context words. -/
theorem hid_at (b : Fin 65536) (h : Fin 50) :
    val_main_v22 (F := Ideal) x0 x1 x2 x9 x10 (ix2 b h)
      = Spec.hidAt (Args.emb x0) (Args.W1 x1) (Args.b1 x2) (Args.cen x9) (Args.ctx x10) b h := by
  rw [val_main_v22_apply, val_main_cst_apply, Ideal.ofBits_def, Ideal.ofBits_zero_f32, zero_add]
  unfold Spec.hidAt Spec.hid
  refine Finset.sum_congr rfl fun c _ => ?_
  have e : idx_main_v22 (ix2 b h) c = ix3 b c h :=
    funext fun a => Fin.ext (by match a with | ⟨0, _⟩ => rfl | ⟨1, _⟩ => rfl | ⟨2, _⟩ => rfl)
  rw [e, val_main_v21_apply, val_main_call0_v0_apply, val_main_call0_cst_apply, Hidden.pre_at]
  rfl

/-- Example `b`'s posterior mean at latent coordinate `l`. -/
theorem mu_at (b : Fin 65536) (l : Fin 100) :
    val_main_v26 (F := Ideal) x0 x1 x2 x3 x4 x9 x10 (ix2 b l)
      = Spec.muAt (Args.emb x0) (Args.W1 x1) (Args.b1 x2) (Args.Wmu x3) (Args.bmu x4) (Args.cen x9) (Args.ctx x10) b l := by
  rw [val_main_v26_apply, val_main_v25_apply, val_main_v24_apply, val_main_v23_apply]
  have el : ∀ k : Fin 50, lidx_main_v23 (ix2 b l) k = ix2 b k := fun k =>
    funext fun a => Fin.ext (by match a with | ⟨0, _⟩ => rfl | ⟨1, _⟩ => rfl)
  have er : ∀ k : Fin 50, ridx_main_v23 (ix2 b l) k = ix2 k l := fun k =>
    funext fun a => Fin.ext (by match a with | ⟨0, _⟩ => rfl | ⟨1, _⟩ => rfl)
  have eb : idx_main_v24 (idx_main_v25 (ix2 b l)) = ix1 l :=
    funext fun a => Fin.ext (by match a with | ⟨0, _⟩ => rfl)
  simp only [el, er, eb, Ideal.addf_def, hid_at]
  rfl

/-- Example `b`'s posterior log-sigma. -/
theorem ls_at (b : Fin 65536) :
    val_main_v30 (F := Ideal) x0 x1 x2 x5 x6 x9 x10 (ix2 b (0 : Fin 1))
      = Spec.lsAt (Args.emb x0) (Args.W1 x1) (Args.b1 x2) (Args.Wls x5) (Args.bls x6) (Args.cen x9) (Args.ctx x10) b := by
  rw [val_main_v30_apply, val_main_v29_apply, val_main_v28_apply, val_main_v27_apply]
  have el : ∀ k : Fin 50, lidx_main_v27 (ix2 b (0 : Fin 1)) k = ix2 b k := fun k =>
    funext fun a => Fin.ext (by match a with | ⟨0, _⟩ => rfl | ⟨1, _⟩ => rfl)
  have er : ∀ k : Fin 50, ridx_main_v27 (ix2 b (0 : Fin 1)) k = ix2 k (0 : Fin 1) := fun k =>
    funext fun a => Fin.ext (by match a with | ⟨0, _⟩ => rfl | ⟨1, _⟩ => rfl)
  have eb : idx_main_v28 (idx_main_v29 (ix2 b (0 : Fin 1))) = ix1 (0 : Fin 1) :=
    funext fun a => Fin.ext (by match a with | ⟨0, _⟩ => rfl)
  simp only [el, er, eb, Ideal.addf_def, hid_at]
  rfl

end Cert.ReferenceIdeal.RefValue

end
-- ==== Proof.RefLoss.lean ====
import proofs.«154240_j78829829751266_2_alg».proof.Proof.RefHidden
import proofs.«154240_j78829829751266_2_alg».proof.Proof.LibScatterGather

/-!
# The reference's loss

The reference repeats each example's posterior ten times (flat position `10·b + c`), gathers the type rows of the
flattened context words and negative words and of the centre words, forms the divergences, the hinge terms, sums
the 655360 hinge terms and the 65536 centre terms, adds the two sums and divides by 65536. The flat sum over
`10·b + c` is the double sum over examples and context positions.
-/

noncomputable section

namespace Cert.ReferenceIdeal.RefValue

open Cert.ReferenceIdeal Cert.ReferenceIdeal.Gen Cert.ReferenceIdeal.Read Idealize.ShloMosaic Idealize.ShloMosaic.ValueIdx

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

/-! ## Flat positions -/

/-- The flat position `10·b + c` of slot `c` of example `b`. -/
def flat (b : Fin 65536) (c : Fin 10) : Fin 655360 :=
  ⟨10 * b.val + c.val, by have := b.isLt; have := c.isLt; omega⟩

/-- Flat positions are the pairs (example, slot). -/
def flatEquiv : Fin 65536 × Fin 10 ≃ Fin 655360 where
  toFun p := flat p.1 p.2
  invFun n := (⟨n.val / 10, by have := n.isLt; omega⟩, ⟨n.val % 10, Nat.mod_lt _ (by decide)⟩)
  left_inv p := by
    obtain ⟨b, c⟩ := p
    refine Prod.ext (Fin.ext ?_) (Fin.ext ?_)
    · show (10 * b.val + c.val) / 10 = b.val
      have := c.isLt; omega
    · show (10 * b.val + c.val) % 10 = c.val
      have := c.isLt; omega
  right_inv n := Fin.ext (by show 10 * (n.val / 10) + n.val % 10 = n.val; omega)

/-! ## The posterior at a flat position -/

/-- The repeated posterior mean at flat position `10·b + c` is example `b`'s. -/
theorem mu_flat (b : Fin 65536) (c : Fin 10) (l : Fin 100) :
    val_main_v32 (F := Ideal) x0 x1 x2 x3 x4 x9 x10 (ix2 (flat b c) l)
      = Spec.muAt (Args.emb x0) (Args.W1 x1) (Args.b1 x2) (Args.Wmu x3) (Args.bmu x4) (Args.cen x9) (Args.ctx x10) b l := by
  rw [val_main_v32_apply, val_main_v31_apply, ← mu_at x0 x1 x2 x3 x4 x9 x10 b l]
  refine congrArg _ (funext fun a => Fin.ext ?_)
  match a with
  | ⟨0, _⟩ =>
    show ((10 * b.val + c.val) * 100 + l.val) / 1000 = b.val
    have := c.isLt; have := l.isLt; omega
  | ⟨1, _⟩ =>
    show ((10 * b.val + c.val) * 100 + l.val) % 100 = l.val
    have := l.isLt; omega

/-- The repeated posterior log-sigma at flat position `10·b + c` is example `b`'s. -/
theorem ls_flat (b : Fin 65536) (c : Fin 10) :
    val_main_v34 (F := Ideal) x0 x1 x2 x5 x6 x9 x10 (ix2 (flat b c) (0 : Fin 1))
      = Spec.lsAt (Args.emb x0) (Args.W1 x1) (Args.b1 x2) (Args.Wls x5) (Args.bls x6) (Args.cen x9) (Args.ctx x10) b := by
  rw [val_main_v34_apply, val_main_v33_apply, ← ls_at x0 x1 x2 x5 x6 x9 x10 b]
  refine congrArg _ (funext fun a => Fin.ext ?_)
  match a with
  | ⟨0, _⟩ =>
    show ((10 * b.val + c.val) * 1 + 0) / 10 = b.val
    have := c.isLt; omega
  | ⟨1, _⟩ => rfl

/-! ## The context words' type rows -/

/-- The flattened context words: position `10·b + c` holds word `(b, c)`. -/
theorem ctx_word (b : Fin 65536) (c : Fin 10) (i : S655360.Idx) (h : (i 0).val = 10 * b.val + c.val) :
    val_main_v35 (F := Ideal) x10 i = Args.ctx x10 b c := by
  rw [val_main_v35_apply]
  refine congrArg (x10 : S65536x10.Idx → BitVec 32) (funext fun a => Fin.ext ?_)
  match a with
  | ⟨0, _⟩ =>
    show (i 0).val / 10 = b.val
    have := c.isLt; omega
  | ⟨1, _⟩ =>
    show (i 0).val % 10 = c.val
    have := c.isLt; omega

theorem ctx_normA (b : Fin 65536) (c : Fin 10) (i : S655360.Idx) (h : (i 0).val = 10 * b.val + c.val) :
    val_main_v41 (F := Ideal) x10 i = Spec.norm (Args.ctx x10 b c) := by
  rw [val_main_v41_apply, val_main_v38_apply, val_main_v40_apply, val_main_v37_apply, val_main_v39_apply,
    val_main_c_3_apply, val_main_c_4_apply, ctx_word x10 b c i h]
  rfl

theorem ctx_normB (b : Fin 65536) (c : Fin 10) (i : S655360.Idx) (h : (i 0).val = 10 * b.val + c.val) :
    val_main_v48 (F := Ideal) x10 i = Spec.norm (Args.ctx x10 b c) := by
  rw [val_main_v48_apply, val_main_v45_apply, val_main_v47_apply, val_main_v44_apply, val_main_v46_apply,
    val_main_c_5_apply, val_main_c_6_apply, ctx_word x10 b c i h]
  rfl

/-- The gathered mean row of context word `(b, c)`. -/
theorem ctx_TM (b : Fin 65536) (c : Fin 10) (l : Fin 100) :
    val_main_v43 (F := Ideal) x7 x10 (ix2 (flat b c) l) = Args.TM x7 (Spec.row (Args.ctx x10 b c)) l := by
  have hw : val_main_v42 (F := Ideal) x10 (ix2 (flat b c) (0 : Fin 1)) = Spec.norm (Args.ctx x10 b c) := by
    rw [val_main_v42_apply]; exact ctx_normA x10 b c _ rfl
  unfold val_main_v43
  rw [show gather_S50000x100_S655360x1_S655360x100_1_0_n_n_0_1_1100
        = Cert.Lib.ScatterGather.rowsDims 50000 100 655360 Facts₀.gather_S50000x100_S655360x1_S655360x100_1_0_n_n_0_1_1100_wf from rfl,
    Cert.Lib.ScatterGather.gather_rows_apply (by decide)]
  refine congrArg (x7 : S50000x100.Idx → EReal) (congrArg (fun r : Fin 50000 => ix2 r l) (Fin.ext ?_))
  show min (BitVec.toInt (val_main_v42 (F := Ideal) x10 (ix2 (flat b c) (0 : Fin 1)))).toNat (50000 - 1)
    = min (BitVec.toInt (Spec.norm (Args.ctx x10 b c))).toNat (50000 - 1)
  rw [hw]

/-- The gathered log-variance of context word `(b, c)`. -/
theorem ctx_TL (b : Fin 65536) (c : Fin 10) :
    val_main_v50 (F := Ideal) x8 x10 (ix2 (flat b c) (0 : Fin 1)) = Args.TL x8 (Spec.row (Args.ctx x10 b c)) := by
  have hw : val_main_v49 (F := Ideal) x10 (ix2 (flat b c) (0 : Fin 1)) = Spec.norm (Args.ctx x10 b c) := by
    rw [val_main_v49_apply]; exact ctx_normB x10 b c _ rfl
  unfold val_main_v50
  rw [show gather_S50000x1_S655360x1_S655360x1_1_0_n_n_0_1_11
        = Cert.Lib.ScatterGather.rowsDims 50000 1 655360 Facts₀.gather_S50000x1_S655360x1_S655360x1_1_0_n_n_0_1_11_wf from rfl,
    Cert.Lib.ScatterGather.gather_rows_apply (by decide)]
  refine congrArg (x8 : S50000x1.Idx → EReal) (congrArg (fun r : Fin 50000 => ix2 r (0 : Fin 1)) (Fin.ext ?_))
  show min (BitVec.toInt (val_main_v49 (F := Ideal) x10 (ix2 (flat b c) (0 : Fin 1)))).toNat (50000 - 1)
    = min (BitVec.toInt (Spec.norm (Args.ctx x10 b c))).toNat (50000 - 1)
  rw [hw]

/-! ## The divergence of one posterior against one type row -/

/-- The reference's arithmetic from the four operand values to the divergence. -/
theorem kl_close (mu tm : Fin 100 → EReal) (ls tl : EReal) :
    Ideal.ofBits .f32 0x3F000000#32
        * (((Ideal.div (Ideal.exp ls) (Ideal.exp tl)
            + Ideal.div (Ideal.ofBits .f32 0x00000000#32 + ∑ k : Fin 100, (mu k - tm k) * (mu k - tm k)) (Ideal.exp tl))
          + (tl - ls)) - Ideal.ofBits .f32 0x42C80000#32)
      = Spec.kl mu ls tm tl := by
  rw [Ideal.ofBits_zero_f32, zero_add]
  rfl

/-- The divergence of example `b`'s posterior against the type row of its context word `c`. -/
theorem kl_ctx (b : Fin 65536) (c : Fin 10) :
    val_main_v65 (F := Ideal) x0 x1 x2 x3 x4 x5 x6 x7 x8 x9 x10 (ix1 (flat b c))
      = Spec.klWord (Args.emb x0) (Args.W1 x1) (Args.b1 x2) (Args.Wmu x3) (Args.bmu x4) (Args.Wls x5) (Args.bls x6)
          (Args.TM x7) (Args.TL x8) (Args.cen x9) (Args.ctx x10) b (Args.ctx x10 b c) := by
  have e61 : idx_main_v61 (ix1 (flat b c)) = ix2 (flat b c) (0 : Fin 1) :=
    funext fun a => Fin.ext (by match a with | ⟨0, _⟩ => exact Nat.div_one _ | ⟨1, _⟩ => rfl)
  have e56 : idx_main_v56 (ix2 (flat b c) (0 : Fin 1)) = ix1 (flat b c) :=
    funext fun a => Fin.ext (by match a with | ⟨0, _⟩ => rfl)
  have e55 : ∀ k : Fin 100, idx_main_v55 (ix1 (flat b c)) k = ix2 (flat b c) k :=
    fun k => funext fun a => Fin.ext (by match a with | ⟨0, _⟩ => rfl | ⟨1, _⟩ => rfl)
  rw [val_main_v65_apply, val_main_v64_apply, val_main_cst_9_apply, val_main_v63_apply, val_main_v62_apply,
    val_main_cst_8_apply, val_main_v61_apply, e61, val_main_v60_apply, val_main_v59_apply, val_main_v58_apply,
    val_main_v57_apply, val_main_v52_apply, val_main_v56_apply, e56, val_main_v55_apply, val_main_v51_apply,
    val_main_v36_apply, val_main_cst_7_apply, ls_flat x0 x1 x2 x5 x6 x9 x10 b c, ctx_TL x8 x10 b c]
  simp only [e55, val_main_v54_apply, val_main_v53_apply, mu_flat x0 x1 x2 x3 x4 x9 x10 b c, ctx_TM x7 x10 b c,
    Ideal.ofBits_def, Ideal.mulf_def, Ideal.subf_def, Ideal.addf_def, Ideal.hostDivf_def, Ideal.hostUnary_exp_def]
  exact kl_close _ _ _ _

/-! ## The negative words' type rows -/

/-- The flattened negative words: position `10·b + c` holds word `(b, c)`. -/
theorem neg_word (b : Fin 65536) (c : Fin 10) (i : S655360.Idx) (h : (i 0).val = 10 * b.val + c.val) :
    val_main_v66 (F := Ideal) x11 i = Args.neg x11 b c := by
  rw [val_main_v66_apply]
  refine congrArg (x11 : S65536x10.Idx → BitVec 32) (funext fun a => Fin.ext ?_)
  match a with
  | ⟨0, _⟩ =>
    show (i 0).val / 10 = b.val
    have := c.isLt; omega
  | ⟨1, _⟩ =>
    show (i 0).val % 10 = c.val
    have := c.isLt; omega

theorem neg_normA (b : Fin 65536) (c : Fin 10) (i : S655360.Idx) (h : (i 0).val = 10 * b.val + c.val) :
    val_main_v72 (F := Ideal) x11 i = Spec.norm (Args.neg x11 b c) := by
  rw [val_main_v72_apply, val_main_v69_apply, val_main_v71_apply, val_main_v68_apply, val_main_v70_apply,
    val_main_c_10_apply, val_main_c_11_apply, neg_word x11 b c i h]
  rfl

theorem neg_normB (b : Fin 65536) (c : Fin 10) (i : S655360.Idx) (h : (i 0).val = 10 * b.val + c.val) :
    val_main_v79 (F := Ideal) x11 i = Spec.norm (Args.neg x11 b c) := by
  rw [val_main_v79_apply, val_main_v76_apply, val_main_v78_apply, val_main_v75_apply, val_main_v77_apply,
    val_main_c_12_apply, val_main_c_13_apply, neg_word x11 b c i h]
  rfl

/-- The gathered mean row of negative word `(b, c)`. -/
theorem neg_TM (b : Fin 65536) (c : Fin 10) (l : Fin 100) :
    val_main_v74 (F := Ideal) x7 x11 (ix2 (flat b c) l) = Args.TM x7 (Spec.row (Args.neg x11 b c)) l := by
  have hw : val_main_v73 (F := Ideal) x11 (ix2 (flat b c) (0 : Fin 1)) = Spec.norm (Args.neg x11 b c) := by
    rw [val_main_v73_apply]; exact neg_normA x11 b c _ rfl
  unfold val_main_v74
  rw [show gather_S50000x100_S655360x1_S655360x100_1_0_n_n_0_1_1100
        = Cert.Lib.ScatterGather.rowsDims 50000 100 655360 Facts₀.gather_S50000x100_S655360x1_S655360x100_1_0_n_n_0_1_1100_wf from rfl,
    Cert.Lib.ScatterGather.gather_rows_apply (by decide)]
  refine congrArg (x7 : S50000x100.Idx → EReal) (congrArg (fun r : Fin 50000 => ix2 r l) (Fin.ext ?_))
  show min (BitVec.toInt (val_main_v73 (F := Ideal) x11 (ix2 (flat b c) (0 : Fin 1)))).toNat (50000 - 1)
    = min (BitVec.toInt (Spec.norm (Args.neg x11 b c))).toNat (50000 - 1)
  rw [hw]

/-- The gathered log-variance of negative word `(b, c)`. -/
theorem neg_TL (b : Fin 65536) (c : Fin 10) :
    val_main_v81 (F := Ideal) x8 x11 (ix2 (flat b c) (0 : Fin 1)) = Args.TL x8 (Spec.row (Args.neg x11 b c)) := by
  have hw : val_main_v80 (F := Ideal) x11 (ix2 (flat b c) (0 : Fin 1)) = Spec.norm (Args.neg x11 b c) := by
    rw [val_main_v80_apply]; exact neg_normB x11 b c _ rfl
  unfold val_main_v81
  rw [show gather_S50000x1_S655360x1_S655360x1_1_0_n_n_0_1_11
        = Cert.Lib.ScatterGather.rowsDims 50000 1 655360 Facts₀.gather_S50000x1_S655360x1_S655360x1_1_0_n_n_0_1_11_wf from rfl,
    Cert.Lib.ScatterGather.gather_rows_apply (by decide)]
  refine congrArg (x8 : S50000x1.Idx → EReal) (congrArg (fun r : Fin 50000 => ix2 r (0 : Fin 1)) (Fin.ext ?_))
  show min (BitVec.toInt (val_main_v80 (F := Ideal) x11 (ix2 (flat b c) (0 : Fin 1)))).toNat (50000 - 1)
    = min (BitVec.toInt (Spec.norm (Args.neg x11 b c))).toNat (50000 - 1)
  rw [hw]

/-- The divergence of example `b`'s posterior against the type row of its negative word `c`. -/
theorem kl_neg (b : Fin 65536) (c : Fin 10) :
    val_main_v96 (F := Ideal) x0 x1 x2 x3 x4 x5 x6 x7 x8 x9 x10 x11 (ix1 (flat b c))
      = Spec.klWord (Args.emb x0) (Args.W1 x1) (Args.b1 x2) (Args.Wmu x3) (Args.bmu x4) (Args.Wls x5) (Args.bls x6)
          (Args.TM x7) (Args.TL x8) (Args.cen x9) (Args.ctx x10) b (Args.neg x11 b c) := by
  have e92 : idx_main_v92 (ix1 (flat b c)) = ix2 (flat b c) (0 : Fin 1) :=
    funext fun a => Fin.ext (by match a with | ⟨0, _⟩ => exact Nat.div_one _ | ⟨1, _⟩ => rfl)
  have e87 : idx_main_v87 (ix2 (flat b c) (0 : Fin 1)) = ix1 (flat b c) :=
    funext fun a => Fin.ext (by match a with | ⟨0, _⟩ => rfl)
  have e86 : ∀ k : Fin 100, idx_main_v86 (ix1 (flat b c)) k = ix2 (flat b c) k :=
    fun k => funext fun a => Fin.ext (by match a with | ⟨0, _⟩ => rfl | ⟨1, _⟩ => rfl)
  rw [val_main_v96_apply, val_main_v95_apply, val_main_cst_16_apply, val_main_v94_apply, val_main_v93_apply,
    val_main_cst_15_apply, val_main_v92_apply, e92, val_main_v91_apply, val_main_v90_apply, val_main_v89_apply,
    val_main_v88_apply, val_main_v83_apply, val_main_v87_apply, e87, val_main_v86_apply, val_main_v82_apply,
    val_main_v67_apply, val_main_cst_14_apply, ls_flat x0 x1 x2 x5 x6 x9 x10 b c, neg_TL x8 x11 b c]
  simp only [e86, val_main_v85_apply, val_main_v84_apply, mu_flat x0 x1 x2 x3 x4 x9 x10 b c, neg_TM x7 x11 b c,
    Ideal.ofBits_def, Ideal.mulf_def, Ideal.subf_def, Ideal.addf_def, Ideal.hostDivf_def, Ideal.hostUnary_exp_def]
  exact kl_close _ _ _ _

/-! ## The centre words' type rows -/

theorem cen_word (b : Fin 65536) (i : S65536.Idx) (h : (i 0).val = b.val) :
    (x9 : S65536.Idx → BitVec 32) i = Args.cen x9 b :=
  congrArg (x9 : S65536.Idx → BitVec 32) (funext fun a => Fin.ext (by match a with | ⟨0, _⟩ => exact h))

theorem cen_normA (b : Fin 65536) (i : S65536.Idx) (h : (i 0).val = b.val) :
    val_main_v102 (F := Ideal) x9 i = Spec.norm (Args.cen x9 b) := by
  rw [val_main_v102_apply, val_main_v99_apply, val_main_v101_apply, val_main_v98_apply, val_main_v100_apply,
    val_main_c_17_apply, val_main_c_18_apply, cen_word x9 b i h]
  rfl

theorem cen_normB (b : Fin 65536) (i : S65536.Idx) (h : (i 0).val = b.val) :
    val_main_v109 (F := Ideal) x9 i = Spec.norm (Args.cen x9 b) := by
  rw [val_main_v109_apply, val_main_v106_apply, val_main_v108_apply, val_main_v105_apply, val_main_v107_apply,
    val_main_c_19_apply, val_main_c_20_apply, cen_word x9 b i h]
  rfl

/-- The gathered mean row of example `b`'s centre word. -/
theorem cen_TM (b : Fin 65536) (l : Fin 100) :
    val_main_v104 (F := Ideal) x7 x9 (ix2 b l) = Args.TM x7 (Spec.row (Args.cen x9 b)) l := by
  have hw : val_main_v103 (F := Ideal) x9 (ix2 b (0 : Fin 1)) = Spec.norm (Args.cen x9 b) := by
    rw [val_main_v103_apply]; exact cen_normA x9 b _ rfl
  unfold val_main_v104
  rw [show gather_S50000x100_S65536x1_S65536x100_1_0_n_n_0_1_1100
        = Cert.Lib.ScatterGather.rowsDims 50000 100 65536 Facts₀.gather_S50000x100_S65536x1_S65536x100_1_0_n_n_0_1_1100_wf from rfl,
    Cert.Lib.ScatterGather.gather_rows_apply (by decide)]
  refine congrArg (x7 : S50000x100.Idx → EReal) (congrArg (fun r : Fin 50000 => ix2 r l) (Fin.ext ?_))
  show min (BitVec.toInt (val_main_v103 (F := Ideal) x9 (ix2 b (0 : Fin 1)))).toNat (50000 - 1)
    = min (BitVec.toInt (Spec.norm (Args.cen x9 b))).toNat (50000 - 1)
  rw [hw]

/-- The gathered log-variance of example `b`'s centre word. -/
theorem cen_TL (b : Fin 65536) :
    val_main_v111 (F := Ideal) x8 x9 (ix2 b (0 : Fin 1)) = Args.TL x8 (Spec.row (Args.cen x9 b)) := by
  have hw : val_main_v110 (F := Ideal) x9 (ix2 b (0 : Fin 1)) = Spec.norm (Args.cen x9 b) := by
    rw [val_main_v110_apply]; exact cen_normB x9 b _ rfl
  unfold val_main_v111
  rw [show gather_S50000x1_S65536x1_S65536x1_1_0_n_n_0_1_11
        = Cert.Lib.ScatterGather.rowsDims 50000 1 65536 Facts₀.gather_S50000x1_S65536x1_S65536x1_1_0_n_n_0_1_11_wf from rfl,
    Cert.Lib.ScatterGather.gather_rows_apply (by decide)]
  refine congrArg (x8 : S50000x1.Idx → EReal) (congrArg (fun r : Fin 50000 => ix2 r (0 : Fin 1)) (Fin.ext ?_))
  show min (BitVec.toInt (val_main_v110 (F := Ideal) x9 (ix2 b (0 : Fin 1)))).toNat (50000 - 1)
    = min (BitVec.toInt (Spec.norm (Args.cen x9 b))).toNat (50000 - 1)
  rw [hw]

/-- The divergence of example `b`'s posterior against the type row of its centre word. -/
theorem kl_cen (b : Fin 65536) :
    val_main_v126 (F := Ideal) x0 x1 x2 x3 x4 x5 x6 x7 x8 x9 x10 (ix1 b)
      = Spec.klWord (Args.emb x0) (Args.W1 x1) (Args.b1 x2) (Args.Wmu x3) (Args.bmu x4) (Args.Wls x5) (Args.bls x6)
          (Args.TM x7) (Args.TL x8) (Args.cen x9) (Args.ctx x10) b (Args.cen x9 b) := by
  have e122 : idx_main_v122 (ix1 b) = ix2 b (0 : Fin 1) :=
    funext fun a => Fin.ext (by match a with | ⟨0, _⟩ => exact Nat.div_one _ | ⟨1, _⟩ => rfl)
  have e117 : idx_main_v117 (ix2 b (0 : Fin 1)) = ix1 b :=
    funext fun a => Fin.ext (by match a with | ⟨0, _⟩ => rfl)
  have e116 : ∀ k : Fin 100, idx_main_v116 (ix1 b) k = ix2 b k :=
    fun k => funext fun a => Fin.ext (by match a with | ⟨0, _⟩ => rfl | ⟨1, _⟩ => rfl)
  rw [val_main_v126_apply, val_main_v125_apply, val_main_cst_23_apply, val_main_v124_apply, val_main_v123_apply,
    val_main_cst_22_apply, val_main_v122_apply, e122, val_main_v121_apply, val_main_v120_apply, val_main_v119_apply,
    val_main_v118_apply, val_main_v113_apply, val_main_v117_apply, e117, val_main_v116_apply, val_main_v112_apply,
    val_main_v97_apply, val_main_cst_21_apply, ls_at x0 x1 x2 x5 x6 x9 x10 b, cen_TL x8 x9 b]
  simp only [e116, val_main_v115_apply, val_main_v114_apply, mu_at x0 x1 x2 x3 x4 x9 x10 b, cen_TM x7 x9 b,
    Ideal.ofBits_def, Ideal.mulf_def, Ideal.subf_def, Ideal.addf_def, Ideal.hostDivf_def, Ideal.hostUnary_exp_def]
  exact kl_close _ _ _ _

/-! ## The hinge terms and the two totals -/

/-- The hinge term of example `b` and context slot `c`, at flat position `10·b + c`. -/
theorem hinge_flat (b : Fin 65536) (c : Fin 10) :
    val_main_v131 (F := Ideal) x0 x1 x2 x3 x4 x5 x6 x7 x8 x9 x10 x11 (ix1 (flat b c))
      = Spec.hingeAt (Args.emb x0) (Args.W1 x1) (Args.b1 x2) (Args.Wmu x3) (Args.bmu x4) (Args.Wls x5) (Args.bls x6)
          (Args.TM x7) (Args.TL x8) (Args.cen x9) (Args.ctx x10) (Args.neg x11) b c := by
  rw [val_main_v131_apply, val_main_v130_apply, val_main_cst_25_apply, val_main_v129_apply, val_main_v128_apply,
    val_main_cst_24_apply, val_main_v127_apply, kl_ctx x0 x1 x2 x3 x4 x5 x6 x7 x8 x9 x10 b c, kl_neg x0 x1 x2 x3 x4 x5 x6 x7 x8 x9 x10 x11 b c]
  rfl

theorem flatEquiv_apply (b : Fin 65536) (c : Fin 10) : flatEquiv (b, c) = flat b c := rfl

/-- The reference's result is the specification's loss of the argument arrays. -/
theorem loss_eq :
    val_main_v135 (F := Ideal) x0 x1 x2 x3 x4 x5 x6 x7 x8 x9 x10 x11
      = fun _ => Spec.loss (Args.emb x0) (Args.W1 x1) (Args.b1 x2) (Args.Wmu x3) (Args.bmu x4) (Args.Wls x5) (Args.bls x6)
          (Args.TM x7) (Args.TL x8) (Args.cen x9) (Args.ctx x10) (Args.neg x11) := by
  funext i
  rw [val_main_v135_apply, val_main_cst_28_apply, val_main_v134_apply, val_main_v132_apply, val_main_v133_apply,
    val_main_cst_26_apply, val_main_cst_27_apply, Cert.Lib.ScatterGather.sum_idx1 (n := 655360),
    Cert.Lib.ScatterGather.sum_idx1 (n := 65536), ← Equiv.sum_comp flatEquiv, Fintype.sum_prod_type]
  simp only [flatEquiv_apply, hinge_flat x0 x1 x2 x3 x4 x5 x6 x7 x8 x9 x10 x11, kl_cen x0 x1 x2 x3 x4 x5 x6 x7 x8 x9 x10,
    Ideal.ofBits_def, Ideal.ofBits_zero_f32, zero_add, Ideal.addf_def, Ideal.hostDivf_def]
  rfl

end Cert.ReferenceIdeal.RefValue

end
-- ==== Proof.lean ====
/-
  The kernel and its reference compute one loss.

  A batch of 65536 examples, each a centre word, ten context words and ten negative words. Every word selects a row
  of an embedding table and of two type tables (means and log-variance). An example's hidden vector is the sum over
  its ten context words of the rectified affine image of (context embedding, centre embedding); two affine heads
  give a posterior mean and log-sigma; the divergence of the posterior against a word's type row is
  ½·((exp ls / exp lv + (∑ (mu − mean)²) / exp lv + (lv − ls)) − 100); a context word and its negative word give the
  hinge max (kl_ctx − kl_neg + 1) 0; the loss is (all hinge terms + all centre divergences) / 65536.

  The reference computes this example by example on flat arrays (position 10·b + c), contracting the joined
  (context, centre) embedding with the whole hidden weight. The kernel program gathers the rows on the host, splits
  the hidden weight in two halves, and lets 256 grid points each add the terms of 256 examples into one of two
  accumulator entries, which the host finally adds and divides. Over the extended reals the two are the same
  function `Cert.Spec.loss` of the argument arrays: the joined contraction is the sum of the two half contractions,
  and all the sums are regroupings of one another (addition on the extended reals is commutative and associative;
  no distributivity or cancellation is used, so the precondition is not needed for the values).
-/
import proofs.«154240_j78829829751266_2_alg».proof.Defs
import proofs.«154240_j78829829751266_2_alg».proof.Proof.Gen.Kernel
import proofs.«154240_j78829829751266_2_alg».proof.Proof.Gen.KernelIdeal
import proofs.«154240_j78829829751266_2_alg».proof.Proof.Gen.ReferenceIdeal
import proofs.«154240_j78829829751266_2_alg».proof.Proof.Gen.Pre_finite_inputs
import proofs.«154240_j78829829751266_2_alg».proof.Proof.Gen.ReferenceIdeal.Run
import proofs.«154240_j78829829751266_2_alg».proof.Proof.Gen.ReferenceIdeal.Read
import proofs.«154240_j78829829751266_2_alg».proof.Proof.GenP.Kernel.Frame
import proofs.«154240_j78829829751266_2_alg».proof.Proof.GenP.KernelIdeal.Frame
import proofs.«154240_j78829829751266_2_alg».proof.Proof.KValue
import proofs.«154240_j78829829751266_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's loss of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.Value.specLoss m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v135_eq, Cert.ReferenceIdeal.RefValue.loss_eq, h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
